-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x4 : Shape := ⟨2, ![1600000, 4]⟩
abbrev S2x1600000 : Shape := ⟨2, ![2, 1600000]⟩
abbrev S100000 : Shape := ⟨1, ![100000]⟩
abbrev S128x128 : Shape := ⟨2, ![128, 128]⟩
abbrev S3x128x128 : Shape := ⟨3, ![3, 128, 128]⟩
abbrev S4x128 : Shape := ⟨2, ![4, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S4x128 .f32) (main_arg7 : FVec F S4x128 .f32) (main_arg8 : FVec F S4x128 .f32) (main_arg9 : FVec F S128x128 .f32) (main_arg10 : FVec F S128 .f32) (main_arg11 : FVec F S128x10 .f32) (main_arg12 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : FVec F S1600000x4 .f32) (main_arg2 : IVec S2x1600000 32) (main_arg3 : IVec S100000 32) (main_arg4 : FVec F S128x128 .f32) (main_arg5 : FVec F S3x128x128 .f32) (main_arg6 : FVec F S4x128 .f32) (main_arg7 : FVec F S4x128 .f32) (main_arg8 : FVec F S4x128 .f32) (main_arg9 : FVec F S128x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000x4 : Shape := ⟨2, ![1600000, 4]⟩
abbrev S2x1600000 : Shape := ⟨2, ![2, 1600000]⟩
abbrev S100000 : Shape := ⟨1, ![100000]⟩
abbrev S128x128 : Shape := ⟨2, ![128, 128]⟩
abbrev S3x128x128 : Shape := ⟨3, ![3, 128, 128]⟩
abbrev S4x128 : Shape := ⟨2, ![4, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S100x128 : Shape := ⟨2, ![100, 128]⟩
abbrev S100000x1 : Shape := ⟨2, ![100000, 1]⟩
abbrev S100 : Shape := ⟨1, ![100]⟩
abbrev S100x1 : Shape := ⟨2, ![100, 1]⟩
abbrev S100x10 : Shape := ⟨2, ![100, 10]⟩
abbrev S1x10 : Shape := ⟨2, ![1, 10]⟩

abbrev nBuf : Space → Nat
  | .hbm => 240
  | .vmem => 62
  | .smem => 0
  | _ => 0

abbrev hbmTy0_0 (i : Nat) : BufTy := match i % 128 with
  | 0 => ⟨S100000x128, .f32⟩
  | 1 => ⟨S1600000x4, .f32⟩
  | 2 => ⟨S2x1600000, .i32⟩
  | 3 => ⟨S100000, .i32⟩
  | 4 => ⟨S128x128, .f32⟩
  | 5 => ⟨S3x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S1x128x128, .f32⟩
  | 18 => ⟨S128x128, .f32⟩
  | 19 => ⟨S1x128x128, .f32⟩
  | 20 => ⟨S128x128, .f32⟩
  | 21 => ⟨S1x128x128, .f32⟩
  | 22 => ⟨S128x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S1x128, .f32⟩
  | 38 => ⟨S128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S128, .f32⟩
  | 70 => ⟨S1x128, .f32⟩
  | 71 => ⟨S128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S1x128, .f32⟩
  | 88 => ⟨S128, .f32⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S100000x128, .f32⟩
  | 103 => ⟨S100000x128, .f32⟩
  | 104 => ⟨S100000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S128, .f32⟩
  | 120 => ⟨S1x128, .f32⟩
  | 121 => ⟨S128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x128, .f32⟩
  | 9 => ⟨S1x128, .f32⟩
  | 10 => ⟨S128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S128, .f32⟩
  | 42 => ⟨S1x128, .f32⟩
  | 43 => ⟨S128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x128, .f32⟩
  | 59 => ⟨S1x128, .f32⟩
  | 60 => ⟨S128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S128, .f32⟩
  | 92 => ⟨S1x128, .f32⟩
  | 93 => ⟨S128, .f32⟩
  | 94 => ⟨S100000x128, .f32⟩
  | 95 => ⟨S_, .f32⟩
  | 96 => ⟨S100x128, .f32⟩
  | 97 => ⟨S100000x1, .i32⟩
  | 98 => ⟨S100x128, .f32⟩
  | 99 => ⟨S_, .f32⟩
  | 100 => ⟨S100000, .f32⟩
  | 101 => ⟨S_, .f32⟩
  | 102 => ⟨S100, .f32⟩
  | 103 => ⟨S100000x1, .i32⟩
  | 104 => ⟨S100, .f32⟩
  | 105 => ⟨S_, .f32⟩
  | 106 => ⟨S100, .f32⟩
  | 107 => ⟨S100, .f32⟩
  | 108 => ⟨S100x1, .f32⟩
  | 109 => ⟨S100x128, .f32⟩
  | 110 => ⟨S100x128, .f32⟩
  | 111 => ⟨S100x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128, .f32⟩
  | .local _ .vmem, ⟨51, _⟩ => ⟨S128, .f32⟩
  | .local _ .vmem, ⟨52, _⟩ => ⟨S128, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S100x128, .f32⟩
  | .local _ .vmem, ⟨57, _⟩ => ⟨S128x128, .f32⟩
  | .local _ .vmem, ⟨58, _⟩ => ⟨S128, .f32⟩
  | .local _ .vmem, ⟨59, _⟩ => ⟨S128x10, .f32⟩
  | .local _ .vmem, ⟨60, _⟩ => ⟨S10, .f32⟩
  | .local _ .vmem, ⟨61, _⟩ => ⟨S100x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_4 : Ref sig .tc := ⟨.hbm, 73, rfl⟩
abbrev main_v33 : Ref sig .tc := ⟨.hbm, 74, rfl⟩
abbrev main_v34 : Ref sig .tc := ⟨.hbm, 75, rfl⟩
abbrev main_c_5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_6 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_c_9 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_c_10 : Ref sig .tc := ⟨.hbm, 123, rfl⟩
abbrev main_v56 : Ref sig .tc := ⟨.hbm, 124, rfl⟩
abbrev main_v57 : Ref sig .tc := ⟨.hbm, 125, rfl⟩
abbrev main_c_11 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_cst_12 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_13 : Ref sig .tc := ⟨.hbm, 140, rfl⟩
abbrev main_v70 : Ref sig .tc := ⟨.hbm, 141, rfl⟩
abbrev main_cst_14 : Ref sig .tc := ⟨.hbm, 142, rfl⟩
abbrev main_v71 : Ref sig .tc := ⟨.hbm, 143, rfl⟩
abbrev main_v72 : Ref sig .tc := ⟨.hbm, 144, rfl⟩
abbrev main_c_15 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_c_16 : Ref sig .tc := ⟨.hbm, 173, rfl⟩
abbrev main_v79 : Ref sig .tc := ⟨.hbm, 174, rfl⟩
abbrev main_v80 : Ref sig .tc := ⟨.hbm, 175, rfl⟩
abbrev main_c_17 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_cst_18 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_cst_19 : Ref sig .tc := ⟨.hbm, 190, rfl⟩
abbrev main_v93 : Ref sig .tc := ⟨.hbm, 191, rfl⟩
abbrev main_cst_20 : Ref sig .tc := ⟨.hbm, 192, rfl⟩
abbrev main_v94 : Ref sig .tc := ⟨.hbm, 193, rfl⟩
abbrev main_v95 : Ref sig .tc := ⟨.hbm, 194, rfl⟩
abbrev main_c_21 : Ref sig .tc := ⟨.hbm, 195, rfl⟩
abbrev main_call3_cst : Ref sig .tc := ⟨.hbm, 196, rfl⟩
abbrev main_call3_v0 : Ref sig .tc := ⟨.hbm, 197, rfl⟩
abbrev main_call3_v1 : Ref sig .tc := ⟨.hbm, 198, rfl⟩
abbrev main_call3_cst_0 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_v6 : Ref sig .tc := ⟨.hbm, 204, rfl⟩
abbrev main_call3_v7 : Ref sig .tc := ⟨.hbm, 205, rfl⟩
abbrev main_call3_cst_1 : Ref sig .tc := ⟨.hbm, 206, rfl⟩
abbrev main_call3_v8 : Ref sig .tc := ⟨.hbm, 207, rfl⟩
abbrev main_call3_cst_2 : Ref sig .tc := ⟨.hbm, 208, rfl⟩
abbrev main_call3_v9 : Ref sig .tc := ⟨.hbm, 209, rfl⟩
abbrev main_call3_v10 : Ref sig .tc := ⟨.hbm, 210, rfl⟩
abbrev main_call3_v11 : Ref sig .tc := ⟨.hbm, 211, rfl⟩
abbrev main_call3_cst_3 : Ref sig .tc := ⟨.hbm, 212, rfl⟩
abbrev main_call3_v12 : Ref sig .tc := ⟨.hbm, 213, rfl⟩
abbrev main_call3_cst_4 : Ref sig .tc := ⟨.hbm, 214, rfl⟩
abbrev main_call3_call0_v0 : Ref sig .tc := ⟨.hbm, 215, rfl⟩
abbrev main_call3_call0_v1 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_cst_22 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_cst_23 : Ref sig .tc := ⟨.hbm, 227, rfl⟩
abbrev main_v105 : Ref sig .tc := ⟨.hbm, 228, rfl⟩
abbrev main_cst_24 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_cst_25 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg5_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55
abbrev cc8_sem0_0 : DmaSem sig := 56
abbrev cc8_sem1_0 : DmaSem sig := 57
abbrev cc8_sem2_0 : DmaSem sig := 58
abbrev cc8_sem3_0 : DmaSem sig := 59
abbrev cc8_sem4_0 : DmaSem sig := 60
abbrev cc8_sem5_0 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S100x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S100x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S4x128_S1x128_1_0 : S4x128.Slices ![1, 0] S1x128
  shapeCasts_S128x128_S128x128 : S128x128.ShapeCasts S128x128
  slices_S4x128_S1x128_2_0 : S4x128.Slices ![2, 0] S1x128
  slices_S4x128_S1x128_3_0 : S4x128.Slices ![3, 0] S1x128
  bcast_S_S100x128 : S_.BroadcastsInDim S100x128 (![] : Fin 0 → Fin S100x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  inb_S100x128_S100x128_0_0 : ∀ a, (![0, 0] : Fin 2 → Nat) a + S100x128.size a ≤ S100x128.size a
  h_S100x128 : 0 < S100x128.numel
  shapeCasts_S100x128_S100x128 : S100x128.ShapeCasts S100x128
  broadcasts_S1x128_S100x128 : S1x128.Broadcasts S100x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S100x10 : S1x10.Broadcasts S100x10
  reduces_S100x10_S10 : S100x10.Reduces [0] S10
  inb_S100x10_S100x10_0_0 : ∀ a, (![0, 0] : Fin 2 → Nat) a + S100x10.size a ≤ S100x10.size a
  h_S100x10 : 0 < S100x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1
  dot_S100x128_S128x128_S100x128_1_0_0_1_n_n_wf : DotDims.WF S100x128 S128x128 S100x128 [1] [0] [0] [1] [] []
  dot_S100x128_S128x10_S100x10_1_0_0_1_n_n_wf : DotDims.WF S100x128 S128x10 S100x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S100x128.size a ≤ S100x128.size a
  hwx8_0 : ∀ i : grid8.Coords, EltTy.bits .f32 = 32 ∨ (Rect.block (s := S100x128) S100x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S10.size a ≤ S10.size a
  hwx8_4 : ∀ i : grid8.Coords, EltTy.bits .f32 = 32 ∨ (Rect.block (s := S10) S10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S100x10.size a ≤ S100x10.size a
  hwx8_5 : ∀ i : grid8.Coords, EltTy.bits .f32 = 32 ∨ (Rect.block (s := S100x10) S100x10.size (cc8_transform_5 i) (hinb8_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S100x128_S128x10_S100x10_1_0_0_1_n_n : DotDims S100x128 S128x10 S100x10 where
  lhsContracting := [1]
  rhsContracting := [0]
  lhsNonContracting := [0]
  rhsNonContracting := [1]
  lhsBatch := []
  rhsBatch := []
  wf := dot_S100x128_S128x10_S100x10_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v92) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v98) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v113) S100x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg10) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg11) S128x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg12) S10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v114) S100x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x128 : Shape := ⟨2, ![100000, 128]⟩
abbrev S1600000x4 : Shape := ⟨2, ![1600000, 4]⟩
abbrev S2x1600000 : Shape := ⟨2, ![2, 1600000]⟩
abbrev S100000 : Shape := ⟨1, ![100000]⟩
abbrev S128x128 : Shape := ⟨2, ![128, 128]⟩
abbrev S3x128x128 : Shape := ⟨3, ![3, 128, 128]⟩
abbrev S4x128 : Shape := ⟨2, ![4, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x128x128 : Shape := ⟨3, ![1, 128, 128]⟩
abbrev S100x128 : Shape := ⟨2, ![100, 128]⟩
abbrev S100000x1 : Shape := ⟨2, ![100000, 1]⟩
abbrev S100 : Shape := ⟨1, ![100]⟩
abbrev S100x1 : Shape := ⟨2, ![100, 1]⟩
abbrev S100x10 : Shape := ⟨2, ![100, 10]⟩
abbrev S1x10 : Shape := ⟨2, ![1, 10]⟩

abbrev nBuf : Space → Nat
  | .hbm => 361
  | .vmem => 0
  | .smem => 0
  | _ => 0

abbrev hbmTy0_0 (i : Nat) : BufTy := match i % 128 with
  | 0 => ⟨S100000x128, .f32⟩
  | 1 => ⟨S1600000x4, .f32⟩
  | 2 => ⟨S2x1600000, .i32⟩
  | 3 => ⟨S100000, .i32⟩
  | 4 => ⟨S128x128, .f32⟩
  | 5 => ⟨S3x128x128, .f32⟩
  | 6 => ⟨S4x128, .f32⟩
  | 7 => ⟨S4x128, .f32⟩
  | 8 => ⟨S4x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x128, .f32⟩
  | 120 => ⟨S1x128x128, .f32⟩
  | 121 => ⟨S128x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S128, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S100x128, .f32⟩
  | 53 => ⟨S100000x1, .i32⟩
  | 54 => ⟨S100x128, .f32⟩
  | 55 => ⟨S_, .f32⟩
  | 56 => ⟨S100000, .f32⟩
  | 57 => ⟨S_, .f32⟩
  | 58 => ⟨S100, .f32⟩
  | 59 => ⟨S100000x1, .i32⟩
  | 60 => ⟨S100, .f32⟩
  | 61 => ⟨S_, .f32⟩
  | 62 => ⟨S100, .f32⟩
  | 63 => ⟨S100, .f32⟩
  | 64 => ⟨S100x1, .f32⟩
  | 65 => ⟨S100x128, .f32⟩
  | 66 => ⟨S100x128, .f32⟩
  | 67 => ⟨S100x128, .f32⟩
  | 68 => ⟨S1x128, .f32⟩
  | 69 => ⟨S100x128, .f32⟩
  | 70 => ⟨S100x128, .f32⟩
  | 71 => ⟨S_, .f32⟩
  | 72 => ⟨S100x128, .f32⟩
  | 73 => ⟨S100x128, .i1⟩
  | 74 => ⟨S_, .f32⟩
  | 75 => ⟨S100x128, .f32⟩
  | 76 => ⟨S100x128, .i1⟩
  | 77 => ⟨S_, .f32⟩
  | 78 => ⟨S_, .f32⟩
  | 79 => ⟨S100x128, .f32⟩
  | 80 => ⟨S100x128, .f32⟩
  | 81 => ⟨S100x128, .f32⟩
  | 82 => ⟨S_, .f32⟩
  | 83 => ⟨S100x128, .f32⟩
  | 84 => ⟨S100x128, .f32⟩
  | 85 => ⟨S100x128, .f32⟩
  | 86 => ⟨S100x10, .f32⟩
  | 87 => ⟨S1x10, .f32⟩
  | 88 => ⟨S100x10, .f32⟩
  | 89 => ⟨S100x10, .f32⟩
  | 90 => ⟨S_, .f32⟩
  | 91 => ⟨S10, .f32⟩
  | 92 => ⟨S_, .f32⟩
  | 93 => ⟨S10, .f32⟩
  | 94 => ⟨S10, .f32⟩
  | 95 => ⟨S1x10, .f32⟩
  | 96 => ⟨S100x10, .f32⟩
  | 97 => ⟨S100x10, .f32⟩
  | 98 => ⟨S100x10, .f32⟩
  | 99 => ⟨S_, .f32⟩
  | 100 => ⟨S10, .f32⟩
  | 101 => ⟨S1x10, .f32⟩
  | 102 => ⟨S1x10, .f32⟩
  | 103 => ⟨S100x10, .f32⟩
  | 104 => ⟨S100x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call1_cst : Ref sig .tc := ⟨.hbm, 85, rfl⟩
abbrev main_call1_v0 : Ref sig .tc := ⟨.hbm, 86, rfl⟩
abbrev main_v44 : Ref sig .tc := ⟨.hbm, 87, rfl⟩
abbrev main_c_5 : Ref sig .tc := ⟨.hbm, 88, rfl⟩
abbrev main_v45 : Ref sig .tc := ⟨.hbm, 89, rfl⟩
abbrev main_v46 : Ref sig .tc := ⟨.hbm, 90, rfl⟩
abbrev main_c_6 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_7 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_8 : Ref sig .tc := ⟨.hbm, 114, rfl⟩
abbrev main_v68 : Ref sig .tc := ⟨.hbm, 115, rfl⟩
abbrev main_cst_9 : Ref sig .tc := ⟨.hbm, 116, rfl⟩
abbrev main_v69 : Ref sig .tc := ⟨.hbm, 117, rfl⟩
abbrev main_v70 : Ref sig .tc := ⟨.hbm, 118, rfl⟩
abbrev main_c_10 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_11 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_call3_cst : Ref sig .tc := ⟨.hbm, 158, rfl⟩
abbrev main_call3_v0 : Ref sig .tc := ⟨.hbm, 159, rfl⟩
abbrev main_v87 : Ref sig .tc := ⟨.hbm, 160, rfl⟩
abbrev main_c_12 : Ref sig .tc := ⟨.hbm, 161, rfl⟩
abbrev main_v88 : Ref sig .tc := ⟨.hbm, 162, rfl⟩
abbrev main_v89 : Ref sig .tc := ⟨.hbm, 163, rfl⟩
abbrev main_c_13 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_14 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_15 : Ref sig .tc := ⟨.hbm, 187, rfl⟩
abbrev main_v111 : Ref sig .tc := ⟨.hbm, 188, rfl⟩
abbrev main_cst_16 : Ref sig .tc := ⟨.hbm, 189, rfl⟩
abbrev main_v112 : Ref sig .tc := ⟨.hbm, 190, rfl⟩
abbrev main_v113 : Ref sig .tc := ⟨.hbm, 191, rfl⟩
abbrev main_c_17 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_v6 : Ref sig .tc := ⟨.hbm, 201, rfl⟩
abbrev main_call4_v7 : Ref sig .tc := ⟨.hbm, 202, rfl⟩
abbrev main_call4_cst_1 : Ref sig .tc := ⟨.hbm, 203, rfl⟩
abbrev main_call4_v8 : Ref sig .tc := ⟨.hbm, 204, rfl⟩
abbrev main_call4_cst_2 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_call4_cst_3 : Ref sig .tc := ⟨.hbm, 209, rfl⟩
abbrev main_call4_v12 : Ref sig .tc := ⟨.hbm, 210, rfl⟩
abbrev main_call4_cst_4 : Ref sig .tc := ⟨.hbm, 211, rfl⟩
abbrev main_call4_call0_v0 : Ref sig .tc := ⟨.hbm, 212, rfl⟩
abbrev main_call4_call0_v1 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_18 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_call5_cst : Ref sig .tc := ⟨.hbm, 231, rfl⟩
abbrev main_call5_v0 : Ref sig .tc := ⟨.hbm, 232, rfl⟩
abbrev main_v130 : Ref sig .tc := ⟨.hbm, 233, rfl⟩
abbrev main_c_19 : Ref sig .tc := ⟨.hbm, 234, rfl⟩
abbrev main_v131 : Ref sig .tc := ⟨.hbm, 235, rfl⟩
abbrev main_v132 : Ref sig .tc := ⟨.hbm, 236, rfl⟩
abbrev main_c_20 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_cst_21 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_cst_22 : Ref sig .tc := ⟨.hbm, 260, rfl⟩
abbrev main_v154 : Ref sig .tc := ⟨.hbm, 261, rfl⟩
abbrev main_cst_23 : Ref sig .tc := ⟨.hbm, 262, rfl⟩
abbrev main_v155 : Ref sig .tc := ⟨.hbm, 263, rfl⟩
abbrev main_v156 : Ref sig .tc := ⟨.hbm, 264, rfl⟩
abbrev main_c_24 : Ref sig .tc := ⟨.hbm, 265, rfl⟩
abbrev main_call6_cst : Ref sig .tc := ⟨.hbm, 266, rfl⟩
abbrev main_call6_v0 : Ref sig .tc := ⟨.hbm, 267, rfl⟩
abbrev main_call6_v1 : Ref sig .tc := ⟨.hbm, 268, rfl⟩
abbrev main_call6_cst_0 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_call6_v5 : Ref sig .tc := ⟨.hbm, 273, rfl⟩
abbrev main_call6_v6 : Ref sig .tc := ⟨.hbm, 274, rfl⟩
abbrev main_call6_v7 : Ref sig .tc := ⟨.hbm, 275, rfl⟩
abbrev main_call6_cst_1 : Ref sig .tc := ⟨.hbm, 276, rfl⟩
abbrev main_call6_v8 : Ref sig .tc := ⟨.hbm, 277, rfl⟩
abbrev main_call6_cst_2 : Ref sig .tc := ⟨.hbm, 278, rfl⟩
abbrev main_call6_v9 : Ref sig .tc := ⟨.hbm, 279, rfl⟩
abbrev main_call6_v10 : Ref sig .tc := ⟨.hbm, 280, rfl⟩
abbrev main_call6_v11 : Ref sig .tc := ⟨.hbm, 281, rfl⟩
abbrev main_call6_cst_3 : Ref sig .tc := ⟨.hbm, 282, rfl⟩
abbrev main_call6_v12 : Ref sig .tc := ⟨.hbm, 283, rfl⟩
abbrev main_call6_cst_4 : Ref sig .tc := ⟨.hbm, 284, rfl⟩
abbrev main_call6_call0_v0 : Ref sig .tc := ⟨.hbm, 285, rfl⟩
abbrev main_call6_call0_v1 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_cst_25 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_v167 : Ref sig .tc := ⟨.hbm, 298, rfl⟩
abbrev main_v168 : Ref sig .tc := ⟨.hbm, 299, rfl⟩
abbrev main_v169 : Ref sig .tc := ⟨.hbm, 300, rfl⟩
abbrev main_v170 : Ref sig .tc := ⟨.hbm, 301, rfl⟩
abbrev main_v171 : Ref sig .tc := ⟨.hbm, 302, rfl⟩
abbrev main_v172 : Ref sig .tc := ⟨.hbm, 303, rfl⟩
abbrev main_call7_cst : Ref sig .tc := ⟨.hbm, 304, rfl⟩
abbrev main_call7_v0 : Ref sig .tc := ⟨.hbm, 305, rfl⟩
abbrev main_v173 : Ref sig .tc := ⟨.hbm, 306, rfl⟩
abbrev main_cst_26 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_cst_27 : Ref sig .tc := ⟨.hbm, 311, rfl⟩
abbrev main_v177 : Ref sig .tc := ⟨.hbm, 312, rfl⟩
abbrev main_cst_28 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_cst_29 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_call8_cst : Ref sig .tc := ⟨.hbm, 327, rfl⟩
abbrev main_call8_v0 : Ref sig .tc := ⟨.hbm, 328, rfl⟩
abbrev main_call8_v1 : Ref sig .tc := ⟨.hbm, 329, rfl⟩
abbrev main_call8_cst_0 : Ref sig .tc := ⟨.hbm, 330, rfl⟩
abbrev main_call8_v2 : Ref sig .tc := ⟨.hbm, 331, rfl⟩
abbrev main_call8_v3 : Ref sig .tc := ⟨.hbm, 332, rfl⟩
abbrev main_call8_cst_1 : Ref sig .tc := ⟨.hbm, 333, rfl⟩
abbrev main_call8_call0_v0 : Ref sig .tc := ⟨.hbm, 334, rfl⟩
abbrev main_call8_call0_v1 : Ref sig .tc := ⟨.hbm, 335, rfl⟩
abbrev main_call8_v4 : Ref sig .tc := ⟨.hbm, 336, rfl⟩
abbrev main_call8_v5 : Ref sig .tc := ⟨.hbm, 337, rfl⟩
abbrev main_call8_cst_2 : Ref sig .tc := ⟨.hbm, 338, rfl⟩
abbrev main_call8_v6 : Ref sig .tc := ⟨.hbm, 339, rfl⟩
abbrev main_call8_v7 : Ref sig .tc := ⟨.hbm, 340, rfl⟩
abbrev main_v190 : Ref sig .tc := ⟨.hbm, 341, rfl⟩
abbrev main_v191 : Ref sig .tc := ⟨.hbm, 342, rfl⟩
abbrev main_v192 : Ref sig .tc := ⟨.hbm, 343, rfl⟩
abbrev main_v193 : Ref sig .tc := ⟨.hbm, 344, rfl⟩
abbrev main_v194 : Ref sig .tc := ⟨.hbm, 345, rfl⟩
abbrev main_call9_cst : Ref sig .tc := ⟨.hbm, 346, rfl⟩
abbrev main_call9_v0 : Ref sig .tc := ⟨.hbm, 347, rfl⟩
abbrev main_call9_cst_0 : Ref sig .tc := ⟨.hbm, 348, rfl⟩
abbrev main_call9_v1 : Ref sig .tc := ⟨.hbm, 349, rfl⟩
abbrev main_call9_v2 : Ref sig .tc := ⟨.hbm, 350, rfl⟩
abbrev main_call9_v3 : Ref sig .tc := ⟨.hbm, 351, rfl⟩
abbrev main_call9_v4 : Ref sig .tc := ⟨.hbm, 352, rfl⟩
abbrev main_call9_v5 : Ref sig .tc := ⟨.hbm, 353, rfl⟩
abbrev main_call9_v6 : Ref sig .tc := ⟨.hbm, 354, rfl⟩
abbrev main_call9_cst_1 : Ref sig .tc := ⟨.hbm, 355, rfl⟩
abbrev main_call9_v7 : Ref sig .tc := ⟨.hbm, 356, rfl⟩
abbrev main_call9_v8 : Ref sig .tc := ⟨.hbm, 357, rfl⟩
abbrev main_call9_v9 : Ref sig .tc := ⟨.hbm, 358, rfl⟩
abbrev main_call9_v10 : Ref sig .tc := ⟨.hbm, 359, rfl⟩
abbrev main_v195 : Ref sig .tc := ⟨.hbm, 360, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  slices_S4x128_S1x128_1_0 : S4x128.Slices ![1, 0] S1x128
  slices_S3x128x128_S1x128x128_1_0_0 : S3x128x128.Slices ![1, 0, 0] S1x128x128
  slices_S4x128_S1x128_2_0 : S4x128.Slices ![2, 0] S1x128
  slices_S3x128x128_S1x128x128_2_0_0 : S3x128x128.Slices ![2, 0, 0] S1x128x128
  slices_S4x128_S1x128_3_0 : S4x128.Slices ![3, 0] S1x128
  bcast_S_S100x128 : S_.BroadcastsInDim S100x128 (![] : Fin 0 → Fin S100x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S1x128_S100x128_0_1 : S1x128.BroadcastsInDim S100x128 (![0, 1] : Fin 2 → Fin S100x128.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  reducesTo_S100x10_S10_d0 : S100x10.ReducesTo [0] S10
  bcast_S_S10 : S_.BroadcastsInDim S10 (![] : Fin 0 → Fin S10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1
  dot_S100x128_S128x128_S100x128_1_0_0_1_n_n_wf : DotDims.WF S100x128 S128x128 S100x128 [1] [0] [0] [1] [] []
  dot_S100x128_S128x10_S100x10_1_0_0_1_n_n_wf : DotDims.WF S100x128 S128x10 S100x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S100x128_S128x10_S100x10_1_0_0_1_n_n : DotDims S100x128 S128x10 S100x10 where
  lhsContracting := [1]
  rhsContracting := [0]
  lhsNonContracting := [0]
  rhsNonContracting := [1]
  lhsBatch := []
  rhsBatch := []
  wf := dot_S100x128_S128x10_S100x10_1_0_0_1_n_n_wf

class Facts : Prop extends Facts₀ where

variable [Facts]
-- ==== Proof.KRun.lean ====
/-
  The idealized kernel program's run, with its result named.

  The program is nine TensorCore regions among stretches of host operations.  At every boundary between two
  segments the contents of every unscoped buffer are a function of the launch memory alone: a stretch of host
  operations rewrites the buffers its operations write, a region leaves each of its arrays at what its
  write-backs leave and every other buffer as it found it.  Every weakly fair execution terminates without a
  fault with each buffer at the last boundary's contents; read at the result buffer this names the result, and
  read at the thirteen arguments it says they end as launched.
-/
import proofs.«177976_j84851373900196_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v114) = W26 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v114 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c)⟩)

end Cert.KernelIdeal.Hand

end
-- ==== Proof.Spec.lean ====
/-
  The stages of the network, each named once as a function of whole arrays.

  One graph-convolution layer on N = 100000 nodes with H = 128 features and E = 1600000 edges is
    z   = (h + A h) W + b          A h = the sum, over the edges into a node, of the source node's row
    h'  = max(0, (z - mean z) * rsqrt(var z + eps) * gamma + beta)
  with mean and var taken over the node axis (biased variance).  Four such layers are followed by a mean
  pool over 100 graphs and a two-layer head (ELU, then log-softmax over the graph axis).

  Every stage is spelt with whole-array host operations: a matrix product as a dot_general with one contracted
  axis, a column statistic as a sum over the node axis divided by 100000, a per-lane parameter as a vector of 128
  repeated down the rows.
-/
import proofs.«177976_j84851373900196_1_alg».proof.ReferenceIdeal

noncomputable section

namespace Cert.Spec

open Idealize.ShloMosaic Cert.ReferenceIdeal

/-- The contents of a float buffer of shape `S`. -/
abbrev TF (F : FTy → Type) (S : Shape) : Type := (⟨S, .f32⟩ : BufTy).Contents (Elt F)
/-- The contents of an int32 buffer of shape `S`. -/
abbrev TI (F : FTy → Type) (S : Shape) : Type := (⟨S, .i32⟩ : BufTy).Contents (Elt F)

variable {F : FTy → Type} [FloatOps F] [Cert.ReferenceIdeal.Facts]
open Cert.ReferenceIdeal.Facts₀ Cert.ReferenceIdeal.Facts

/-- Row 0 of the edge list: the source node of each edge. -/
def srcOf (ei : TI F S2x1600000) : TI F S1600000 :=
  shapeCast S1600000 (extractStridedSlice S1x1600000 ![0, 0] ei slices_S2x1600000_S1x1600000_0_0) shapeCasts_S1x1600000_S1600000
/-- Row 1 of the edge list: the destination node of each edge. -/
def dstOf (ei : TI F S2x1600000) : TI F S1600000 :=
  shapeCast S1600000 (extractStridedSlice S1x1600000 ![1, 0] ei slices_S2x1600000_S1x1600000_1_0) shapeCasts_S1x1600000_S1600000

/-- Row k of a 4 x 128 parameter table. -/
def row0 (a : TF F S4x128) : TF F S128 := shapeCast S128 (extractStridedSlice S1x128 ![0, 0] a slices_S4x128_S1x128_0_0) shapeCasts_S1x128_S128
def row1 (a : TF F S4x128) : TF F S128 := shapeCast S128 (extractStridedSlice S1x128 ![1, 0] a slices_S4x128_S1x128_1_0) shapeCasts_S1x128_S128
def row2 (a : TF F S4x128) : TF F S128 := shapeCast S128 (extractStridedSlice S1x128 ![2, 0] a slices_S4x128_S1x128_2_0) shapeCasts_S1x128_S128
def row3 (a : TF F S4x128) : TF F S128 := shapeCast S128 (extractStridedSlice S1x128 ![3, 0] a slices_S4x128_S1x128_3_0) shapeCasts_S1x128_S128

/-- Matrix k of the stacked weights. -/
def mat0 (w : TF F S3x128x128) : TF F S128x128 := shapeCast S128x128 (extractStridedSlice S1x128x128 ![0, 0, 0] w slices_S3x128x128_S1x128x128_0_0_0) shapeCasts_S1x128x128_S128x128
def mat1 (w : TF F S3x128x128) : TF F S128x128 := shapeCast S128x128 (extractStridedSlice S1x128x128 ![1, 0, 0] w slices_S3x128x128_S1x128x128_1_0_0) shapeCasts_S1x128x128_S128x128
def mat2 (w : TF F S3x128x128) : TF F S128x128 := shapeCast S128x128 (extractStridedSlice S1x128x128 ![2, 0, 0] w slices_S3x128x128_S1x128x128_2_0_0) shapeCasts_S1x128x128_S128x128

/-- A vector of 128 lane values repeated down the 100000 rows. -/
def rows (v : TF F S128) : TF F S100000x128 :=
  broadcastInDim S100000x128 ![0, 1] bcast_S1x128_S100000x128_0_1 (broadcastInDim S1x128 ![1] bcast_S128_S1x128_1 v)

/-- h + A h: each node's row plus the rows of the sources of the edges into it (a negative source index
    counted from the end, as the gather does). -/
def agg (h : TF F S100000x128) (src dst : TI F S1600000) : TF F S100000x128 :=
  addf h (Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))))

/-- x W + b. -/
def lin (x : TF F S100000x128) (w : TF F S128x128) (b : TF F S128) : TF F S100000x128 :=
  addf (Host.dotGeneral dot_S100000x128_S128x128_S100000x128_1_0_0_1_n_n none x w) (rows b)

/-- The mean of each column over the 100000 rows. -/
def colMean (z : TF F S100000x128) : TF F S128 :=
  Host.divf (Host.reduceAdd z (constant S_ .f32 0x00000000#32) reducesTo_S100000x128_S128_d0 h_S_)
    (broadcastInDim S128 ![] bcast_S_S128 (constant S_ .f32 0x47C35000#32))

/-- The biased variance of each column over the 100000 rows (the library routine's text: the divisor is
    100000 - ddof with ddof = 0, and a non-positive divisor would give NaN). -/
def colVar (z : TF F S100000x128) : TF F S128 :=
  select
    (broadcastInDim S128 ![] bcast_S_S128
      (cmpf .ogt (subf (constant (F := F) S_ .f32 0x47C35000#32) (sitofp .f32 (constantI S_ 32 0#32))) (constant (F := F) S_ .f32 0x00000000#32)))
    (Host.divf
      (Host.reduceAdd
        (mulf
          (subf z (broadcastInDim S100000x128 ![0, 1] bcast_S1x128_S100000x128_0_1
            (Host.divf (broadcastInDim S1x128 ![1] bcast_S128_S1x128_1 (Host.reduceAdd z (constant S_ .f32 0x00000000#32) reducesTo_S100000x128_S128_d0 h_S_))
              (broadcastInDim S1x128 ![] bcast_S_S1x128 (constant S_ .f32 0x47C35000#32)))))
          (subf z (broadcastInDim S100000x128 ![0, 1] bcast_S1x128_S100000x128_0_1
            (Host.divf (broadcastInDim S1x128 ![1] bcast_S128_S1x128_1 (Host.reduceAdd z (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (subf (constant S_ .f32 0x47C35000#32) (sitofp .f32 (constantI S_ 32 0#32)))))
    (broadcastInDim S128 ![] bcast_S_S128 (id (constant S_ .f32 0x7FC00000#32)))

/-- max(0, (z - mu) * rsqrt(var + eps) * gamma + beta), the statistics and parameters repeated down the rows. -/
def bnRelu (z : TF F S100000x128) (mu var gamma beta : TF F S128) : TF F S100000x128 :=
  maximumf
    (addf
      (mulf
        (mulf (subf z (rows mu))
          (rows (Host.rsqrt (addf var (broadcastInDim S128 ![] bcast_S_S128 (constant S_ .f32 0x3727C5AC#32))))))
        (rows gamma))
      (rows beta))
    (broadcastInDim S100000x128 ![] bcast_S_S100000x128 (constant S_ .f32 0x00000000#32))

/-- One layer. -/
def layer (h : TF F S100000x128) (src dst : TI F S1600000) (w : TF F S128x128) (b gamma beta : TF F S128) : TF F S100000x128 :=
  bnRelu (lin (agg h src dst) w b) (colMean (lin (agg h src dst) w b)) (colVar (lin (agg h src dst) w b)) gamma beta

/-- The mean of the node rows of each of the 100 graphs (an empty graph divides by 1). -/
def pool (h : TF F S100000x128) (batch : TI F S100000) : TF F S100x128 :=
  Host.divf
    (Host.scatterAdd scatter_S100x128_S100000x1_S100000x128_1_0_0_1
      (broadcastInDim S100x128 ![] bcast_S_S100x128 (constant S_ .f32 0x00000000#32))
      (broadcastInDim S100000x1 ![0] bcast_S100000_S100000x1_0 batch) h)
    (broadcastInDim S100x128 ![0, 1] bcast_S100x1_S100x128_0_1
      (broadcastInDim S100x1 ![0] bcast_S100_S100x1_0
        (maximumf
          (Host.scatterAdd scatter_S100_S100000x1_S100000_n_0_0_1
            (broadcastInDim S100 ![] bcast_S_S100 (constant S_ .f32 0x00000000#32))
            (broadcastInDim S100000x1 ![0] bcast_S100000_S100000x1_0 batch)
            (broadcastInDim S100000 ![] bcast_S_S100000 (constant S_ .f32 0x3F800000#32)))
          (broadcastInDim S100 ![] bcast_S_S100 (constant S_ .f32 0x3F800000#32)))))

/-- The first head layer before its activation: hg W1 + b1. -/
def fc1 (hg : TF F S100x128) (w1 : TF F S128x128) (b1 : TF F S128) : TF F S100x128 :=
  addf (Host.dotGeneral dot_S100x128_S128x128_S100x128_1_0_0_1_n_n none hg w1)
    (broadcastInDim S100x128 ![0, 1] bcast_S1x128_S100x128_0_1 (broadcastInDim S1x128 ![1] bcast_S128_S1x128_1 b1))

/-- ELU: x where x > 0, otherwise 1 * expm1 x (the exponent taken of 0 where x > 0). -/
def elu (x : TF F S100x128) : TF F S100x128 :=
  select (cmpf .ogt x (broadcastInDim S100x128 ![] bcast_S_S100x128 (constant S_ .f32 0x00000000#32))) x
    (mulf (broadcastInDim S100x128 ![] bcast_S_S100x128 (constant S_ .f32 0x3F800000#32))
      (Host.expm1 (select (cmpf .ogt x (broadcastInDim S100x128 ![] bcast_S_S100x128 (constant S_ .f32 0x00000000#32)))
        (broadcastInDim S100x128 ![] bcast_S_S100x128 (id (constant S_ .f32 0x00000000#32))) x)))

/-- The logits: a W2 + b2. -/
def fc2 (a : TF F S100x128) (w2 : TF F S128x10) (b2 : TF F S10) : TF F S100x10 :=
  addf (Host.dotGeneral dot_S100x128_S128x10_S100x10_1_0_0_1_n_n none a w2)
    (broadcastInDim S100x10 ![0, 1] bcast_S1x10_S100x10_0_1 (broadcastInDim S1x10 ![1] bcast_S10_S1x10_1 b2))

/-- A 10-vector repeated down the 100 rows. -/
def rows10 (v : TF F S10) : TF F S100x10 :=
  broadcastInDim S100x10 ![0, 1] bcast_S1x10_S100x10_0_1 (broadcastInDim S1x10 ![1] bcast_S10_S1x10_1 v)

/-- log-softmax down each column (over the 100 graphs): x - max - log (sum (exp (x - max))). -/
def logSoftmax0 (x : TF F S100x10) : TF F S100x10 :=
  subf
    (subf x (rows10 (maximumf (broadcastInDim S10 ![] bcast_S_S10 (constant S_ .f32 0xFF800000#32))
      (Host.reduce FloatOps.maximumf x (constant S_ .f32 0xFF800000#32) reducesTo_S100x10_S10_d0 h_S_))))
    (broadcastInDim S100x10 ![0, 1] bcast_S1x10_S100x10_0_1
      (Host.log (broadcastInDim S1x10 ![1] bcast_S10_S1x10_1
        (Host.reduceAdd
          (Host.exp (subf x (rows10 (maximumf (broadcastInDim S10 ![] bcast_S_S10 (constant S_ .f32 0xFF800000#32))
            (Host.reduce FloatOps.maximumf x (constant S_ .f32 0xFF800000#32) reducesTo_S100x10_S10_d0 h_S_)))))
          (constant S_ .f32 0x00000000#32) reducesTo_S100x10_S10_d0 h_S_))))

/-- The head. -/
def head (hg : TF F S100x128) (w1 : TF F S128x128) (b1 : TF F S128) (w2 : TF F S128x10) (b2 : TF F S10) : TF F S100x10 :=
  logSoftmax0 (fc2 (elu (fc1 hg w1 b1)) w2 b2)

/-- The whole network as a function of the thirteen arguments (edge_attr, the second, is never read). -/
def net (h : TF F S100000x128) (ei : TI F S2x1600000) (batch : TI F S100000) (w0 : TF F S128x128) (ws : TF F S3x128x128)
    (bs gammas betas : TF F S4x128) (w1 : TF F S128x128) (b1 : TF F S128) (w2 : TF F S128x10) (b2 : TF F S10) : TF F S100x10 :=
  head
    (pool
      (layer
        (layer
          (layer
            (layer h (srcOf ei) (dstOf ei) w0 (row0 bs) (row0 gammas) (row0 betas))
            (srcOf ei) (dstOf ei) (mat0 ws) (row1 bs) (row1 gammas) (row1 betas))
          (srcOf ei) (dstOf ei) (mat1 ws) (row2 bs) (row2 gammas) (row2 betas))
        (srcOf ei) (dstOf ei) (mat2 ws) (row3 bs) (row3 gammas) (row3 betas))
      batch)
    w1 b1 w2 b2

end Cert.Spec

end
-- ==== Proof.KHost.lean ====
/-
  What each stretch of host operations of the idealized kernel program leaves in the buffers the next region
  reads, as a function of what the stretch finds: for ANY contents V of the buffers before it.

  Before region 0: the two rows of the edge list, the three stacked weight matrices, h + A h of the input
  features, and row 0 of the bias table.  Before each later matrix-product region: h + A h of the previous
  layer's output and the layer's bias row.  Before each normalisation region: the column mean and the biased
  column variance of the region's input, and the layer's rows of the scale and shift tables.  Before the head:
  the mean pool over graphs.  Each is the corresponding whole-array function of Cert.Spec at the stretch's own
  operands: the two programs apply the same host operations here.
-/
import Idealize.ShloMosaic.Lib.StableHlo.Run
import proofs.«177976_j84851373900196_1_alg».proof.Proof.Gen.KernelIdeal.Launch
import proofs.«177976_j84851373900196_1_alg».proof.Proof.Gen.ReferenceIdeal
import proofs.«177976_j84851373900196_1_alg».proof.Proof.Spec

set_option maxRecDepth 16384

noncomputable section

namespace Cert.KernelIdeal.Hand

open Idealize.ShloMosaic Idealize.ShloMosaic.TcCoe Idealize.SL.Sem Cert.KernelIdeal Cert.KernelIdeal.Gen StableHlo

variable {F : FTy → Type} [FloatOps F]

/-- A TensorCore buffer as a device buffer. -/
abbrev B (b : Ref sig .tc) : DevRef τ sig := Proc.devRef .tc b

variable (V : Valuation τ sig (Elt F))

/-! ## Before region 0 -/

theorem pre0_src : after hostOps0 V (B main_v1) = Cert.Spec.srcOf (V (B main_arg2)) := by
  dsimp only [hostOps0]; after_results_simp; rfl
theorem pre0_dst : after hostOps0 V (B main_v3) = Cert.Spec.dstOf (V (B main_arg2)) := by
  dsimp only [hostOps0]; after_results_simp; rfl
theorem pre0_mat0 : after hostOps0 V (B main_v5) = Cert.Spec.mat0 (V (B main_arg5)) := by
  dsimp only [hostOps0]; after_results_simp; rfl
theorem pre0_mat1 : after hostOps0 V (B main_v7) = Cert.Spec.mat1 (V (B main_arg5)) := by
  dsimp only [hostOps0]; after_results_simp; rfl
theorem pre0_mat2 : after hostOps0 V (B main_v9) = Cert.Spec.mat2 (V (B main_arg5)) := by
  dsimp only [hostOps0]; after_results_simp; rfl
theorem pre0_agg : after hostOps0 V (B main_v20)
    = Cert.Spec.agg (V (B main_arg0)) (Cert.Spec.srcOf (V (B main_arg2))) (Cert.Spec.dstOf (V (B main_arg2))) := by
  dsimp only [hostOps0]; after_results_simp; rfl
theorem pre0_bias : after hostOps0 V (B main_v22) = Cert.Spec.row0 (V (B main_arg6)) := by
  dsimp only [hostOps0]; after_results_simp; rfl

/-! ## Before region 1: layer 0's column statistics and its scale and shift rows -/

theorem stats0_z : after hostOps1_2 (after hostOps1_1 (after hostOps1 V)) (B main_v23) = V (B main_v23) := by
  dsimp only [hostOps1, hostOps1_1, hostOps1_2]; after_results_simp
theorem stats0_mean : after hostOps1_2 (after hostOps1_1 (after hostOps1 V)) (B main_v26) = Cert.Spec.colMean (V (B main_v23)) := by
  dsimp only [hostOps1, hostOps1_1, hostOps1_2]; after_results_simp; rfl
theorem stats0_var : after hostOps1_2 (after hostOps1_1 (after hostOps1 V)) (B main_v27) = Cert.Spec.colVar (V (B main_v23)) := by
  dsimp only [hostOps1, hostOps1_1, hostOps1_2]; after_results_simp; rfl
theorem stats0_gamma : after hostOps1_2 (after hostOps1_1 (after hostOps1 V)) (B main_v29) = Cert.Spec.row0 (V (B main_arg7)) := by
  dsimp only [hostOps1, hostOps1_1, hostOps1_2]; after_results_simp; rfl
theorem stats0_beta : after hostOps1_2 (after hostOps1_1 (after hostOps1 V)) (B main_v31) = Cert.Spec.row0 (V (B main_arg8)) := by
  dsimp only [hostOps1, hostOps1_1, hostOps1_2]; after_results_simp; rfl

/-! ## Before region 2: layer 1's aggregation and bias row -/

theorem agg1 : after hostOps2 V (B main_v43) = Cert.Spec.agg (V (B main_v32)) (V (B main_v1)) (V (B main_v3)) := by
  dsimp only [hostOps2]; after_results_simp; rfl
theorem bias1 : after hostOps2 V (B main_v45) = Cert.Spec.row1 (V (B main_arg6)) := by
  dsimp only [hostOps2]; after_results_simp; rfl

/-! ## Before region 3: layer 1's column statistics and its scale and shift rows -/

theorem stats1_z : after hostOps3_2 (after hostOps3_1 (after hostOps3 V)) (B main_v46) = V (B main_v46) := by
  dsimp only [hostOps3, hostOps3_1, hostOps3_2]; after_results_simp
theorem stats1_mean : after hostOps3_2 (after hostOps3_1 (after hostOps3 V)) (B main_v49) = Cert.Spec.colMean (V (B main_v46)) := by
  dsimp only [hostOps3, hostOps3_1, hostOps3_2]; after_results_simp; rfl
theorem stats1_var : after hostOps3_2 (after hostOps3_1 (after hostOps3 V)) (B main_v50) = Cert.Spec.colVar (V (B main_v46)) := by
  dsimp only [hostOps3, hostOps3_1, hostOps3_2]; after_results_simp; rfl
theorem stats1_gamma : after hostOps3_2 (after hostOps3_1 (after hostOps3 V)) (B main_v52) = Cert.Spec.row1 (V (B main_arg7)) := by
  dsimp only [hostOps3, hostOps3_1, hostOps3_2]; after_results_simp; rfl
theorem stats1_beta : after hostOps3_2 (after hostOps3_1 (after hostOps3 V)) (B main_v54) = Cert.Spec.row1 (V (B main_arg8)) := by
  dsimp only [hostOps3, hostOps3_1, hostOps3_2]; after_results_simp; rfl

/-! ## Before region 4: layer 2's aggregation and bias row -/

theorem agg2 : after hostOps4 V (B main_v66) = Cert.Spec.agg (V (B main_v55)) (V (B main_v1)) (V (B main_v3)) := by
  dsimp only [hostOps4]; after_results_simp; rfl
theorem bias2 : after hostOps4 V (B main_v68) = Cert.Spec.row2 (V (B main_arg6)) := by
  dsimp only [hostOps4]; after_results_simp; rfl

/-! ## Before region 5: layer 2's column statistics and its scale and shift rows -/

theorem stats2_z : after hostOps5_2 (after hostOps5_1 (after hostOps5 V)) (B main_v69) = V (B main_v69) := by
  dsimp only [hostOps5, hostOps5_1, hostOps5_2]; after_results_simp
theorem stats2_mean : after hostOps5_2 (after hostOps5_1 (after hostOps5 V)) (B main_v72) = Cert.Spec.colMean (V (B main_v69)) := by
  dsimp only [hostOps5, hostOps5_1, hostOps5_2]; after_results_simp; rfl
theorem stats2_var : after hostOps5_2 (after hostOps5_1 (after hostOps5 V)) (B main_v73) = Cert.Spec.colVar (V (B main_v69)) := by
  dsimp only [hostOps5, hostOps5_1, hostOps5_2]; after_results_simp; rfl
theorem stats2_gamma : after hostOps5_2 (after hostOps5_1 (after hostOps5 V)) (B main_v75) = Cert.Spec.row2 (V (B main_arg7)) := by
  dsimp only [hostOps5, hostOps5_1, hostOps5_2]; after_results_simp; rfl
theorem stats2_beta : after hostOps5_2 (after hostOps5_1 (after hostOps5 V)) (B main_v77) = Cert.Spec.row2 (V (B main_arg8)) := by
  dsimp only [hostOps5, hostOps5_1, hostOps5_2]; after_results_simp; rfl

/-! ## Before region 6: layer 3's aggregation and bias row -/

theorem agg3 : after hostOps6 V (B main_v89) = Cert.Spec.agg (V (B main_v78)) (V (B main_v1)) (V (B main_v3)) := by
  dsimp only [hostOps6]; after_results_simp; rfl
theorem bias3 : after hostOps6 V (B main_v91) = Cert.Spec.row3 (V (B main_arg6)) := by
  dsimp only [hostOps6]; after_results_simp; rfl

/-! ## Before region 7: layer 3's column statistics and its scale and shift rows -/

theorem stats3_z : after hostOps7_2 (after hostOps7_1 (after hostOps7 V)) (B main_v92) = V (B main_v92) := by
  dsimp only [hostOps7, hostOps7_1, hostOps7_2]; after_results_simp
theorem stats3_mean : after hostOps7_2 (after hostOps7_1 (after hostOps7 V)) (B main_v95) = Cert.Spec.colMean (V (B main_v92)) := by
  dsimp only [hostOps7, hostOps7_1, hostOps7_2]; after_results_simp; rfl
theorem stats3_var : after hostOps7_2 (after hostOps7_1 (after hostOps7 V)) (B main_v96) = Cert.Spec.colVar (V (B main_v92)) := by
  dsimp only [hostOps7, hostOps7_1, hostOps7_2]; after_results_simp; rfl
theorem stats3_gamma : after hostOps7_2 (after hostOps7_1 (after hostOps7 V)) (B main_v98) = Cert.Spec.row3 (V (B main_arg7)) := by
  dsimp only [hostOps7, hostOps7_1, hostOps7_2]; after_results_simp; rfl
theorem stats3_beta : after hostOps7_2 (after hostOps7_1 (after hostOps7 V)) (B main_v100) = Cert.Spec.row3 (V (B main_arg8)) := by
  dsimp only [hostOps7, hostOps7_1, hostOps7_2]; after_results_simp; rfl

/-! ## Before the head: the mean pool -/

theorem pool8 : after hostOps8 V (B main_v113) = Cert.Spec.pool (V (B main_v101)) (V (B main_arg3)) := by
  dsimp only [hostOps8]; after_results_simp; rfl

end Cert.KernelIdeal.Hand

end
-- ==== Proof.KKeep.lean ====
/-
  A buffer that nothing touches keeps its contents from one boundary of the idealized kernel program to the next.

  Between the end of the host operations before region 0 (boundary 1) and the entry of the head region (boundary
  25) the program alternates regions and stretches of host operations.  A region rewrites only its own arrays; a
  stretch rewrites only the buffers its operations write.  For a buffer b, Quiet j b says that no segment
  between boundary 1 and boundary j touches b: b is no array of the regions among them and no operation of the
  stretches among them writes b.  It is a finite condition on literal lists, decided by computation.  Under it
  the contents of b at boundary j are its contents at boundary 1.
-/
import Idealize.ShloMosaic.PureOps.Ideal
import Idealize.ShloMosaic.Lib.StableHlo.Run
import proofs.«177976_j84851373900196_1_alg».proof.Proof.Gen.KernelIdeal.Frame

set_option maxRecDepth 16384

noncomputable section

namespace Cert.KernelIdeal.Keep

open Idealize.ShloMosaic Idealize.ShloMosaic.TcCoe Idealize.SL.Sem Cert.KernelIdeal Cert.KernelIdeal.Gen StableHlo

/-- A TensorCore buffer as a device buffer. -/
abbrev B (b : Ref sig .tc) : DevRef τ sig := Proc.devRef .tc b

/-- No operation of the stretch writes b. -/
abbrev Unwritten (ops : List (HloOp τ sig (Elt Ideal))) (b : Ref sig .tc) : Prop := ∀ op ∈ ops, B b ∉ op.writes

/-- b is none of the region's arrays. -/
abbrev NoArray {W r : ℕ} (spec : Fin W → Pipeline.WinSpec sig r) (b : Ref sig .tc) : Prop := ∀ w, Pipeline.arrRef spec w ≠ b

abbrev Quiet1 (_ : Ref sig .tc) : Prop := True
abbrev Quiet2 (b : Ref sig .tc) : Prop := Quiet1 b ∧ NoArray spec0 b
abbrev Quiet3 (b : Ref sig .tc) : Prop := Quiet2 b ∧ Unwritten hostOps1 b
abbrev Quiet4 (b : Ref sig .tc) : Prop := Quiet3 b ∧ Unwritten hostOps1_1 b
abbrev Quiet5 (b : Ref sig .tc) : Prop := Quiet4 b ∧ Unwritten hostOps1_2 b
abbrev Quiet6 (b : Ref sig .tc) : Prop := Quiet5 b ∧ NoArray spec1 b
abbrev Quiet7 (b : Ref sig .tc) : Prop := Quiet6 b ∧ Unwritten hostOps2 b
abbrev Quiet8 (b : Ref sig .tc) : Prop := Quiet7 b ∧ NoArray spec2 b
abbrev Quiet9 (b : Ref sig .tc) : Prop := Quiet8 b ∧ Unwritten hostOps3 b
abbrev Quiet10 (b : Ref sig .tc) : Prop := Quiet9 b ∧ Unwritten hostOps3_1 b
abbrev Quiet11 (b : Ref sig .tc) : Prop := Quiet10 b ∧ Unwritten hostOps3_2 b
abbrev Quiet12 (b : Ref sig .tc) : Prop := Quiet11 b ∧ NoArray spec3 b
abbrev Quiet13 (b : Ref sig .tc) : Prop := Quiet12 b ∧ Unwritten hostOps4 b
abbrev Quiet14 (b : Ref sig .tc) : Prop := Quiet13 b ∧ NoArray spec4 b
abbrev Quiet15 (b : Ref sig .tc) : Prop := Quiet14 b ∧ Unwritten hostOps5 b
abbrev Quiet16 (b : Ref sig .tc) : Prop := Quiet15 b ∧ Unwritten hostOps5_1 b
abbrev Quiet17 (b : Ref sig .tc) : Prop := Quiet16 b ∧ Unwritten hostOps5_2 b
abbrev Quiet18 (b : Ref sig .tc) : Prop := Quiet17 b ∧ NoArray spec5 b
abbrev Quiet19 (b : Ref sig .tc) : Prop := Quiet18 b ∧ Unwritten hostOps6 b
abbrev Quiet20 (b : Ref sig .tc) : Prop := Quiet19 b ∧ NoArray spec6 b
abbrev Quiet21 (b : Ref sig .tc) : Prop := Quiet20 b ∧ Unwritten hostOps7 b
abbrev Quiet22 (b : Ref sig .tc) : Prop := Quiet21 b ∧ Unwritten hostOps7_1 b
abbrev Quiet23 (b : Ref sig .tc) : Prop := Quiet22 b ∧ Unwritten hostOps7_2 b
abbrev Quiet24 (b : Ref sig .tc) : Prop := Quiet23 b ∧ NoArray spec7 b
abbrev Quiet25 (b : Ref sig .tc) : Prop := Quiet24 b ∧ Unwritten hostOps8 b

variable (m : (ℓ : Loc nD τ sig) → Buf (Elt Ideal) ℓ) (ρ : Dev nD → PrngReg) (c : Dev nD)

/-- A buffer no operation before region 0 writes holds its launch contents at boundary 1. -/
theorem keep0 (b : Ref sig .tc) (h : Unwritten hostOps0 b) : W1 m ρ c (B b) = m ((c : Thread nD τ).loc b) :=
  after_of_forall_not_mem hostOps0 (W0 m ρ c) h

theorem keep1 (b : Ref sig .tc) (_ : Quiet1 b) : W1 m ρ c (B b) = W1 m ρ c (B b) := rfl
theorem keep2 (b : Ref sig .tc) (h : Quiet2 b) : W2 m ρ c (B b) = W1 m ρ c (B b) :=
  (W2_of_ne m ρ c b h.2).trans (keep1 m ρ c b h.1)
theorem keep3 (b : Ref sig .tc) (h : Quiet3 b) : W3 m ρ c (B b) = W1 m ρ c (B b) :=
  (after_of_forall_not_mem hostOps1 (W2 m ρ c) h.2).trans (keep2 m ρ c b h.1)
theorem keep4 (b : Ref sig .tc) (h : Quiet4 b) : W4 m ρ c (B b) = W1 m ρ c (B b) :=
  (after_of_forall_not_mem hostOps1_1 (W3 m ρ c) h.2).trans (keep3 m ρ c b h.1)
theorem keep5 (b : Ref sig .tc) (h : Quiet5 b) : W5 m ρ c (B b) = W1 m ρ c (B b) :=
  (after_of_forall_not_mem hostOps1_2 (W4 m ρ c) h.2).trans (keep4 m ρ c b h.1)
theorem keep6 (b : Ref sig .tc) (h : Quiet6 b) : W6 m ρ c (B b) = W1 m ρ c (B b) :=
  (W6_of_ne m ρ c b h.2).trans (keep5 m ρ c b h.1)
theorem keep7 (b : Ref sig .tc) (h : Quiet7 b) : W7 m ρ c (B b) = W1 m ρ c (B b) :=
  (after_of_forall_not_mem hostOps2 (W6 m ρ c) h.2).trans (keep6 m ρ c b h.1)
theorem keep8 (b : Ref sig .tc) (h : Quiet8 b) : W8 m ρ c (B b) = W1 m ρ c (B b) :=
  (W8_of_ne m ρ c b h.2).trans (keep7 m ρ c b h.1)
theorem keep9 (b : Ref sig .tc) (h : Quiet9 b) : W9 m ρ c (B b) = W1 m ρ c (B b) :=
  (after_of_forall_not_mem hostOps3 (W8 m ρ c) h.2).trans (keep8 m ρ c b h.1)
theorem keep10 (b : Ref sig .tc) (h : Quiet10 b) : W10 m ρ c (B b) = W1 m ρ c (B b) :=
  (after_of_forall_not_mem hostOps3_1 (W9 m ρ c) h.2).trans (keep9 m ρ c b h.1)
theorem keep11 (b : Ref sig .tc) (h : Quiet11 b) : W11 m ρ c (B b) = W1 m ρ c (B b) :=
  (after_of_forall_not_mem hostOps3_2 (W10 m ρ c) h.2).trans (keep10 m ρ c b h.1)
theorem keep12 (b : Ref sig .tc) (h : Quiet12 b) : W12 m ρ c (B b) = W1 m ρ c (B b) :=
  (W12_of_ne m ρ c b h.2).trans (keep11 m ρ c b h.1)
theorem keep13 (b : Ref sig .tc) (h : Quiet13 b) : W13 m ρ c (B b) = W1 m ρ c (B b) :=
  (after_of_forall_not_mem hostOps4 (W12 m ρ c) h.2).trans (keep12 m ρ c b h.1)
theorem keep14 (b : Ref sig .tc) (h : Quiet14 b) : W14 m ρ c (B b) = W1 m ρ c (B b) :=
  (W14_of_ne m ρ c b h.2).trans (keep13 m ρ c b h.1)
theorem keep15 (b : Ref sig .tc) (h : Quiet15 b) : W15 m ρ c (B b) = W1 m ρ c (B b) :=
  (after_of_forall_not_mem hostOps5 (W14 m ρ c) h.2).trans (keep14 m ρ c b h.1)
theorem keep16 (b : Ref sig .tc) (h : Quiet16 b) : W16 m ρ c (B b) = W1 m ρ c (B b) :=
  (after_of_forall_not_mem hostOps5_1 (W15 m ρ c) h.2).trans (keep15 m ρ c b h.1)
theorem keep17 (b : Ref sig .tc) (h : Quiet17 b) : W17 m ρ c (B b) = W1 m ρ c (B b) :=
  (after_of_forall_not_mem hostOps5_2 (W16 m ρ c) h.2).trans (keep16 m ρ c b h.1)
theorem keep18 (b : Ref sig .tc) (h : Quiet18 b) : W18 m ρ c (B b) = W1 m ρ c (B b) :=
  (W18_of_ne m ρ c b h.2).trans (keep17 m ρ c b h.1)
theorem keep19 (b : Ref sig .tc) (h : Quiet19 b) : W19 m ρ c (B b) = W1 m ρ c (B b) :=
  (after_of_forall_not_mem hostOps6 (W18 m ρ c) h.2).trans (keep18 m ρ c b h.1)
theorem keep20 (b : Ref sig .tc) (h : Quiet20 b) : W20 m ρ c (B b) = W1 m ρ c (B b) :=
  (W20_of_ne m ρ c b h.2).trans (keep19 m ρ c b h.1)
theorem keep21 (b : Ref sig .tc) (h : Quiet21 b) : W21 m ρ c (B b) = W1 m ρ c (B b) :=
  (after_of_forall_not_mem hostOps7 (W20 m ρ c) h.2).trans (keep20 m ρ c b h.1)
theorem keep22 (b : Ref sig .tc) (h : Quiet22 b) : W22 m ρ c (B b) = W1 m ρ c (B b) :=
  (after_of_forall_not_mem hostOps7_1 (W21 m ρ c) h.2).trans (keep21 m ρ c b h.1)
theorem keep23 (b : Ref sig .tc) (h : Quiet23 b) : W23 m ρ c (B b) = W1 m ρ c (B b) :=
  (after_of_forall_not_mem hostOps7_2 (W22 m ρ c) h.2).trans (keep22 m ρ c b h.1)
theorem keep24 (b : Ref sig .tc) (h : Quiet24 b) : W24 m ρ c (B b) = W1 m ρ c (B b) :=
  (W24_of_ne m ρ c b h.2).trans (keep23 m ρ c b h.1)
theorem keep25 (b : Ref sig .tc) (h : Quiet25 b) : W25 m ρ c (B b) = W1 m ρ c (B b) :=
  (after_of_forall_not_mem hostOps8 (W24 m ρ c) h.2).trans (keep24 m ρ c b h.1)

end Cert.KernelIdeal.Keep

end
-- ==== Proof.MM0.lean ====
/-
  The matrix-product-plus-bias region: its output array is x W + b of the three arrays the region reads.

  The grid has 20 points. Point t loads rows 5000 t … 5000 t + 4999 of the 100000 x 128 input, the whole 128 x 128 weight
  and the whole bias of 128, and stores into the same rows of the output the block's rows times the weight plus the bias
  repeated down the rows. Read at an entry (r, q) of the block this is the sum over k of x0 (r, k) * x1 (k, q), plus the
  bias at q; x W + b read at an entry (p, q) of the array is the sum over k of x (p, k) * W (k, q), plus b at q. The two
  agree at p = 5000 t + r, and every row p lies in the block of the point p / 5000.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec
noncomputable section
namespace Cert.KernelIdeal.MM0
open Idealize.ShloMosaic Idealize.ShloMosaic.TcCoe Idealize.SL.Sem Cert.KernelIdeal Cert.KernelIdeal.Gen
open Idealize.ShloMosaic.ValueIdx

/-- The left operand's row coordinate at an entry of the product is the entry's row. -/
theorem ref_lhs0 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- Its column coordinate is the contraction position. -/
theorem ref_lhs1 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
/-- The right operand's row coordinate is the contraction position. -/
theorem ref_rhs0 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
/-- Its column coordinate is the entry's column. -/
theorem ref_rhs1 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The reference's product at an entry: row p of x against column q of w. -/
theorem dotRef_apply (x : FVec Ideal S100000x128 .f32) (w : FVec Ideal S128x128 .f32) (p : Fin 100000) (q : Fin 128) :
    Host.dotGeneral (F := Ideal) Cert.ReferenceIdeal.dot_S100000x128_S128x128_S100000x128_1_0_0_1_n_n none x w (ix2 p q)
      = ∑ k : Fin 128, x (ix2 p k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact ref_lhs0 _ _
    | ⟨1, _⟩ => exact (ref_lhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (ref_rhs0 _ _).trans hk
    | ⟨1, _⟩ => exact ref_rhs1 _ _)
  rw [el, er]

/-- A vector repeated down the rows, at an entry, is the vector at the entry's column. -/
theorem rows_apply (b : FVec Ideal S128 .f32) (p : Fin 100000) (q : Fin 128) :
    Cert.Spec.rows (F := Ideal) b (ix2 p q) = b (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- x W + b at an entry: row p of x against column q of W, plus b at q. -/
theorem lin_apply (x : FVec Ideal S100000x128 .f32) (w : FVec Ideal S128x128 .f32) (b : FVec Ideal S128 .f32) (p : Fin 100000) (q : Fin 128) :
    Cert.Spec.lin (F := Ideal) x w b (ix2 p q) = (∑ k : Fin 128, x (ix2 p k) * w (ix2 k q)) + b (ix1 q) := by
  unfold Cert.Spec.lin
  rw [addf_apply, dotRef_apply, rows_apply]

/-- The left operand's row coordinate at an entry of the product is the entry's row. -/
theorem blk_lhs0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction position. -/
theorem blk_lhs1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction position. -/
theorem blk_rhs0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
/-- Its column coordinate is the entry's column. -/
theorem blk_rhs1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at an entry: row r of the block against column q of the weight. -/
theorem dotBlk_apply (x : FVec Ideal S5000x128 .bf16) (w : FVec Ideal S128x128 .bf16) (r : Fin 5000) (q : Fin 128) :
    matmul (F := Ideal) dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blk_lhs0 _ _
    | ⟨1, _⟩ => exact (blk_lhs1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The bias, viewed as one row and repeated down the block's rows, at an entry is the bias at the entry's column. -/
theorem biasRow_apply (x2 : Vec Ideal S128 .f32) (h1 : S128.ShapeCasts S128) (h2 : S128.ShapeCasts S1x128) (h3 : S1x128.Broadcasts S5000x128)
    (r : Fin 5000) (q : Fin 128) :
    broadcastTo S5000x128 (shapeCast S1x128 (shapeCast S128 x2 h1) h2) h3 (ix2 r q) = x2 (ix1 q) := by
  refine (broadcastTo_apply _ _ (ix2 r q) (ix2 (0 : Fin 1) q) (fun a => ?_)).trans ?_
  · match a with
    | ⟨0, _⟩ => rfl
    | ⟨1, _⟩ => rfl
  · rw [shapeCast_self]
    refine (shapeCast_addUnit_apply ![128] x2 _ (ix2 (0 : Fin 1) q)).trans ?_
    exact congrArg x2 (funext fun a => by match a with | ⟨0, _⟩ => rfl)

/-- The body's stored value at an entry of the block: row r of the loaded rows against column q of the weight, plus the bias at q. -/
theorem pay_apply (x0 : Vec Ideal S5000x128 .f32) (x1 : Vec Ideal S128x128 .f32) (x2 : Vec Ideal S128 .f32) (r : Fin 5000) (q : Fin 128) :
    k0_pay1 (F := Ideal) x0 x1 x2 (ix2 r q) = (∑ k : Fin 128, x0 (ix2 r k) * x1 (ix2 k q)) + x2 (ix1 q) := by
  unfold k0_pay1
  rw [addf_apply, dotBlk_apply, biasRow_apply]
  simp only [truncf_apply, shapeCast_self]

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: at point t the input and output blocks are row block t, column block 0; the weight and the
    bias are their whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- Row r of the input block at point t is row 5000 t + r of the input array. -/
theorem blk0_read (t : Fin cfg0.N) (y : S5000x128.Idx) (i : S100000x128.Idx)
    (hi0 : (i 0).val = 5000 * t.val + (y 0).val) (hi1 : (i 1).val = (y 1).val) :
    (iblk0 V c 0 t : Vec Ideal S5000x128 .f32) y = (V c (Pipeline.arrRef spec0 0) : S100000x128.Idx → Elt Ideal .f32) i := by
  obtain ⟨e0, e1, -⟩ := idx_facts t
  unfold iblk0
  rw [View.read_apply]
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight's block at every point is the whole weight. -/
theorem blk1_read (t : Fin cfg0.N) :
    (iblk0 V c 1 t : Vec Ideal S128x128 .f32) = (V c (Pipeline.arrRef spec0 1) : S128x128.Idx → Elt Ideal .f32) := by
  obtain ⟨-, -, e0, e1, -⟩ := idx_facts t
  funext y
  unfold iblk0
  rw [View.read_apply]
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias's block at every point is the whole bias. -/
theorem blk2_read (t : Fin cfg0.N) :
    (iblk0 V c 2 t : Vec Ideal S128 .f32) = (V c (Pipeline.arrRef spec0 2) : S128.Idx → Elt Ideal .f32) := by
  obtain ⟨-, -, -, -, e0, -⟩ := idx_facts t
  funext y
  unfold iblk0
  rw [View.read_apply]
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 1) * 128 + 1 * (y 0).val = (y 0).val; omega

end

/-- The body's value on a block of rows that are rows 5000 n … 5000 n + 4999 of x, with the whole weight and bias, is
    x W + b on those rows. -/
theorem block_eq (X : FVec Ideal S100000x128 .f32) (W : FVec Ideal S128x128 .f32) (B : FVec Ideal S128 .f32)
    (x0 : Vec Ideal S5000x128 .f32) (x1 : Vec Ideal S128x128 .f32) (x2 : Vec Ideal S128 .f32) (n : Nat)
    (h0 : ∀ (y : S5000x128.Idx) (i : S100000x128.Idx), (i 0).val = 5000 * n + (y 0).val → (i 1).val = (y 1).val → x0 y = X i)
    (h1 : x1 = W) (h2 : x2 = B) (j : S5000x128.Idx) (i : S100000x128.Idx)
    (hi0 : (i 0).val = 5000 * n + (j 0).val) (hi1 : (i 1).val = (j 1).val) :
    k0_pay1 (F := Ideal) x0 x1 x2 j = Cert.Spec.lin (F := Ideal) X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hi1
  subst h1 h2
  rw [pay_apply, lin_apply]
  refine congrArg (· + x2 (ix1 q')) (Finset.sum_congr rfl fun k _ => ?_)
  rw [h0 (ix2 r k) (ix2 p k) hi0 rfl]

section
variable (V : (c : Dev nD) → (b : Ref sig .tc) → Buf (Elt Ideal) ((c : Thread nD τ).loc b)) (c : Dev nD)

/-- What point t writes back is block t of x W + b of the arrays as the region finds them. -/
theorem flushed_eq (t : Fin cfg0.N) :
    (dat0 (F := Ideal) V c).flushed 3 t = ((cfg0.win 3).blk t).view.read (Elt Ideal)
      (Cert.Spec.lin (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts t
  funext j
  show k0_pay1 (F := Ideal) (iblk0 V c 0 t) (iblk0 V c 1 t) (iblk0 V c 2 t) j
    = Cert.Spec.lin (F := Ideal) (V c (Pipeline.arrRef spec0 0)) (V c (Pipeline.arrRef spec0 1)) (V c (Pipeline.arrRef spec0 2))
        (((cfg0.win 3).blk t).view.emb j)
  refine block_eq (V c (Pipeline.arrRef spec0 0)) (V c (Pipeline.arrRef spec0 1)) (V c (Pipeline.arrRef spec0 2))
    (iblk0 V c 0 t) (iblk0 V c 1 t) (iblk0 V c 2 t) t.val (fun y i h0 h1 => blk0_read V c t y i h0 h1) (blk1_read V c t) (blk2_read V c t)
    j (((cfg0.win 3).blk t).view.emb j) ?_ ?_
  · show win0_3.index t (0 : Fin 2) * 5000 + 1 * (j 0).val = 5000 * t.val + (j 0).val; omega
  · show win0_3.index t (1 : Fin 2) * 128 + 1 * (j 1).val = (j 1).val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Row r of the output is covered by the point r / 5000. -/
theorem cover (i : S100000x128.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end

/-- The output array after the region is x W + b of the region's three input arrays as it finds them. -/
theorem value (V : (c : Dev nD) → (b : Ref sig .tc) → Buf (Elt Ideal) ((c : Thread nD τ).loc b)) (c : Dev nD) :
    (dat0 (F := Ideal) V c).arrAt 3 cfg0.N
      = Cert.Spec.lin (F := Ideal) (V c (Pipeline.arrRef spec0 0)) (V c (Pipeline.arrRef spec0 1)) (V c (Pipeline.arrRef spec0 2)) :=
  (dat0 (F := Ideal) V c).arrAt_eq_of_cover 3
    (Cert.Spec.lin (F := Ideal) (V c (Pipeline.arrRef spec0 0)) (V c (Pipeline.arrRef spec0 1)) (V c (Pipeline.arrRef spec0 2)))
    (fun t _ => flushed_eq V c t) (cover)

end Cert.KernelIdeal.MM0
end
-- ==== Proof.MM2.lean ====
/-
  The matrix-product-plus-bias region: its output array is x W + b of the three arrays the region reads.

  The grid has 20 points. Point t loads rows 5000 t … 5000 t + 4999 of the 100000 x 128 input, the whole 128 x 128 weight
  and the whole bias of 128, and stores into the same rows of the output the block's rows times the weight plus the bias
  repeated down the rows. Read at an entry (r, q) of the block this is the sum over k of x0 (r, k) * x1 (k, q), plus the
  bias at q; x W + b read at an entry (p, q) of the array is the sum over k of x (p, k) * W (k, q), plus b at q. The two
  agree at p = 5000 t + r, and every row p lies in the block of the point p / 5000.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec
noncomputable section
namespace Cert.KernelIdeal.MM2
open Idealize.ShloMosaic Idealize.ShloMosaic.TcCoe Idealize.SL.Sem Cert.KernelIdeal Cert.KernelIdeal.Gen
open Idealize.ShloMosaic.ValueIdx

/-- The left operand's row coordinate at an entry of the product is the entry's row. -/
theorem ref_lhs0 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- Its column coordinate is the contraction position. -/
theorem ref_lhs1 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
/-- The right operand's row coordinate is the contraction position. -/
theorem ref_rhs0 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
/-- Its column coordinate is the entry's column. -/
theorem ref_rhs1 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The reference's product at an entry: row p of x against column q of w. -/
theorem dotRef_apply (x : FVec Ideal S100000x128 .f32) (w : FVec Ideal S128x128 .f32) (p : Fin 100000) (q : Fin 128) :
    Host.dotGeneral (F := Ideal) Cert.ReferenceIdeal.dot_S100000x128_S128x128_S100000x128_1_0_0_1_n_n none x w (ix2 p q)
      = ∑ k : Fin 128, x (ix2 p k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact ref_lhs0 _ _
    | ⟨1, _⟩ => exact (ref_lhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (ref_rhs0 _ _).trans hk
    | ⟨1, _⟩ => exact ref_rhs1 _ _)
  rw [el, er]

/-- A vector repeated down the rows, at an entry, is the vector at the entry's column. -/
theorem rows_apply (b : FVec Ideal S128 .f32) (p : Fin 100000) (q : Fin 128) :
    Cert.Spec.rows (F := Ideal) b (ix2 p q) = b (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- x W + b at an entry: row p of x against column q of W, plus b at q. -/
theorem lin_apply (x : FVec Ideal S100000x128 .f32) (w : FVec Ideal S128x128 .f32) (b : FVec Ideal S128 .f32) (p : Fin 100000) (q : Fin 128) :
    Cert.Spec.lin (F := Ideal) x w b (ix2 p q) = (∑ k : Fin 128, x (ix2 p k) * w (ix2 k q)) + b (ix1 q) := by
  unfold Cert.Spec.lin
  rw [addf_apply, dotRef_apply, rows_apply]

/-- The left operand's row coordinate at an entry of the product is the entry's row. -/
theorem blk_lhs0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction position. -/
theorem blk_lhs1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction position. -/
theorem blk_rhs0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
/-- Its column coordinate is the entry's column. -/
theorem blk_rhs1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at an entry: row r of the block against column q of the weight. -/
theorem dotBlk_apply (x : FVec Ideal S5000x128 .bf16) (w : FVec Ideal S128x128 .bf16) (r : Fin 5000) (q : Fin 128) :
    matmul (F := Ideal) dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blk_lhs0 _ _
    | ⟨1, _⟩ => exact (blk_lhs1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The bias, viewed as one row and repeated down the block's rows, at an entry is the bias at the entry's column. -/
theorem biasRow_apply (x2 : Vec Ideal S128 .f32) (h1 : S128.ShapeCasts S128) (h2 : S128.ShapeCasts S1x128) (h3 : S1x128.Broadcasts S5000x128)
    (r : Fin 5000) (q : Fin 128) :
    broadcastTo S5000x128 (shapeCast S1x128 (shapeCast S128 x2 h1) h2) h3 (ix2 r q) = x2 (ix1 q) := by
  refine (broadcastTo_apply _ _ (ix2 r q) (ix2 (0 : Fin 1) q) (fun a => ?_)).trans ?_
  · match a with
    | ⟨0, _⟩ => rfl
    | ⟨1, _⟩ => rfl
  · rw [shapeCast_self]
    refine (shapeCast_addUnit_apply ![128] x2 _ (ix2 (0 : Fin 1) q)).trans ?_
    exact congrArg x2 (funext fun a => by match a with | ⟨0, _⟩ => rfl)

/-- The body's stored value at an entry of the block: row r of the loaded rows against column q of the weight, plus the bias at q. -/
theorem pay_apply (x0 : Vec Ideal S5000x128 .f32) (x1 : Vec Ideal S128x128 .f32) (x2 : Vec Ideal S128 .f32) (r : Fin 5000) (q : Fin 128) :
    k2_pay1 (F := Ideal) x0 x1 x2 (ix2 r q) = (∑ k : Fin 128, x0 (ix2 r k) * x1 (ix2 k q)) + x2 (ix1 q) := by
  unfold k2_pay1
  rw [addf_apply, dotBlk_apply, biasRow_apply]
  simp only [truncf_apply, shapeCast_self]

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: at point t the input and output blocks are row block t, column block 0; the weight and the
    bias are their whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b)) (c : Dev nD)

/-- Row r of the input block at point t is row 5000 t + r of the input array. -/
theorem blk0_read (t : Fin cfg2.N) (y : S5000x128.Idx) (i : S100000x128.Idx)
    (hi0 : (i 0).val = 5000 * t.val + (y 0).val) (hi1 : (i 1).val = (y 1).val) :
    (iblk2 V c 0 t : Vec Ideal S5000x128 .f32) y = (V c (Pipeline.arrRef spec2 0) : S100000x128.Idx → Elt Ideal .f32) i := by
  obtain ⟨e0, e1, -⟩ := idx_facts t
  unfold iblk2
  rw [View.read_apply]
  show V c (Pipeline.arrRef spec2 0) (((cfg2.win 0).blk t).view.emb y) = V c (Pipeline.arrRef spec2 0) i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weight's block at every point is the whole weight. -/
theorem blk1_read (t : Fin cfg2.N) :
    (iblk2 V c 1 t : Vec Ideal S128x128 .f32) = (V c (Pipeline.arrRef spec2 1) : S128x128.Idx → Elt Ideal .f32) := by
  obtain ⟨-, -, e0, e1, -⟩ := idx_facts t
  funext y
  unfold iblk2
  rw [View.read_apply]
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias's block at every point is the whole bias. -/
theorem blk2_read (t : Fin cfg2.N) :
    (iblk2 V c 2 t : Vec Ideal S128 .f32) = (V c (Pipeline.arrRef spec2 2) : S128.Idx → Elt Ideal .f32) := by
  obtain ⟨-, -, -, -, e0, -⟩ := idx_facts t
  funext y
  unfold iblk2
  rw [View.read_apply]
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 1) * 128 + 1 * (y 0).val = (y 0).val; omega

end

/-- The body's value on a block of rows that are rows 5000 n … 5000 n + 4999 of x, with the whole weight and bias, is
    x W + b on those rows. -/
theorem block_eq (X : FVec Ideal S100000x128 .f32) (W : FVec Ideal S128x128 .f32) (B : FVec Ideal S128 .f32)
    (x0 : Vec Ideal S5000x128 .f32) (x1 : Vec Ideal S128x128 .f32) (x2 : Vec Ideal S128 .f32) (n : Nat)
    (h0 : ∀ (y : S5000x128.Idx) (i : S100000x128.Idx), (i 0).val = 5000 * n + (y 0).val → (i 1).val = (y 1).val → x0 y = X i)
    (h1 : x1 = W) (h2 : x2 = B) (j : S5000x128.Idx) (i : S100000x128.Idx)
    (hi0 : (i 0).val = 5000 * n + (j 0).val) (hi1 : (i 1).val = (j 1).val) :
    k2_pay1 (F := Ideal) x0 x1 x2 j = Cert.Spec.lin (F := Ideal) X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hi1
  subst h1 h2
  rw [pay_apply, lin_apply]
  refine congrArg (· + x2 (ix1 q')) (Finset.sum_congr rfl fun k _ => ?_)
  rw [h0 (ix2 r k) (ix2 p k) hi0 rfl]

section
variable (V : (c : Dev nD) → (b : Ref sig .tc) → Buf (Elt Ideal) ((c : Thread nD τ).loc b)) (c : Dev nD)

/-- What point t writes back is block t of x W + b of the arrays as the region finds them. -/
theorem flushed_eq (t : Fin cfg2.N) :
    (dat2 (F := Ideal) V c).flushed 3 t = ((cfg2.win 3).blk t).view.read (Elt Ideal)
      (Cert.Spec.lin (F := Ideal) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts t
  funext j
  show k2_pay1 (F := Ideal) (iblk2 V c 0 t) (iblk2 V c 1 t) (iblk2 V c 2 t) j
    = Cert.Spec.lin (F := Ideal) (V c (Pipeline.arrRef spec2 0)) (V c (Pipeline.arrRef spec2 1)) (V c (Pipeline.arrRef spec2 2))
        (((cfg2.win 3).blk t).view.emb j)
  refine block_eq (V c (Pipeline.arrRef spec2 0)) (V c (Pipeline.arrRef spec2 1)) (V c (Pipeline.arrRef spec2 2))
    (iblk2 V c 0 t) (iblk2 V c 1 t) (iblk2 V c 2 t) t.val (fun y i h0 h1 => blk0_read V c t y i h0 h1) (blk1_read V c t) (blk2_read V c t)
    j (((cfg2.win 3).blk t).view.emb j) ?_ ?_
  · show win2_3.index t (0 : Fin 2) * 5000 + 1 * (j 0).val = 5000 * t.val + (j 0).val; omega
  · show win2_3.index t (1 : Fin 2) * 128 + 1 * (j 1).val = (j 1).val; omega

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v46).slice (win2_3.rect t)).set ↔ _
  rw [View.set_slice_whole, Rect.mem_set_unit]
  exact Iff.rfl

/-- Row r of the output is covered by the point r / 5000. -/
theorem cover (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, -, e0, e1⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

end

/-- The output array after the region is x W + b of the region's three input arrays as it finds them. -/
theorem value (V : (c : Dev nD) → (b : Ref sig .tc) → Buf (Elt Ideal) ((c : Thread nD τ).loc b)) (c : Dev nD) :
    (dat2 (F := Ideal) V c).arrAt 3 cfg2.N
      = Cert.Spec.lin (F := Ideal) (V c (Pipeline.arrRef spec2 0)) (V c (Pipeline.arrRef spec2 1)) (V c (Pipeline.arrRef spec2 2)) :=
  (dat2 (F := Ideal) V c).arrAt_eq_of_cover 3
    (Cert.Spec.lin (F := Ideal) (V c (Pipeline.arrRef spec2 0)) (V c (Pipeline.arrRef spec2 1)) (V c (Pipeline.arrRef spec2 2)))
    (fun t _ => flushed_eq V c t) (cover)

end Cert.KernelIdeal.MM2
end
-- ==== Proof.MM4.lean ====
/-
  The matrix-product-plus-bias region: its output array is x W + b of the three arrays the region reads.

  The grid has 20 points. Point t loads rows 5000 t … 5000 t + 4999 of the 100000 x 128 input, the whole 128 x 128 weight
  and the whole bias of 128, and stores into the same rows of the output the block's rows times the weight plus the bias
  repeated down the rows. Read at an entry (r, q) of the block this is the sum over k of x0 (r, k) * x1 (k, q), plus the
  bias at q; x W + b read at an entry (p, q) of the array is the sum over k of x (p, k) * W (k, q), plus b at q. The two
  agree at p = 5000 t + r, and every row p lies in the block of the point p / 5000.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec
noncomputable section
namespace Cert.KernelIdeal.MM4
open Idealize.ShloMosaic Idealize.ShloMosaic.TcCoe Idealize.SL.Sem Cert.KernelIdeal Cert.KernelIdeal.Gen
open Idealize.ShloMosaic.ValueIdx

/-- The left operand's row coordinate at an entry of the product is the entry's row. -/
theorem ref_lhs0 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- Its column coordinate is the contraction position. -/
theorem ref_lhs1 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
/-- The right operand's row coordinate is the contraction position. -/
theorem ref_rhs0 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
/-- Its column coordinate is the entry's column. -/
theorem ref_rhs1 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The reference's product at an entry: row p of x against column q of w. -/
theorem dotRef_apply (x : FVec Ideal S100000x128 .f32) (w : FVec Ideal S128x128 .f32) (p : Fin 100000) (q : Fin 128) :
    Host.dotGeneral (F := Ideal) Cert.ReferenceIdeal.dot_S100000x128_S128x128_S100000x128_1_0_0_1_n_n none x w (ix2 p q)
      = ∑ k : Fin 128, x (ix2 p k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact ref_lhs0 _ _
    | ⟨1, _⟩ => exact (ref_lhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (ref_rhs0 _ _).trans hk
    | ⟨1, _⟩ => exact ref_rhs1 _ _)
  rw [el, er]

/-- A vector repeated down the rows, at an entry, is the vector at the entry's column. -/
theorem rows_apply (b : FVec Ideal S128 .f32) (p : Fin 100000) (q : Fin 128) :
    Cert.Spec.rows (F := Ideal) b (ix2 p q) = b (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- x W + b at an entry: row p of x against column q of W, plus b at q. -/
theorem lin_apply (x : FVec Ideal S100000x128 .f32) (w : FVec Ideal S128x128 .f32) (b : FVec Ideal S128 .f32) (p : Fin 100000) (q : Fin 128) :
    Cert.Spec.lin (F := Ideal) x w b (ix2 p q) = (∑ k : Fin 128, x (ix2 p k) * w (ix2 k q)) + b (ix1 q) := by
  unfold Cert.Spec.lin
  rw [addf_apply, dotRef_apply, rows_apply]

/-- The left operand's row coordinate at an entry of the product is the entry's row. -/
theorem blk_lhs0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction position. -/
theorem blk_lhs1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction position. -/
theorem blk_rhs0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
/-- Its column coordinate is the entry's column. -/
theorem blk_rhs1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at an entry: row r of the block against column q of the weight. -/
theorem dotBlk_apply (x : FVec Ideal S5000x128 .bf16) (w : FVec Ideal S128x128 .bf16) (r : Fin 5000) (q : Fin 128) :
    matmul (F := Ideal) dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blk_lhs0 _ _
    | ⟨1, _⟩ => exact (blk_lhs1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The bias, viewed as one row and repeated down the block's rows, at an entry is the bias at the entry's column. -/
theorem biasRow_apply (x2 : Vec Ideal S128 .f32) (h1 : S128.ShapeCasts S128) (h2 : S128.ShapeCasts S1x128) (h3 : S1x128.Broadcasts S5000x128)
    (r : Fin 5000) (q : Fin 128) :
    broadcastTo S5000x128 (shapeCast S1x128 (shapeCast S128 x2 h1) h2) h3 (ix2 r q) = x2 (ix1 q) := by
  refine (broadcastTo_apply _ _ (ix2 r q) (ix2 (0 : Fin 1) q) (fun a => ?_)).trans ?_
  · match a with
    | ⟨0, _⟩ => rfl
    | ⟨1, _⟩ => rfl
  · rw [shapeCast_self]
    refine (shapeCast_addUnit_apply ![128] x2 _ (ix2 (0 : Fin 1) q)).trans ?_
    exact congrArg x2 (funext fun a => by match a with | ⟨0, _⟩ => rfl)

/-- The body's stored value at an entry of the block: row r of the loaded rows against column q of the weight, plus the bias at q. -/
theorem pay_apply (x0 : Vec Ideal S5000x128 .f32) (x1 : Vec Ideal S128x128 .f32) (x2 : Vec Ideal S128 .f32) (r : Fin 5000) (q : Fin 128) :
    k4_pay1 (F := Ideal) x0 x1 x2 (ix2 r q) = (∑ k : Fin 128, x0 (ix2 r k) * x1 (ix2 k q)) + x2 (ix1 q) := by
  unfold k4_pay1
  rw [addf_apply, dotBlk_apply, biasRow_apply]
  simp only [truncf_apply, shapeCast_self]

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: at point t the input and output blocks are row block t, column block 0; the weight and the
    bias are their whole arrays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b)) (c : Dev nD)

/-- Row r of the input block at point t is row 5000 t + r of the input array. -/
theorem blk0_read (t : Fin cfg4.N) (y : S5000x128.Idx) (i : S100000x128.Idx)
    (hi0 : (i 0).val = 5000 * t.val + (y 0).val) (hi1 : (i 1).val = (y 1).val) :
    (iblk4 V c 0 t : Vec Ideal S5000x128 .f32) y = (V c (Pipeline.arrRef spec4 0) : S100000x128.Idx → Elt Ideal .f32) i := by
  obtain ⟨e0, e1, -⟩ := idx_facts t
  unfold iblk4
  rw [View.read_apply]
  show V c (Pipeline.arrRef spec4 0) (((cfg4.win 0).blk t).view.emb y) = V c (Pipeline.arrRef spec4 0) i
  refine congrArg _ (funext fun a => Fin.ext ?_)
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The weight's block at every point is the whole weight. -/
theorem blk1_read (t : Fin cfg4.N) :
    (iblk4 V c 1 t : Vec Ideal S128x128 .f32) = (V c (Pipeline.arrRef spec4 1) : S128x128.Idx → Elt Ideal .f32) := by
  obtain ⟨-, -, e0, e1, -⟩ := idx_facts t
  funext y
  unfold iblk4
  rw [View.read_apply]
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The bias's block at every point is the whole bias. -/
theorem blk2_read (t : Fin cfg4.N) :
    (iblk4 V c 2 t : Vec Ideal S128 .f32) = (V c (Pipeline.arrRef spec4 2) : S128.Idx → Elt Ideal .f32) := by
  obtain ⟨-, -, -, -, e0, -⟩ := idx_facts t
  funext y
  unfold iblk4
  rw [View.read_apply]
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 1) * 128 + 1 * (y 0).val = (y 0).val; omega

end

/-- The body's value on a block of rows that are rows 5000 n … 5000 n + 4999 of x, with the whole weight and bias, is
    x W + b on those rows. -/
theorem block_eq (X : FVec Ideal S100000x128 .f32) (W : FVec Ideal S128x128 .f32) (B : FVec Ideal S128 .f32)
    (x0 : Vec Ideal S5000x128 .f32) (x1 : Vec Ideal S128x128 .f32) (x2 : Vec Ideal S128 .f32) (n : Nat)
    (h0 : ∀ (y : S5000x128.Idx) (i : S100000x128.Idx), (i 0).val = 5000 * n + (y 0).val → (i 1).val = (y 1).val → x0 y = X i)
    (h1 : x1 = W) (h2 : x2 = B) (j : S5000x128.Idx) (i : S100000x128.Idx)
    (hi0 : (i 0).val = 5000 * n + (j 0).val) (hi1 : (i 1).val = (j 1).val) :
    k4_pay1 (F := Ideal) x0 x1 x2 j = Cert.Spec.lin (F := Ideal) X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hi1
  subst h1 h2
  rw [pay_apply, lin_apply]
  refine congrArg (· + x2 (ix1 q')) (Finset.sum_congr rfl fun k _ => ?_)
  rw [h0 (ix2 r k) (ix2 p k) hi0 rfl]

section
variable (V : (c : Dev nD) → (b : Ref sig .tc) → Buf (Elt Ideal) ((c : Thread nD τ).loc b)) (c : Dev nD)

/-- What point t writes back is block t of x W + b of the arrays as the region finds them. -/
theorem flushed_eq (t : Fin cfg4.N) :
    (dat4 (F := Ideal) V c).flushed 3 t = ((cfg4.win 3).blk t).view.read (Elt Ideal)
      (Cert.Spec.lin (F := Ideal) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts t
  funext j
  show k4_pay1 (F := Ideal) (iblk4 V c 0 t) (iblk4 V c 1 t) (iblk4 V c 2 t) j
    = Cert.Spec.lin (F := Ideal) (V c (Pipeline.arrRef spec4 0)) (V c (Pipeline.arrRef spec4 1)) (V c (Pipeline.arrRef spec4 2))
        (((cfg4.win 3).blk t).view.emb j)
  refine block_eq (V c (Pipeline.arrRef spec4 0)) (V c (Pipeline.arrRef spec4 1)) (V c (Pipeline.arrRef spec4 2))
    (iblk4 V c 0 t) (iblk4 V c 1 t) (iblk4 V c 2 t) t.val (fun y i h0 h1 => blk0_read V c t y i h0 h1) (blk1_read V c t) (blk2_read V c t)
    j (((cfg4.win 3).blk t).view.emb j) ?_ ?_
  · show win4_3.index t (0 : Fin 2) * 5000 + 1 * (j 0).val = 5000 * t.val + (j 0).val; omega
  · show win4_3.index t (1 : Fin 2) * 128 + 1 * (j 1).val = (j 1).val; omega

/-- An index of the output array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v69).slice (win4_3.rect t)).set ↔ _
  rw [View.set_slice_whole, Rect.mem_set_unit]
  exact Iff.rfl

/-- Row r of the output is covered by the point r / 5000. -/
theorem cover (i : S100000x128.Idx) : ∃ t : Fin cfg4.N, (cfg4.win 3).flush t = true ∧ i ∈ ((cfg4.win 3).blk t).view.set := by
  have hN : cfg4.N = 20 := N_4
  have hi0 : (i 0).val < 100000 := (i 0).isLt
  have hi1 : (i 1).val < 128 := (i 1).isLt
  let t : Fin cfg4.N := ⟨(i 0).val / 5000, by rw [hN]; omega⟩
  obtain ⟨-, -, -, -, -, e0, e1⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

end

/-- The output array after the region is x W + b of the region's three input arrays as it finds them. -/
theorem value (V : (c : Dev nD) → (b : Ref sig .tc) → Buf (Elt Ideal) ((c : Thread nD τ).loc b)) (c : Dev nD) :
    (dat4 (F := Ideal) V c).arrAt 3 cfg4.N
      = Cert.Spec.lin (F := Ideal) (V c (Pipeline.arrRef spec4 0)) (V c (Pipeline.arrRef spec4 1)) (V c (Pipeline.arrRef spec4 2)) :=
  (dat4 (F := Ideal) V c).arrAt_eq_of_cover 3
    (Cert.Spec.lin (F := Ideal) (V c (Pipeline.arrRef spec4 0)) (V c (Pipeline.arrRef spec4 1)) (V c (Pipeline.arrRef spec4 2)))
    (fun t _ => flushed_eq V c t) (cover)

end Cert.KernelIdeal.MM4
end
-- ==== Proof.MM6.lean ====
/-
  The matrix-product-plus-bias region: its output array is x W + b of the three arrays the region reads.

  The grid has 20 points. Point t loads rows 5000 t … 5000 t + 4999 of the 100000 x 128 input, the whole 128 x 128 weight
  and the whole bias of 128, and stores into the same rows of the output the block's rows times the weight plus the bias
  repeated down the rows. Read at an entry (r, q) of the block this is the sum over k of x0 (r, k) * x1 (k, q), plus the
  bias at q; x W + b read at an entry (p, q) of the array is the sum over k of x (p, k) * W (k, q), plus b at q. The two
  agree at p = 5000 t + r, and every row p lies in the block of the point p / 5000.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec
noncomputable section
namespace Cert.KernelIdeal.MM6
open Idealize.ShloMosaic Idealize.ShloMosaic.TcCoe Idealize.SL.Sem Cert.KernelIdeal Cert.KernelIdeal.Gen
open Idealize.ShloMosaic.ValueIdx

/-- The left operand's row coordinate at an entry of the product is the entry's row. -/
theorem ref_lhs0 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- Its column coordinate is the contraction position. -/
theorem ref_lhs1 (i : S100000x128.Idx) (k : Cert.ReferenceIdeal.dot_S100000x128_S128x128_S100000x128_1_0_0_1_n_n.contr.Idx) : (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
/-- The right operand's row coordinate is the contraction position. -/
theorem ref_rhs0 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
/-- Its column coordinate is the entry's column. -/
theorem ref_rhs1 (i : S100000x128.Idx) (k : Cert.ReferenceIdeal.dot_S100000x128_S128x128_S100000x128_1_0_0_1_n_n.contr.Idx) : (Cert.ReferenceIdeal.dot_S100000x128_S128x128_S100000x128_1_0_0_1_n_n.rhsIdx i k 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The reference's product at an entry: row p of x against column q of w. -/
theorem dotRef_apply (x : FVec Ideal S100000x128 .f32) (w : FVec Ideal S128x128 .f32) (p : Fin 100000) (q : Fin 128) :
    Host.dotGeneral (F := Ideal) Cert.ReferenceIdeal.dot_S100000x128_S128x128_S100000x128_1_0_0_1_n_n none x w (ix2 p q)
      = ∑ k : Fin 128, x (ix2 p k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact ref_lhs0 _ _
    | ⟨1, _⟩ => exact (ref_lhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (ref_rhs0 _ _).trans hk
    | ⟨1, _⟩ => exact ref_rhs1 _ _)
  rw [el, er]

/-- A vector repeated down the rows, at an entry, is the vector at the entry's column. -/
theorem rows_apply (b : FVec Ideal S128 .f32) (p : Fin 100000) (q : Fin 128) :
    Cert.Spec.rows (F := Ideal) b (ix2 p q) = b (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- x W + b at an entry: row p of x against column q of W, plus b at q. -/
theorem lin_apply (x : FVec Ideal S100000x128 .f32) (w : FVec Ideal S128x128 .f32) (b : FVec Ideal S128 .f32) (p : Fin 100000) (q : Fin 128) :
    Cert.Spec.lin (F := Ideal) x w b (ix2 p q) = (∑ k : Fin 128, x (ix2 p k) * w (ix2 k q)) + b (ix1 q) := by
  unfold Cert.Spec.lin
  rw [addf_apply, dotRef_apply, rows_apply]

/-- The left operand's row coordinate at an entry of the product is the entry's row. -/
theorem blk_lhs0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction position. -/
theorem blk_lhs1 (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction position. -/
theorem blk_rhs0 (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
/-- Its column coordinate is the entry's column. -/
theorem blk_rhs1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at an entry: row r of the block against column q of the weight. -/
theorem dotBlk_apply (x : FVec Ideal S5000x128 .bf16) (w : FVec Ideal S128x128 .bf16) (r : Fin 5000) (q : Fin 128) :
    matmul (F := Ideal) dot_S5000x128_S128x128_S5000x128_1_0_0_1_n_n none x w (constant (F := Ideal) S5000x128 .f32 0x00000000#32) (ix2 r q)
      = ∑ k : Fin 128, x (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blk_lhs0 _ _
    | ⟨1, _⟩ => exact (blk_lhs1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The bias, viewed as one row and repeated down the block's rows, at an entry is the bias at the entry's column. -/
theorem biasRow_apply (x2 : Vec Ideal S128 .f32) (h1 : S128.ShapeCasts S128) (h2 : S128.ShapeCasts S1x128) (h3 : S1x128.Broadcasts S5000x128)
    (r : Fin 5000) (q : Fin 128) :
    broadcastTo S5000x128 (shapeCast S1x128 (shapeCast S128 x2 h1) h2) h3 (ix2 r q) = x2 (ix1 q) := by
  refine (broadcastTo_apply _ _ (ix2 r q) (ix2 (0 : Fin 1) q) (fun a => ?_)).trans ?_
  · match a with
    | ⟨0, _⟩ => rfl
    | ⟨1, _⟩ => rfl
  · rw [shapeCast_self]
    refine (shapeCast_addUnit_apply ![128] x2 _ (ix2 (0 : Fin 1) q)).trans ?_
    exact congrArg x2 (funext fun a => by match a with | ⟨0, _⟩ => rfl)

/-- The body's stored value at an entry of the block: row r of the loaded rows against column q of the weight, plus the bias at q. -/
theorem pay_apply (x0 : Vec Ideal S5000x128 .f32) (x1 : Vec Ideal S128x128 .f32) (x2 : Vec Ideal S128 .f32) (r : Fin 5000) (q : Fin 128) :
    k6_pay1 (F := Ideal) x0 x1 x2 (ix2 r q) = (∑ k : Fin 128, x0 (ix2 r k) * x1 (ix2 k q)) + x2 (ix1 q) := by
  unfold k6_pay1
  rw [addf_apply, dotBlk_apply, biasRow_apply]
  simp only [truncf_apply, shapeCast_self]

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: at point t the input and output blocks are row block t, column block 0; the weight and the
    bias are their whole arrays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b)) (c : Dev nD)

/-- Row r of the input block at point t is row 5000 t + r of the input array. -/
theorem blk0_read (t : Fin cfg6.N) (y : S5000x128.Idx) (i : S100000x128.Idx)
    (hi0 : (i 0).val = 5000 * t.val + (y 0).val) (hi1 : (i 1).val = (y 1).val) :
    (iblk6 V c 0 t : Vec Ideal S5000x128 .f32) y = (V c (Pipeline.arrRef spec6 0) : S100000x128.Idx → Elt Ideal .f32) i := by
  obtain ⟨e0, e1, -⟩ := idx_facts t
  unfold iblk6
  rw [View.read_apply]
  show V c (Pipeline.arrRef spec6 0) (((cfg6.win 0).blk t).view.emb y) = V c (Pipeline.arrRef spec6 0) i
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 128 + 1 * (y 1).val = (i 1).val; omega

/-- The weight's block at every point is the whole weight. -/
theorem blk1_read (t : Fin cfg6.N) :
    (iblk6 V c 1 t : Vec Ideal S128x128 .f32) = (V c (Pipeline.arrRef spec6 1) : S128x128.Idx → Elt Ideal .f32) := by
  obtain ⟨-, -, e0, e1, -⟩ := idx_facts t
  funext y
  unfold iblk6
  rw [View.read_apply]
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- The bias's block at every point is the whole bias. -/
theorem blk2_read (t : Fin cfg6.N) :
    (iblk6 V c 2 t : Vec Ideal S128 .f32) = (V c (Pipeline.arrRef spec6 2) : S128.Idx → Elt Ideal .f32) := by
  obtain ⟨-, -, -, -, e0, -⟩ := idx_facts t
  funext y
  unfold iblk6
  rw [View.read_apply]
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 1) * 128 + 1 * (y 0).val = (y 0).val; omega

end

/-- The body's value on a block of rows that are rows 5000 n … 5000 n + 4999 of x, with the whole weight and bias, is
    x W + b on those rows. -/
theorem block_eq (X : FVec Ideal S100000x128 .f32) (W : FVec Ideal S128x128 .f32) (B : FVec Ideal S128 .f32)
    (x0 : Vec Ideal S5000x128 .f32) (x1 : Vec Ideal S128x128 .f32) (x2 : Vec Ideal S128 .f32) (n : Nat)
    (h0 : ∀ (y : S5000x128.Idx) (i : S100000x128.Idx), (i 0).val = 5000 * n + (y 0).val → (i 1).val = (y 1).val → x0 y = X i)
    (h1 : x1 = W) (h2 : x2 = B) (j : S5000x128.Idx) (i : S100000x128.Idx)
    (hi0 : (i 0).val = 5000 * n + (j 0).val) (hi1 : (i 1).val = (j 1).val) :
    k6_pay1 (F := Ideal) x0 x1 x2 j = Cert.Spec.lin (F := Ideal) X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hi1
  subst h1 h2
  rw [pay_apply, lin_apply]
  refine congrArg (· + x2 (ix1 q')) (Finset.sum_congr rfl fun k _ => ?_)
  rw [h0 (ix2 r k) (ix2 p k) hi0 rfl]

section
variable (V : (c : Dev nD) → (b : Ref sig .tc) → Buf (Elt Ideal) ((c : Thread nD τ).loc b)) (c : Dev nD)

/-- What point t writes back is block t of x W + b of the arrays as the region finds them. -/
theorem flushed_eq (t : Fin cfg6.N) :
    (dat6 (F := Ideal) V c).flushed 3 t = ((cfg6.win 3).blk t).view.read (Elt Ideal)
      (Cert.Spec.lin (F := Ideal) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz2]
  simp only [View.ld_unit_zero (S := S5000x128) hz2, View.ld_unit_zero (S := S128x128) hz2, View.ld_unit_zero (S := S128) hz1]
  obtain ⟨-, -, -, -, -, e0, e1⟩ := idx_facts t
  funext j
  show k6_pay1 (F := Ideal) (iblk6 V c 0 t) (iblk6 V c 1 t) (iblk6 V c 2 t) j
    = Cert.Spec.lin (F := Ideal) (V c (Pipeline.arrRef spec6 0)) (V c (Pipeline.arrRef spec6 1)) (V c (Pipeline.arrRef spec6 2))
        (((cfg6.win 3).blk t).view.emb j)
  refine block_eq (V c (Pipeline.arrRef spec6 0)) (V c (Pipeline.arrRef spec6 1)) (V c (Pipeline.arrRef spec6 2))
    (iblk6 V c 0 t) (iblk6 V c 1 t) (iblk6 V c 2 t) t.val (fun y i h0 h1 => blk0_read V c t y i h0 h1) (blk1_read V c t) (blk2_read V c t)
    j (((cfg6.win 3).blk t).view.emb j) ?_ ?_
  · show win6_3.index t (0 : Fin 2) * 5000 + 1 * (j 0).val = 5000 * t.val + (j 0).val; omega
  · show win6_3.index t (1 : Fin 2) * 128 + 1 * (j 1).val = (j 1).val; omega

/-- An index of the output array is in point t's block iff each coordinate is in the block's range on its axis. -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v92).slice (win6_3.rect t)).set ↔ _
  rw [View.set_slice_whole, Rect.mem_set_unit]
  exact Iff.rfl

/-- Row r of the output is covered by the point r / 5000. -/
theorem cover (i : S100000x128.Idx) : ∃ t : Fin cfg6.N, (cfg6.win 3).flush t = true ∧ i ∈ ((cfg6.win 3).blk t).view.set := by
  have hN : cfg6.N = 20 := N_6
  have hi0 : (i 0).val < 100000 := (i 0).isLt
  have hi1 : (i 1).val < 128 := (i 1).isLt
  let t : Fin cfg6.N := ⟨(i 0).val / 5000, by rw [hN]; omega⟩
  obtain ⟨-, -, -, -, -, e0, e1⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

end

/-- The output array after the region is x W + b of the region's three input arrays as it finds them. -/
theorem value (V : (c : Dev nD) → (b : Ref sig .tc) → Buf (Elt Ideal) ((c : Thread nD τ).loc b)) (c : Dev nD) :
    (dat6 (F := Ideal) V c).arrAt 3 cfg6.N
      = Cert.Spec.lin (F := Ideal) (V c (Pipeline.arrRef spec6 0)) (V c (Pipeline.arrRef spec6 1)) (V c (Pipeline.arrRef spec6 2)) :=
  (dat6 (F := Ideal) V c).arrAt_eq_of_cover 3
    (Cert.Spec.lin (F := Ideal) (V c (Pipeline.arrRef spec6 0)) (V c (Pipeline.arrRef spec6 1)) (V c (Pipeline.arrRef spec6 2)))
    (fun t _ => flushed_eq V c t) (cover)

end Cert.KernelIdeal.MM6
end
-- ==== Proof.BN1.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec

noncomputable section

namespace Cert.KernelIdeal.BN1

open Idealize.ShloMosaic Idealize.ShloMosaic.TcCoe Idealize.SL.Sem Cert.KernelIdeal Cert.KernelIdeal.Gen
open Idealize.ShloMosaic.ValueIdx

/-! ## One entry of the normalised, rectified array

Lane `q` of row `p`: `max (((z − μ) · rsqrt (σ² + ε)) · γ + β) 0`, the statistics and parameters read at the lane. -/

/-- The entry as a function of the five numbers it depends on. -/
def lane (x mu var g be : Ideal .f32) : Ideal .f32 :=
  FloatOps.maximumf
    (FloatOps.addf
      (FloatOps.mulf
        (FloatOps.mulf (FloatOps.subf x mu) (FloatOps.rsqrt (FloatOps.addf var (FloatOps.ofBits .f32 0x3727C5AC#32))))
        g)
      be)
    (FloatOps.ofBits .f32 0x00000000#32)

/-- A vector of 128 lane values repeated down the 100000 rows reads, at row `p` and lane `q`, the vector at `q`. -/
theorem rows_apply (v : Vec Ideal S128 .f32) (p : Fin 100000) (q : Fin 128) :
    Cert.Spec.rows (F := Ideal) v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The specification's array at row `p` and lane `q`. -/
theorem bnRelu_apply (z : Vec Ideal S100000x128 .f32) (mu var g be : Vec Ideal S128 .f32) (p : Fin 100000) (q : Fin 128) :
    Cert.Spec.bnRelu (F := Ideal) z mu var g be (ix2 p q)
      = lane (z (ix2 p q)) (mu (ix1 q)) (var (ix1 q)) (g (ix1 q)) (be (ix1 q)) := by
  unfold Cert.Spec.bnRelu
  simp only [maximumf_apply, addf_apply, mulf_apply, subf_apply, rows_apply]
  rfl

/-- In the kernel a vector of 128 lane values is given a unit row axis and repeated down the 5000 rows of a block. -/
theorem blockRows_apply (v : FVec Ideal S128 .f32) (h1 : S128.ShapeCasts S1x128) (h2 : S1x128.Broadcasts S5000x128)
    (r : Fin 5000) (q : Fin 128) :
    broadcastTo S5000x128 (shapeCast S1x128 v h1) h2 (ix2 r q) = v (ix1 q) :=
  (broadcastTo_1b_ab_apply _ h2 r q).trans (shapeCast_a_1a_apply v h1 0 q)

/-- The kernel's payload at row `r` and lane `q` of a block: the same entry of the block's row and the four vectors. -/
theorem pay_apply (x0 : Vec Ideal S5000x128 .f32) (xv xm xg xb : Vec Ideal S128 .f32) (r : Fin 5000) (q : Fin 128) :
    k1_pay1 (F := Ideal) x0 xv xm xg xb (ix2 r q)
      = lane (x0 (ix2 r q)) (xm (ix1 q)) (xv (ix1 q)) (xg (ix1 q)) (xb (ix1 q)) := by
  unfold k1_pay1
  simp only [shapeCast_self, maximumf_apply, addf_apply, mulf_apply, subf_apply, blockRows_apply]
  rfl

/-! ## From the blocks to the array

Point `t` of the 20 reads rows `5000·t … 5000·t + 4999` of `z` and the four whole vectors, and writes the same rows of
the result. -/

theorem hz2 : (![0, 0] : Fin 2 → Nat) = fun _ => 0 := funext fun a => by fin_cases a <;> rfl
theorem hz1 : (![0] : Fin 1 → Nat) = fun _ => 0 := funext fun a => by fin_cases a; rfl

/-- The block indices, decided over the grid: the two row-blocked windows are at row block `t`, lane block 0; the four
    vector windows at block 0. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- A payload of blocks that are the arrays read through an embedding `e` of the block's indices (the row block read
    where `e` says, lanes kept; the vectors whole) is the specification's array read through `e`. -/
theorem pay_eq_spec (x0 : Vec Ideal S5000x128 .f32) (xv xm xg xb : Vec Ideal S128 .f32)
    (Z : Vec Ideal S100000x128 .f32) (M Vr G B : Vec Ideal S128 .f32) (e : S5000x128.Idx → S100000x128.Idx)
    (h0 : ∀ j, x0 j = Z (e j)) (hlane : ∀ j, (e j 1).val = (j 1).val)
    (hm : xm = M) (hv : xv = Vr) (hg : xg = G) (hb : xb = B) (j : S5000x128.Idx) :
    k1_pay1 (F := Ideal) x0 xv xm xg xb j = Cert.Spec.bnRelu (F := Ideal) Z M Vr G B (e j) := by
  subst hm hv hg hb
  obtain ⟨r, q, rfl⟩ : ∃ (r : Fin 5000) (q : Fin 128), j = ix2 r q := ⟨j 0, j 1, eq_ix2 j⟩
  obtain ⟨p, q', hpq⟩ : ∃ (p : Fin 100000) (q' : Fin 128), e (ix2 r q) = ix2 p q' := ⟨e (ix2 r q) 0, e (ix2 r q) 1, eq_ix2 _⟩
  have hq : q' = q := Fin.ext (by have := hlane (ix2 r q); rw [hpq] at this; exact this)
  subst hq
  rw [pay_apply, h0, hpq, bnRelu_apply]

section Blocks
variable (V : (c : Dev nD) → (b : Ref sig .tc) → Buf (Elt Ideal) ((c : Thread nD τ).loc b)) (c : Dev nD) (t : Fin cfg1.N)

/-- The input's row block at point `t` is the input read where the output's block at `t` sits. -/
theorem rowBlock_eq (y : S5000x128.Idx) :
    iblk1 V c 0 t y = V c (Pipeline.arrRef spec1 0) (((cfg1.win 5).blk t).view.emb y) := by
  obtain ⟨e0, e1, e2, e3, -⟩ := idx_facts t
  show V c (Pipeline.arrRef spec1 0) (((cfg1.win 0).blk t).view.emb y) = V c (Pipeline.arrRef spec1 0) (((cfg1.win 5).blk t).view.emb y)
  refine congrArg _ (funext fun a => Fin.ext ?_)
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 128 + 1 * (y 1).val = win1_5.index t (1 : Fin 2) * 128 + 1 * (y 1).val; omega

/-- The output's block keeps the lane. -/
theorem lane_eq (y : S5000x128.Idx) : ((((cfg1.win 5).blk t).view.emb y) 1).val = (y 1).val := by
  obtain ⟨-, -, -, e3, -⟩ := idx_facts t
  show win1_5.index t (1 : Fin 2) * 128 + 1 * (y 1).val = (y 1).val
  omega

/-- Each vector window's block is its whole array. -/
theorem vec1_eq : iblk1 V c 1 t = V c (Pipeline.arrRef spec1 1) := by
  obtain ⟨-, -, -, -, e4, -⟩ := idx_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 1) * 128 + 1 * (y 0).val = (y 0).val; omega
theorem vec2_eq : iblk1 V c 2 t = V c (Pipeline.arrRef spec1 2) := by
  obtain ⟨-, -, -, -, -, e5, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 1) * 128 + 1 * (y 0).val = (y 0).val; omega
theorem vec3_eq : iblk1 V c 3 t = V c (Pipeline.arrRef spec1 3) := by
  obtain ⟨-, -, -, -, -, -, e6, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 1) * 128 + 1 * (y 0).val = (y 0).val; omega
theorem vec4_eq : iblk1 V c 4 t = V c (Pipeline.arrRef spec1 4) := by
  obtain ⟨-, -, -, -, -, -, -, e7⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 1) * 128 + 1 * (y 0).val = (y 0).val; omega

/-- WHAT POINT `t` WRITES BACK is block `t` of the specification's array of the region's five input arrays. -/
theorem flushed_eq :
    (dat1 (F := Ideal) V c).flushed 5 t
      = ((cfg1.win 5).blk t).view.read (Elt Ideal)
          (Cert.Spec.bnRelu (F := Ideal) (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128) hz1]
  funext j
  exact pay_eq_spec (iblk1 V c 0 t) (iblk1 V c 2 t) (iblk1 V c 1 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) (((cfg1.win 5).blk t).view.emb)
    (rowBlock_eq V c t) (lane_eq t) (vec1_eq V c t) (vec2_eq V c t) (vec3_eq V c t) (vec4_eq V c t) j

end Blocks

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v32).slice (win1_5.rect t)).set ↔ _
  rw [View.set_slice_whole, Rect.mem_set_unit]
  exact Iff.rfl

/-- Row `p` is in the block of point `p / 5000`: the blocks cover the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, e2, e3, -⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e3]; omega

/-- THE ARRAY after the region is the specification's batch-normalised, rectified array of the region's inputs. -/
theorem value (V : (c : Dev nD) → (b : Ref sig .tc) → Buf (Elt Ideal) ((c : Thread nD τ).loc b)) (c : Dev nD) :
    (dat1 (F := Ideal) V c).arrAt 5 cfg1.N
      = Cert.Spec.bnRelu (F := Ideal) (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq V c t) cover

end Cert.KernelIdeal.BN1

end
-- ==== Proof.BN3.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec

noncomputable section

namespace Cert.KernelIdeal.BN3

open Idealize.ShloMosaic Idealize.ShloMosaic.TcCoe Idealize.SL.Sem Cert.KernelIdeal Cert.KernelIdeal.Gen
open Idealize.ShloMosaic.ValueIdx

/-! ## One entry of the normalised, rectified array

Lane `q` of row `p`: `max (((z − μ) · rsqrt (σ² + ε)) · γ + β) 0`, the statistics and parameters read at the lane. -/

/-- The entry as a function of the five numbers it depends on. -/
def lane (x mu var g be : Ideal .f32) : Ideal .f32 :=
  FloatOps.maximumf
    (FloatOps.addf
      (FloatOps.mulf
        (FloatOps.mulf (FloatOps.subf x mu) (FloatOps.rsqrt (FloatOps.addf var (FloatOps.ofBits .f32 0x3727C5AC#32))))
        g)
      be)
    (FloatOps.ofBits .f32 0x00000000#32)

/-- A vector of 128 lane values repeated down the 100000 rows reads, at row `p` and lane `q`, the vector at `q`. -/
theorem rows_apply (v : Vec Ideal S128 .f32) (p : Fin 100000) (q : Fin 128) :
    Cert.Spec.rows (F := Ideal) v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The specification's array at row `p` and lane `q`. -/
theorem bnRelu_apply (z : Vec Ideal S100000x128 .f32) (mu var g be : Vec Ideal S128 .f32) (p : Fin 100000) (q : Fin 128) :
    Cert.Spec.bnRelu (F := Ideal) z mu var g be (ix2 p q)
      = lane (z (ix2 p q)) (mu (ix1 q)) (var (ix1 q)) (g (ix1 q)) (be (ix1 q)) := by
  unfold Cert.Spec.bnRelu
  simp only [maximumf_apply, addf_apply, mulf_apply, subf_apply, rows_apply]
  rfl

/-- In the kernel a vector of 128 lane values is given a unit row axis and repeated down the 5000 rows of a block. -/
theorem blockRows_apply (v : FVec Ideal S128 .f32) (h1 : S128.ShapeCasts S1x128) (h2 : S1x128.Broadcasts S5000x128)
    (r : Fin 5000) (q : Fin 128) :
    broadcastTo S5000x128 (shapeCast S1x128 v h1) h2 (ix2 r q) = v (ix1 q) :=
  (broadcastTo_1b_ab_apply _ h2 r q).trans (shapeCast_a_1a_apply v h1 0 q)

/-- The kernel's payload at row `r` and lane `q` of a block: the same entry of the block's row and the four vectors. -/
theorem pay_apply (x0 : Vec Ideal S5000x128 .f32) (xv xm xg xb : Vec Ideal S128 .f32) (r : Fin 5000) (q : Fin 128) :
    k3_pay1 (F := Ideal) x0 xv xm xg xb (ix2 r q)
      = lane (x0 (ix2 r q)) (xm (ix1 q)) (xv (ix1 q)) (xg (ix1 q)) (xb (ix1 q)) := by
  unfold k3_pay1
  simp only [shapeCast_self, maximumf_apply, addf_apply, mulf_apply, subf_apply, blockRows_apply]
  rfl

/-! ## From the blocks to the array

Point `t` of the 20 reads rows `5000·t … 5000·t + 4999` of `z` and the four whole vectors, and writes the same rows of
the result. -/

theorem hz2 : (![0, 0] : Fin 2 → Nat) = fun _ => 0 := funext fun a => by fin_cases a <;> rfl
theorem hz1 : (![0] : Fin 1 → Nat) = fun _ => 0 := funext fun a => by fin_cases a; rfl

/-- The block indices, decided over the grid: the two row-blocked windows are at row block `t`, lane block 0; the four
    vector windows at block 0. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- A payload of blocks that are the arrays read through an embedding `e` of the block's indices (the row block read
    where `e` says, lanes kept; the vectors whole) is the specification's array read through `e`. -/
theorem pay_eq_spec (x0 : Vec Ideal S5000x128 .f32) (xv xm xg xb : Vec Ideal S128 .f32)
    (Z : Vec Ideal S100000x128 .f32) (M Vr G B : Vec Ideal S128 .f32) (e : S5000x128.Idx → S100000x128.Idx)
    (h0 : ∀ j, x0 j = Z (e j)) (hlane : ∀ j, (e j 1).val = (j 1).val)
    (hm : xm = M) (hv : xv = Vr) (hg : xg = G) (hb : xb = B) (j : S5000x128.Idx) :
    k3_pay1 (F := Ideal) x0 xv xm xg xb j = Cert.Spec.bnRelu (F := Ideal) Z M Vr G B (e j) := by
  subst hm hv hg hb
  obtain ⟨r, q, rfl⟩ : ∃ (r : Fin 5000) (q : Fin 128), j = ix2 r q := ⟨j 0, j 1, eq_ix2 j⟩
  obtain ⟨p, q', hpq⟩ : ∃ (p : Fin 100000) (q' : Fin 128), e (ix2 r q) = ix2 p q' := ⟨e (ix2 r q) 0, e (ix2 r q) 1, eq_ix2 _⟩
  have hq : q' = q := Fin.ext (by have := hlane (ix2 r q); rw [hpq] at this; exact this)
  subst hq
  rw [pay_apply, h0, hpq, bnRelu_apply]

section Blocks
variable (V : (c : Dev nD) → (b : Ref sig .tc) → Buf (Elt Ideal) ((c : Thread nD τ).loc b)) (c : Dev nD) (t : Fin cfg3.N)

/-- The input's row block at point `t` is the input read where the output's block at `t` sits. -/
theorem rowBlock_eq (y : S5000x128.Idx) :
    iblk3 V c 0 t y = V c (Pipeline.arrRef spec3 0) (((cfg3.win 5).blk t).view.emb y) := by
  obtain ⟨e0, e1, e2, e3, -⟩ := idx_facts t
  show V c (Pipeline.arrRef spec3 0) (((cfg3.win 0).blk t).view.emb y) = V c (Pipeline.arrRef spec3 0) (((cfg3.win 5).blk t).view.emb y)
  refine congrArg _ (funext fun a => Fin.ext ?_)
  match a with
  | ⟨0, _⟩ => show win3_0.index t (0 : Fin 2) * 5000 + 1 * (y 0).val = win3_5.index t (0 : Fin 2) * 5000 + 1 * (y 0).val; omega
  | ⟨1, _⟩ => show win3_0.index t (1 : Fin 2) * 128 + 1 * (y 1).val = win3_5.index t (1 : Fin 2) * 128 + 1 * (y 1).val; omega

/-- The output's block keeps the lane. -/
theorem lane_eq (y : S5000x128.Idx) : ((((cfg3.win 5).blk t).view.emb y) 1).val = (y 1).val := by
  obtain ⟨-, -, -, e3, -⟩ := idx_facts t
  show win3_5.index t (1 : Fin 2) * 128 + 1 * (y 1).val = (y 1).val
  omega

/-- Each vector window's block is its whole array. -/
theorem vec1_eq : iblk3 V c 1 t = V c (Pipeline.arrRef spec3 1) := by
  obtain ⟨-, -, -, -, e4, -⟩ := idx_facts t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 1) * 128 + 1 * (y 0).val = (y 0).val; omega
theorem vec2_eq : iblk3 V c 2 t = V c (Pipeline.arrRef spec3 2) := by
  obtain ⟨-, -, -, -, -, e5, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 1) * 128 + 1 * (y 0).val = (y 0).val; omega
theorem vec3_eq : iblk3 V c 3 t = V c (Pipeline.arrRef spec3 3) := by
  obtain ⟨-, -, -, -, -, -, e6, -⟩ := idx_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 1) * 128 + 1 * (y 0).val = (y 0).val; omega
theorem vec4_eq : iblk3 V c 4 t = V c (Pipeline.arrRef spec3 4) := by
  obtain ⟨-, -, -, -, -, -, -, e7⟩ := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 1) * 128 + 1 * (y 0).val = (y 0).val; omega

/-- WHAT POINT `t` WRITES BACK is block `t` of the specification's array of the region's five input arrays. -/
theorem flushed_eq :
    (dat3 (F := Ideal) V c).flushed 5 t
      = ((cfg3.win 5).blk t).view.read (Elt Ideal)
          (Cert.Spec.bnRelu (F := Ideal) (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128) hz1]
  funext j
  exact pay_eq_spec (iblk3 V c 0 t) (iblk3 V c 2 t) (iblk3 V c 1 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) (((cfg3.win 5).blk t).view.emb)
    (rowBlock_eq V c t) (lane_eq t) (vec1_eq V c t) (vec2_eq V c t) (vec3_eq V c t) (vec4_eq V c t) j

end Blocks

/-- An index of the result array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v55).slice (win3_5.rect t)).set ↔ _
  rw [View.set_slice_whole, Rect.mem_set_unit]
  exact Iff.rfl

/-- Row `p` is in the block of point `p / 5000`: the blocks cover the array. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_5 _, ?_⟩
  rw [mem_blk]
  obtain ⟨-, -, e2, e3, -⟩ := idx_facts ⟨(i 0).val / 5000, by rw [hN]; omega⟩
  intro a
  match a with
  | ⟨0, _⟩ =>
    show win3_5.index ⟨(i 0).val / 5000, _⟩ (0 : Fin 2) * 5000 ≤ (i 0).val ∧ (i 0).val < win3_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win3_5.index ⟨(i 0).val / 5000, _⟩ (1 : Fin 2) * 128 ≤ (i 1).val ∧ (i 1).val < win3_5.index ⟨(i 0).val / 5000, _⟩ (1 : Fin 2) * 128 + 128
    rw [e3]; omega

/-- THE ARRAY after the region is the specification's batch-normalised, rectified array of the region's inputs. -/
theorem value (V : (c : Dev nD) → (b : Ref sig .tc) → Buf (Elt Ideal) ((c : Thread nD τ).loc b)) (c : Dev nD) :
    (dat3 (F := Ideal) V c).arrAt 5 cfg3.N
      = Cert.Spec.bnRelu (F := Ideal) (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed_eq V c t) cover

end Cert.KernelIdeal.BN3

end
-- ==== Proof.BN5.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec

noncomputable section

namespace Cert.KernelIdeal.BN5

open Idealize.ShloMosaic Idealize.ShloMosaic.TcCoe Idealize.SL.Sem Cert.KernelIdeal Cert.KernelIdeal.Gen
open Idealize.ShloMosaic.ValueIdx

/-! ## One entry of the normalised, rectified array

Lane `q` of row `p`: `max (((z − μ) · rsqrt (σ² + ε)) · γ + β) 0`, the statistics and parameters read at the lane. -/

/-- The entry as a function of the five numbers it depends on. -/
def lane (x mu var g be : Ideal .f32) : Ideal .f32 :=
  FloatOps.maximumf
    (FloatOps.addf
      (FloatOps.mulf
        (FloatOps.mulf (FloatOps.subf x mu) (FloatOps.rsqrt (FloatOps.addf var (FloatOps.ofBits .f32 0x3727C5AC#32))))
        g)
      be)
    (FloatOps.ofBits .f32 0x00000000#32)

/-- A vector of 128 lane values repeated down the 100000 rows reads, at row `p` and lane `q`, the vector at `q`. -/
theorem rows_apply (v : Vec Ideal S128 .f32) (p : Fin 100000) (q : Fin 128) :
    Cert.Spec.rows (F := Ideal) v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The specification's array at row `p` and lane `q`. -/
theorem bnRelu_apply (z : Vec Ideal S100000x128 .f32) (mu var g be : Vec Ideal S128 .f32) (p : Fin 100000) (q : Fin 128) :
    Cert.Spec.bnRelu (F := Ideal) z mu var g be (ix2 p q)
      = lane (z (ix2 p q)) (mu (ix1 q)) (var (ix1 q)) (g (ix1 q)) (be (ix1 q)) := by
  unfold Cert.Spec.bnRelu
  simp only [maximumf_apply, addf_apply, mulf_apply, subf_apply, rows_apply]
  rfl

/-- In the kernel a vector of 128 lane values is given a unit row axis and repeated down the 5000 rows of a block. -/
theorem blockRows_apply (v : FVec Ideal S128 .f32) (h1 : S128.ShapeCasts S1x128) (h2 : S1x128.Broadcasts S5000x128)
    (r : Fin 5000) (q : Fin 128) :
    broadcastTo S5000x128 (shapeCast S1x128 v h1) h2 (ix2 r q) = v (ix1 q) :=
  (broadcastTo_1b_ab_apply _ h2 r q).trans (shapeCast_a_1a_apply v h1 0 q)

/-- The kernel's payload at row `r` and lane `q` of a block: the same entry of the block's row and the four vectors. -/
theorem pay_apply (x0 : Vec Ideal S5000x128 .f32) (xv xm xg xb : Vec Ideal S128 .f32) (r : Fin 5000) (q : Fin 128) :
    k5_pay1 (F := Ideal) x0 xv xm xg xb (ix2 r q)
      = lane (x0 (ix2 r q)) (xm (ix1 q)) (xv (ix1 q)) (xg (ix1 q)) (xb (ix1 q)) := by
  unfold k5_pay1
  simp only [shapeCast_self, maximumf_apply, addf_apply, mulf_apply, subf_apply, blockRows_apply]
  rfl

/-! ## From the blocks to the array

Point `t` of the 20 reads rows `5000·t … 5000·t + 4999` of `z` and the four whole vectors, and writes the same rows of
the result. -/

theorem hz2 : (![0, 0] : Fin 2 → Nat) = fun _ => 0 := funext fun a => by fin_cases a <;> rfl
theorem hz1 : (![0] : Fin 1 → Nat) = fun _ => 0 := funext fun a => by fin_cases a; rfl

/-- The block indices, decided over the grid: the two row-blocked windows are at row block `t`, lane block 0; the four
    vector windows at block 0. -/
theorem idx_facts : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 1) = 0 ∧ win5_2.index t (0 : Fin 1) = 0
    ∧ win5_3.index t (0 : Fin 1) = 0 ∧ win5_4.index t (0 : Fin 1) = 0 :=
  (by decide +kernel : ∀ t : Fin grid5.N, _)

/-- A payload of blocks that are the arrays read through an embedding `e` of the block's indices (the row block read
    where `e` says, lanes kept; the vectors whole) is the specification's array read through `e`. -/
theorem pay_eq_spec (x0 : Vec Ideal S5000x128 .f32) (xv xm xg xb : Vec Ideal S128 .f32)
    (Z : Vec Ideal S100000x128 .f32) (M Vr G B : Vec Ideal S128 .f32) (e : S5000x128.Idx → S100000x128.Idx)
    (h0 : ∀ j, x0 j = Z (e j)) (hlane : ∀ j, (e j 1).val = (j 1).val)
    (hm : xm = M) (hv : xv = Vr) (hg : xg = G) (hb : xb = B) (j : S5000x128.Idx) :
    k5_pay1 (F := Ideal) x0 xv xm xg xb j = Cert.Spec.bnRelu (F := Ideal) Z M Vr G B (e j) := by
  subst hm hv hg hb
  obtain ⟨r, q, rfl⟩ : ∃ (r : Fin 5000) (q : Fin 128), j = ix2 r q := ⟨j 0, j 1, eq_ix2 j⟩
  obtain ⟨p, q', hpq⟩ : ∃ (p : Fin 100000) (q' : Fin 128), e (ix2 r q) = ix2 p q' := ⟨e (ix2 r q) 0, e (ix2 r q) 1, eq_ix2 _⟩
  have hq : q' = q := Fin.ext (by have := hlane (ix2 r q); rw [hpq] at this; exact this)
  subst hq
  rw [pay_apply, h0, hpq, bnRelu_apply]

section Blocks
variable (V : (c : Dev nD) → (b : Ref sig .tc) → Buf (Elt Ideal) ((c : Thread nD τ).loc b)) (c : Dev nD) (t : Fin cfg5.N)

/-- The input's row block at point `t` is the input read where the output's block at `t` sits. -/
theorem rowBlock_eq (y : S5000x128.Idx) :
    iblk5 V c 0 t y = V c (Pipeline.arrRef spec5 0) (((cfg5.win 5).blk t).view.emb y) := by
  obtain ⟨e0, e1, e2, e3, -⟩ := idx_facts t
  show V c (Pipeline.arrRef spec5 0) (((cfg5.win 0).blk t).view.emb y) = V c (Pipeline.arrRef spec5 0) (((cfg5.win 5).blk t).view.emb y)
  refine congrArg _ (funext fun a => Fin.ext ?_)
  match a with
  | ⟨0, _⟩ => show win5_0.index t (0 : Fin 2) * 5000 + 1 * (y 0).val = win5_5.index t (0 : Fin 2) * 5000 + 1 * (y 0).val; omega
  | ⟨1, _⟩ => show win5_0.index t (1 : Fin 2) * 128 + 1 * (y 1).val = win5_5.index t (1 : Fin 2) * 128 + 1 * (y 1).val; omega

/-- The output's block keeps the lane. -/
theorem lane_eq (y : S5000x128.Idx) : ((((cfg5.win 5).blk t).view.emb y) 1).val = (y 1).val := by
  obtain ⟨-, -, -, e3, -⟩ := idx_facts t
  show win5_5.index t (1 : Fin 2) * 128 + 1 * (y 1).val = (y 1).val
  omega

/-- Each vector window's block is its whole array. -/
theorem vec1_eq : iblk5 V c 1 t = V c (Pipeline.arrRef spec5 1) := by
  obtain ⟨-, -, -, -, e4, -⟩ := idx_facts t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 1) * 128 + 1 * (y 0).val = (y 0).val; omega
theorem vec2_eq : iblk5 V c 2 t = V c (Pipeline.arrRef spec5 2) := by
  obtain ⟨-, -, -, -, -, e5, -⟩ := idx_facts t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 1) * 128 + 1 * (y 0).val = (y 0).val; omega
theorem vec3_eq : iblk5 V c 3 t = V c (Pipeline.arrRef spec5 3) := by
  obtain ⟨-, -, -, -, -, -, e6, -⟩ := idx_facts t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 1) * 128 + 1 * (y 0).val = (y 0).val; omega
theorem vec4_eq : iblk5 V c 4 t = V c (Pipeline.arrRef spec5 4) := by
  obtain ⟨-, -, -, -, -, -, -, e7⟩ := idx_facts t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 1) * 128 + 1 * (y 0).val = (y 0).val; omega

/-- WHAT POINT `t` WRITES BACK is block `t` of the specification's array of the region's five input arrays. -/
theorem flushed_eq :
    (dat5 (F := Ideal) V c).flushed 5 t
      = ((cfg5.win 5).blk t).view.read (Elt Ideal)
          (Cert.Spec.bnRelu (F := Ideal) (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S128) hz1]
  funext j
  exact pay_eq_spec (iblk5 V c 0 t) (iblk5 V c 2 t) (iblk5 V c 1 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) (((cfg5.win 5).blk t).view.emb)
    (rowBlock_eq V c t) (lane_eq t) (vec1_eq V c t) (vec2_eq V c t) (vec3_eq V c t) (vec4_eq V c t) j

end Blocks

/-- An index of the result array is in point `t`'s block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v78).slice (win5_5.rect t)).set ↔ _
  rw [View.set_slice_whole, Rect.mem_set_unit]
  exact Iff.rfl

/-- Row `p` is in the block of point `p / 5000`: the blocks cover the array. -/
theorem cover (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  rw [mem_blk]
  obtain ⟨-, -, e2, e3, -⟩ := idx_facts ⟨(i 0).val / 5000, by rw [hN]; omega⟩
  intro a
  match a with
  | ⟨0, _⟩ =>
    show win5_5.index ⟨(i 0).val / 5000, _⟩ (0 : Fin 2) * 5000 ≤ (i 0).val ∧ (i 0).val < win5_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win5_5.index ⟨(i 0).val / 5000, _⟩ (1 : Fin 2) * 128 ≤ (i 1).val ∧ (i 1).val < win5_5.index ⟨(i 0).val / 5000, _⟩ (1 : Fin 2) * 128 + 128
    rw [e3]; omega

/-- THE ARRAY after the region is the specification's batch-normalised, rectified array of the region's inputs. -/
theorem value (V : (c : Dev nD) → (b : Ref sig .tc) → Buf (Elt Ideal) ((c : Thread nD τ).loc b)) (c : Dev nD) :
    (dat5 (F := Ideal) V c).arrAt 5 cfg5.N
      = Cert.Spec.bnRelu (F := Ideal) (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed_eq V c t) cover

end Cert.KernelIdeal.BN5

end
-- ==== Proof.BN7.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec

noncomputable section

namespace Cert.KernelIdeal.BN7

open Idealize.ShloMosaic Idealize.ShloMosaic.TcCoe Idealize.SL.Sem Cert.KernelIdeal Cert.KernelIdeal.Gen
open Idealize.ShloMosaic.ValueIdx

/-! ## One entry of the normalised, rectified array

Lane `q` of row `p`: `max (((z − μ) · rsqrt (σ² + ε)) · γ + β) 0`, the statistics and parameters read at the lane. -/

/-- The entry as a function of the five numbers it depends on. -/
def lane (x mu var g be : Ideal .f32) : Ideal .f32 :=
  FloatOps.maximumf
    (FloatOps.addf
      (FloatOps.mulf
        (FloatOps.mulf (FloatOps.subf x mu) (FloatOps.rsqrt (FloatOps.addf var (FloatOps.ofBits .f32 0x3727C5AC#32))))
        g)
      be)
    (FloatOps.ofBits .f32 0x00000000#32)

/-- A vector of 128 lane values repeated down the 100000 rows reads, at row `p` and lane `q`, the vector at `q`. -/
theorem rows_apply (v : Vec Ideal S128 .f32) (p : Fin 100000) (q : Fin 128) :
    Cert.Spec.rows (F := Ideal) v (ix2 p q) = v (ix1 q) := by
  unfold Cert.Spec.rows
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The specification's array at row `p` and lane `q`. -/
theorem bnRelu_apply (z : Vec Ideal S100000x128 .f32) (mu var g be : Vec Ideal S128 .f32) (p : Fin 100000) (q : Fin 128) :
    Cert.Spec.bnRelu (F := Ideal) z mu var g be (ix2 p q)
      = lane (z (ix2 p q)) (mu (ix1 q)) (var (ix1 q)) (g (ix1 q)) (be (ix1 q)) := by
  unfold Cert.Spec.bnRelu
  simp only [maximumf_apply, addf_apply, mulf_apply, subf_apply, rows_apply]
  rfl

/-- In the kernel a vector of 128 lane values is given a unit row axis and repeated down the 5000 rows of a block. -/
theorem blockRows_apply (v : FVec Ideal S128 .f32) (h1 : S128.ShapeCasts S1x128) (h2 : S1x128.Broadcasts S5000x128)
    (r : Fin 5000) (q : Fin 128) :
    broadcastTo S5000x128 (shapeCast S1x128 v h1) h2 (ix2 r q) = v (ix1 q) :=
  (broadcastTo_1b_ab_apply _ h2 r q).trans (shapeCast_a_1a_apply v h1 0 q)

/-- The kernel's payload at row `r` and lane `q` of a block: the same entry of the block's row and the four vectors. -/
theorem pay_apply (x0 : Vec Ideal S5000x128 .f32) (xv xm xg xb : Vec Ideal S128 .f32) (r : Fin 5000) (q : Fin 128) :
    k7_pay1 (F := Ideal) x0 xv xm xg xb (ix2 r q)
      = lane (x0 (ix2 r q)) (xm (ix1 q)) (xv (ix1 q)) (xg (ix1 q)) (xb (ix1 q)) := by
  unfold k7_pay1
  simp only [shapeCast_self, maximumf_apply, addf_apply, mulf_apply, subf_apply, blockRows_apply]
  rfl

/-! ## From the blocks to the array

Point `t` of the 20 reads rows `5000·t … 5000·t + 4999` of `z` and the four whole vectors, and writes the same rows of
the result. -/

theorem hz2 : (![0, 0] : Fin 2 → Nat) = fun _ => 0 := funext fun a => by fin_cases a <;> rfl
theorem hz1 : (![0] : Fin 1 → Nat) = fun _ => 0 := funext fun a => by fin_cases a; rfl

/-- The block indices, decided over the grid: the two row-blocked windows are at row block `t`, lane block 0; the four
    vector windows at block 0. -/
theorem idx_facts : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 1) = 0 ∧ win7_2.index t (0 : Fin 1) = 0
    ∧ win7_3.index t (0 : Fin 1) = 0 ∧ win7_4.index t (0 : Fin 1) = 0 :=
  (by decide +kernel : ∀ t : Fin grid7.N, _)

/-- A payload of blocks that are the arrays read through an embedding `e` of the block's indices (the row block read
    where `e` says, lanes kept; the vectors whole) is the specification's array read through `e`. -/
theorem pay_eq_spec (x0 : Vec Ideal S5000x128 .f32) (xv xm xg xb : Vec Ideal S128 .f32)
    (Z : Vec Ideal S100000x128 .f32) (M Vr G B : Vec Ideal S128 .f32) (e : S5000x128.Idx → S100000x128.Idx)
    (h0 : ∀ j, x0 j = Z (e j)) (hlane : ∀ j, (e j 1).val = (j 1).val)
    (hm : xm = M) (hv : xv = Vr) (hg : xg = G) (hb : xb = B) (j : S5000x128.Idx) :
    k7_pay1 (F := Ideal) x0 xv xm xg xb j = Cert.Spec.bnRelu (F := Ideal) Z M Vr G B (e j) := by
  subst hm hv hg hb
  obtain ⟨r, q, rfl⟩ : ∃ (r : Fin 5000) (q : Fin 128), j = ix2 r q := ⟨j 0, j 1, eq_ix2 j⟩
  obtain ⟨p, q', hpq⟩ : ∃ (p : Fin 100000) (q' : Fin 128), e (ix2 r q) = ix2 p q' := ⟨e (ix2 r q) 0, e (ix2 r q) 1, eq_ix2 _⟩
  have hq : q' = q := Fin.ext (by have := hlane (ix2 r q); rw [hpq] at this; exact this)
  subst hq
  rw [pay_apply, h0, hpq, bnRelu_apply]

section Blocks
variable (V : (c : Dev nD) → (b : Ref sig .tc) → Buf (Elt Ideal) ((c : Thread nD τ).loc b)) (c : Dev nD) (t : Fin cfg7.N)

/-- The input's row block at point `t` is the input read where the output's block at `t` sits. -/
theorem rowBlock_eq (y : S5000x128.Idx) :
    iblk7 V c 0 t y = V c (Pipeline.arrRef spec7 0) (((cfg7.win 5).blk t).view.emb y) := by
  obtain ⟨e0, e1, e2, e3, -⟩ := idx_facts t
  show V c (Pipeline.arrRef spec7 0) (((cfg7.win 0).blk t).view.emb y) = V c (Pipeline.arrRef spec7 0) (((cfg7.win 5).blk t).view.emb y)
  refine congrArg _ (funext fun a => Fin.ext ?_)
  match a with
  | ⟨0, _⟩ => show win7_0.index t (0 : Fin 2) * 5000 + 1 * (y 0).val = win7_5.index t (0 : Fin 2) * 5000 + 1 * (y 0).val; omega
  | ⟨1, _⟩ => show win7_0.index t (1 : Fin 2) * 128 + 1 * (y 1).val = win7_5.index t (1 : Fin 2) * 128 + 1 * (y 1).val; omega

/-- The output's block keeps the lane. -/
theorem lane_eq (y : S5000x128.Idx) : ((((cfg7.win 5).blk t).view.emb y) 1).val = (y 1).val := by
  obtain ⟨-, -, -, e3, -⟩ := idx_facts t
  show win7_5.index t (1 : Fin 2) * 128 + 1 * (y 1).val = (y 1).val
  omega

/-- Each vector window's block is its whole array. -/
theorem vec1_eq : iblk7 V c 1 t = V c (Pipeline.arrRef spec7 1) := by
  obtain ⟨-, -, -, -, e4, -⟩ := idx_facts t
  funext y
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 1) * 128 + 1 * (y 0).val = (y 0).val; omega
theorem vec2_eq : iblk7 V c 2 t = V c (Pipeline.arrRef spec7 2) := by
  obtain ⟨-, -, -, -, -, e5, -⟩ := idx_facts t
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 1) * 128 + 1 * (y 0).val = (y 0).val; omega
theorem vec3_eq : iblk7 V c 3 t = V c (Pipeline.arrRef spec7 3) := by
  obtain ⟨-, -, -, -, -, -, e6, -⟩ := idx_facts t
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 1) * 128 + 1 * (y 0).val = (y 0).val; omega
theorem vec4_eq : iblk7 V c 4 t = V c (Pipeline.arrRef spec7 4) := by
  obtain ⟨-, -, -, -, -, -, -, e7⟩ := idx_facts t
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 1) * 128 + 1 * (y 0).val = (y 0).val; omega

/-- WHAT POINT `t` WRITES BACK is block `t` of the specification's array of the region's five input arrays. -/
theorem flushed_eq :
    (dat7 (F := Ideal) V c).flushed 5 t
      = ((cfg7.win 5).blk t).view.read (Elt Ideal)
          (Cert.Spec.bnRelu (F := Ideal) (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((dat7 V c).after 5 t) = _
  rw [after7_5]
  unfold out7_5
  rw [View.canon_unit_zero hz2]
  simp only [View.ld_unit_zero (S := S5000x128) hz2, View.ld_unit_zero (S := S128) hz1]
  funext j
  exact pay_eq_spec (iblk7 V c 0 t) (iblk7 V c 2 t) (iblk7 V c 1 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4)) (((cfg7.win 5).blk t).view.emb)
    (rowBlock_eq V c t) (lane_eq t) (vec1_eq V c t) (vec2_eq V c t) (vec3_eq V c t) (vec4_eq V c t) j

end Blocks

/-- An index of the result array is in point `t`'s block iff each coordinate is in the block's range on its axis. -/
theorem mem_blk (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v101).slice (win7_5.rect t)).set ↔ _
  rw [View.set_slice_whole, Rect.mem_set_unit]
  exact Iff.rfl

/-- Row `p` is in the block of point `p / 5000`: the blocks cover the array. -/
theorem cover (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  refine ⟨⟨(i 0).val / 5000, by rw [hN]; omega⟩, flush7_5 _, ?_⟩
  rw [mem_blk]
  obtain ⟨-, -, e2, e3, -⟩ := idx_facts ⟨(i 0).val / 5000, by rw [hN]; omega⟩
  intro a
  match a with
  | ⟨0, _⟩ =>
    show win7_5.index ⟨(i 0).val / 5000, _⟩ (0 : Fin 2) * 5000 ≤ (i 0).val ∧ (i 0).val < win7_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win7_5.index ⟨(i 0).val / 5000, _⟩ (1 : Fin 2) * 128 ≤ (i 1).val ∧ (i 1).val < win7_5.index ⟨(i 0).val / 5000, _⟩ (1 : Fin 2) * 128 + 128
    rw [e3]; omega

/-- THE ARRAY after the region is the specification's batch-normalised, rectified array of the region's inputs. -/
theorem value (V : (c : Dev nD) → (b : Ref sig .tc) → Buf (Elt Ideal) ((c : Thread nD τ).loc b)) (c : Dev nD) :
    (dat7 (F := Ideal) V c).arrAt 5 cfg7.N
      = Cert.Spec.bnRelu (F := Ideal) (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => flushed_eq V c t) cover

end Cert.KernelIdeal.BN7

end
-- ==== Proof.Head8.lean ====
/-
  The head of the network as one region: a grid of one point whose every window is a whole array.

  With hg [100, 128], W1 [128, 128], b1 [128], W2 [128, 10], b2 [10] the body stores
    z1     = hg W1 + b1                       (b1 repeated down the 100 rows)
    a      = z1 where z1 > 0, exp z1 - 1 elsewhere
    logits = a W2 + b2                        (b2 repeated down the 100 rows)
    m      = the maximum of each column of logits over the 100 rows, from minus infinity
    s      = logits - m                       (m repeated down the rows)
    out    = s - log (the sum of each column of exp s over the 100 rows)
  and the specification's head is the same composition spelt with whole-array host operations. On the extended reals
  each stage agrees with its counterpart as a whole array: a product into the zero accumulator and a contraction are
  the same sum over the contracted axis (rounding to a narrower format is the identity); the two spellings of the
  activation agree by cases on the comparison, with expm1 y = exp y - 1 and 1 * y = y; the two column maxima are folds
  of max over the same set of indices and max ⊥ y = y; the two column sums are the same finite sum, 0 + y = y; exp
  and log are one function on both sides. Each stage's equality is carried into the next stage as an equality of its
  argument. Since the one point's blocks are the arrays themselves, what the point writes back is the head of the arrays
  as the region finds them, and its block covers the whole output array.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177976_j84851373900196_1_alg».proof.Proof.Gen.KernelIdeal.Frame
import proofs.«177976_j84851373900196_1_alg».proof.Proof.Gen.ReferenceIdeal
import proofs.«177976_j84851373900196_1_alg».proof.Proof.Spec

noncomputable section

namespace Cert.KernelIdeal.Head8

open Idealize.ShloMosaic Idealize.ShloMosaic.TcCoe Idealize.SL.Sem Cert.KernelIdeal Cert.KernelIdeal.Gen
open Idealize.ShloMosaic.ValueIdx

/-! ## Words as extended reals -/

/-- The word of minus infinity is the bottom of the extended reals. -/
theorem ofBits_negInf : Ideal.ofBits .f32 0xFF800000#32 = (⊥ : EReal) := by simp [Ideal.ofBits, Ideal.ieee]

/-- The word of one is one. -/
theorem ofBits_one : Ideal.ofBits .f32 0x3F800000#32 = (1 : EReal) := by
  simp [Ideal.ofBits, Ideal.ieee, -EReal.coe_mul]; norm_num

/-! ## A vector repeated down the rows, read at an index -/

section Rows
variable {α : Type}

/-- The host's broadcast of a one-row array [1, b] to [a, b], at (p, q): the row at q. -/
theorem bcastRow_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- The host's broadcast of a vector [b] to one row [1, b], at (u, q): the vector at q. -/
theorem bcastVec_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

end Rows

/-! ## A linear layer: the matrix product into the zero accumulator plus the bias down the rows -/

/-- The kernel's product of the two operands (rounding to the narrow format is the identity on the extended
    reals) into the zero accumulator, plus the bias as a one-row array repeated down the rows, is the host's
    contraction plus the host's broadcast of the bias: both are, at (p, q), the same sum over the contracted
    axis plus the bias at q. -/
theorem lin_eq {m k n : ℕ} (d d' : DotDims ⟨2, ![m, k]⟩ ⟨2, ![k, n]⟩ ⟨2, ![m, n]⟩) (hd : d = d')
    (x x' : FVec Ideal ⟨2, ![m, k]⟩ .f32) (hx : x = x') (w : FVec Ideal ⟨2, ![k, n]⟩ .f32) (b : FVec Ideal ⟨1, ![n]⟩ .f32)
    (hb : FTy.bits .bf16 < FTy.bits .f32)
    (h1 : (⟨1, ![n]⟩ : Shape).ShapeCasts ⟨2, ![1, n]⟩) (h2 : (⟨2, ![1, n]⟩ : Shape).Broadcasts ⟨2, ![m, n]⟩)
    (h3 : (⟨1, ![n]⟩ : Shape).BroadcastsInDim ⟨2, ![1, n]⟩ ![1])
    (h4 : (⟨2, ![1, n]⟩ : Shape).BroadcastsInDim ⟨2, ![m, n]⟩ ![0, 1]) :
    addf (matmul d none (truncf .bf16 x hb) (truncf .bf16 w hb) (constant ⟨2, ![m, n]⟩ .f32 0x00000000#32))
        (broadcastTo ⟨2, ![m, n]⟩ (shapeCast ⟨2, ![1, n]⟩ b h1) h2)
      = addf (Host.dotGeneral d' none x' w)
        (broadcastInDim ⟨2, ![m, n]⟩ ![0, 1] h4 (broadcastInDim ⟨2, ![1, n]⟩ ![1] h3 b)) := by
  subst hd hx
  funext j
  obtain ⟨p, q, rfl⟩ : ∃ (p : Fin m) (q : Fin n), j = ix2 p q := ⟨j 0, j 1, eq_ix2 j⟩
  rw [addf_apply, addf_apply, broadcastTo_1b_ab_apply, shapeCast_a_1a_apply, bcastRow_apply, bcastVec_apply]
  refine congrArg (· + b (ix1 q)) ?_
  exact (Ideal.matmul_constant_zero_apply d none _ _ _).trans (Ideal.dotGeneral_apply d none .single x w _).symm

/-! ## The activation -/

/-- x where x > 0 and exp x - 1 elsewhere, against the host's x where x > 0 and 1 * expm1 (0 where x > 0, x elsewhere):
    the comparison is one function on both sides; where it holds both give x, and where it fails the inner choice is x,
    expm1 y = exp y - 1 and 1 * y = y on the extended reals. -/
theorem elu_eq {s : Shape} (z z' : FVec Ideal s .f32) (hz : z = z')
    (h0 : (⟨0, ![]⟩ : Shape).BroadcastsInDim s (![] : Fin 0 → Fin s.rank)) :
    select (cmpf .ogt z (broadcast s (Scalar.ofBits (F := Ideal) .f32 0x00000000#32))) z
        (subf (exp z) (broadcast s (Scalar.ofBits (F := Ideal) .f32 0x3F800000#32)))
      = select (cmpf .ogt z' (broadcastInDim s ![] h0 (constant (F := Ideal) ⟨0, ![]⟩ .f32 0x00000000#32))) z'
        (mulf (broadcastInDim s ![] h0 (constant (F := Ideal) ⟨0, ![]⟩ .f32 0x3F800000#32))
          (Host.expm1 (select (cmpf .ogt z' (broadcastInDim s ![] h0 (constant (F := Ideal) ⟨0, ![]⟩ .f32 0x00000000#32)))
            (broadcastInDim s ![] h0 (id (constant (F := Ideal) ⟨0, ![]⟩ .f32 0x00000000#32))) z'))) := by
  subst hz
  funext j
  show Scalar.select (FloatOps.cmpf .ogt (z j) (Ideal.ofBits .f32 0x00000000#32)) (z j)
        (Ideal.exp (z j) - Ideal.ofBits .f32 0x3F800000#32)
     = Scalar.select (FloatOps.cmpf .ogt (z j) (Ideal.ofBits .f32 0x00000000#32)) (z j)
        (Ideal.ofBits .f32 0x3F800000#32
          * (Ideal.exp (Scalar.select (FloatOps.cmpf .ogt (z j) (Ideal.ofBits .f32 0x00000000#32))
              (Ideal.ofBits .f32 0x00000000#32) (z j)) - 1))
  rw [ofBits_one]
  rcases BitVec.eq_zero_or_eq_one (FloatOps.cmpf .ogt (z j) (Ideal.ofBits .f32 0x00000000#32)) with h | h
  · rw [h, select_zero, select_zero, select_zero, one_mul]
  · rw [h, select_one, select_one]

/-! ## The log-softmax down each column -/

/-- The column maximum: the kernel folds max from minus infinity over the rows; the host takes the max of minus
    infinity with its own fold of max from minus infinity over the same rows. Both folds are over the same set of
    indices, and max ⊥ y = y. -/
theorem colMax_eq {a b : ℕ} (x : FVec Ideal ⟨2, ![a, b]⟩ .f32) (hr : (⟨2, ![a, b]⟩ : Shape).Reduces [0] ⟨1, ![b]⟩) (hrt : (⟨2, ![a, b]⟩ : Shape).ReducesTo [0] ⟨1, ![b]⟩)
    (hφ : FKind.Formats .f32) (hu : 0 < (⟨0, ![]⟩ : Shape).numel)
    (hacc : (0xFF800000#32 : BitVec 32) = FKind.maximumf.neutral .f32 hφ)
    (h5 : (⟨0, ![]⟩ : Shape).BroadcastsInDim ⟨1, ![b]⟩ (![] : Fin 0 → Fin (⟨1, ![b]⟩ : Shape).rank)) :
    (multiReduction .maximumf [0] ⟨1, ![b]⟩ x 0xFF800000#32 hr hφ hacc)
      = (maximumf (broadcastInDim ⟨1, ![b]⟩ ![] h5 (constant (F := Ideal) ⟨0, ![]⟩ .f32 0xFF800000#32))
          (Host.reduce FloatOps.maximumf x (constant (F := Ideal) ⟨0, ![]⟩ .f32 0xFF800000#32) hrt hu)) := by
  funext j
  rw [maximumf_apply]
  show _ = max (Ideal.ofBits .f32 0xFF800000#32) _
  rw [ofBits_negInf, max_bot_left, multiReduction_maximumf_eq_fold x _ hr hφ hacc j,
    Host.reduce_eq_fold FloatOps.maximumf x _ hrt hu j, hrt.drop_eq_drop hr]
  rfl

/-- The column sum of the exponentials: the kernel's sum over the rows is the host's sum from zero over the rows,
    and the exponential is one function on both sides. -/
theorem colSumExp_eq {a b : ℕ} (s : FVec Ideal ⟨2, ![a, b]⟩ .f32) (hr : (⟨2, ![a, b]⟩ : Shape).Reduces [0] ⟨1, ![b]⟩) (hrt : (⟨2, ![a, b]⟩ : Shape).ReducesTo [0] ⟨1, ![b]⟩)
    (hφ : FKind.Formats .f32) (hu : 0 < (⟨0, ![]⟩ : Shape).numel)
    (hacc0 : (0x00000000#32 : BitVec 32) = FKind.add.neutral .f32 hφ) :
    multiReduction .add [0] ⟨1, ![b]⟩ (exp s) 0x00000000#32 hr hφ hacc0
      = Host.reduceAdd (Host.exp s) (constant (F := Ideal) ⟨0, ![]⟩ .f32 0x00000000#32) hrt hu := by
  funext j
  refine (Ideal.multiReduction_add_single (exp s) _ hr hφ hacc0 j).trans ?_
  refine Eq.trans ?_ (Ideal.hostReduceAdd_single hrt hr (Host.exp s) (Ideal.ofBits .f32 0x00000000#32) j).symm
  rw [Ideal.ofBits_zero_f32, zero_add]
  rfl

/-- x - max - log (sum (exp (x - max))), the column statistics repeated down the rows: stage by stage the kernel's
    value is the host's. -/
theorem logSoftmax_eq {a b : ℕ} (x x' : FVec Ideal ⟨2, ![a, b]⟩ .f32) (hx : x = x') (hr : (⟨2, ![a, b]⟩ : Shape).Reduces [0] ⟨1, ![b]⟩) (hrt : (⟨2, ![a, b]⟩ : Shape).ReducesTo [0] ⟨1, ![b]⟩)
    (hφ : FKind.Formats .f32) (hu : 0 < (⟨0, ![]⟩ : Shape).numel)
    (hacc : (0xFF800000#32 : BitVec 32) = FKind.maximumf.neutral .f32 hφ)
    (hacc0 : (0x00000000#32 : BitVec 32) = FKind.add.neutral .f32 hφ)
    (h1 : (⟨1, ![b]⟩ : Shape).ShapeCasts ⟨2, ![1, b]⟩) (h2 : (⟨2, ![1, b]⟩ : Shape).Broadcasts ⟨2, ![a, b]⟩)
    (h3 : (⟨1, ![b]⟩ : Shape).BroadcastsInDim ⟨2, ![1, b]⟩ ![1])
    (h4 : (⟨2, ![1, b]⟩ : Shape).BroadcastsInDim ⟨2, ![a, b]⟩ ![0, 1])
    (h5 : (⟨0, ![]⟩ : Shape).BroadcastsInDim ⟨1, ![b]⟩ (![] : Fin 0 → Fin (⟨1, ![b]⟩ : Shape).rank)) :
    subf (subf x (broadcastTo ⟨2, ![a, b]⟩ (shapeCast ⟨2, ![1, b]⟩ (multiReduction .maximumf [0] ⟨1, ![b]⟩ x 0xFF800000#32 hr hφ hacc) h1) h2))
        (broadcastTo ⟨2, ![a, b]⟩ (log (shapeCast ⟨2, ![1, b]⟩
          (multiReduction .add [0] ⟨1, ![b]⟩ (exp (subf x (broadcastTo ⟨2, ![a, b]⟩ (shapeCast ⟨2, ![1, b]⟩ (multiReduction .maximumf [0] ⟨1, ![b]⟩ x 0xFF800000#32 hr hφ hacc) h1) h2))) 0x00000000#32 hr hφ hacc0) h1)) h2)
      = subf (subf x' (broadcastInDim ⟨2, ![a, b]⟩ ![0, 1] h4 (broadcastInDim ⟨2, ![1, b]⟩ ![1] h3 (maximumf (broadcastInDim ⟨1, ![b]⟩ ![] h5 (constant (F := Ideal) ⟨0, ![]⟩ .f32 0xFF800000#32))
          (Host.reduce FloatOps.maximumf x' (constant (F := Ideal) ⟨0, ![]⟩ .f32 0xFF800000#32) hrt hu)))))
        (broadcastInDim ⟨2, ![a, b]⟩ ![0, 1] h4 (Host.log (broadcastInDim ⟨2, ![1, b]⟩ ![1] h3
          (Host.reduceAdd (Host.exp (subf x' (broadcastInDim ⟨2, ![a, b]⟩ ![0, 1] h4 (broadcastInDim ⟨2, ![1, b]⟩ ![1] h3 (maximumf (broadcastInDim ⟨1, ![b]⟩ ![] h5 (constant (F := Ideal) ⟨0, ![]⟩ .f32 0xFF800000#32))
          (Host.reduce FloatOps.maximumf x' (constant (F := Ideal) ⟨0, ![]⟩ .f32 0xFF800000#32) hrt hu)))))) (constant (F := Ideal) ⟨0, ![]⟩ .f32 0x00000000#32) hrt hu)))) := by
  subst hx
  have hrows : (broadcastTo ⟨2, ![a, b]⟩ (shapeCast ⟨2, ![1, b]⟩ (multiReduction .maximumf [0] ⟨1, ![b]⟩ x 0xFF800000#32 hr hφ hacc) h1) h2)
      = (broadcastInDim ⟨2, ![a, b]⟩ ![0, 1] h4 (broadcastInDim ⟨2, ![1, b]⟩ ![1] h3 (maximumf (broadcastInDim ⟨1, ![b]⟩ ![] h5 (constant (F := Ideal) ⟨0, ![]⟩ .f32 0xFF800000#32))
          (Host.reduce FloatOps.maximumf x (constant (F := Ideal) ⟨0, ![]⟩ .f32 0xFF800000#32) hrt hu)))) := by
    funext j
    obtain ⟨p, q, rfl⟩ : ∃ (p : Fin a) (q : Fin b), j = ix2 p q := ⟨j 0, j 1, eq_ix2 j⟩
    rw [broadcastTo_1b_ab_apply, shapeCast_a_1a_apply, bcastRow_apply, bcastVec_apply,
      colMax_eq x hr hrt hφ hu hacc h5]
  rw [hrows]
  generalize (subf x (broadcastInDim ⟨2, ![a, b]⟩ ![0, 1] h4 (broadcastInDim ⟨2, ![1, b]⟩ ![1] h3 (maximumf (broadcastInDim ⟨1, ![b]⟩ ![] h5 (constant (F := Ideal) ⟨0, ![]⟩ .f32 0xFF800000#32))
          (Host.reduce FloatOps.maximumf x (constant (F := Ideal) ⟨0, ![]⟩ .f32 0xFF800000#32) hrt hu))))) = s
  funext j
  obtain ⟨p, q, rfl⟩ : ∃ (p : Fin a) (q : Fin b), j = ix2 p q := ⟨j 0, j 1, eq_ix2 j⟩
  rw [subf_apply, subf_apply]
  refine congrArg (s (ix2 p q) - ·) ?_
  rw [broadcastTo_1b_ab_apply, bcastRow_apply]
  show FloatOps.log (shapeCast ⟨2, ![1, b]⟩ _ h1 (ix2 (0 : Fin 1) q))
    = FloatOps.hostUnary .log (broadcastInDim (s := ⟨1, ![b]⟩) ⟨2, ![1, b]⟩ ![1] h3 _ (ix2 (0 : Fin 1) q))
  rw [shapeCast_a_1a_apply, bcastVec_apply, colSumExp_eq s hr hrt hφ hu hacc0]
  rfl

/-! ## The body's arithmetic is the head -/

/-- The payload the body stores, as a function of the five loaded arrays, is the head of the network: linear layer,
    activation, linear layer, log-softmax, each stage's value carried into the next. -/
theorem pay_eq (x0 : Vec Ideal S100x128 .f32) (x1 : Vec Ideal S128x128 .f32) (x2 : Vec Ideal S128 .f32)
    (x3 : Vec Ideal S128x10 .f32) (x4 : Vec Ideal S10 .f32) :
    k8_pay1 (F := Ideal) x0 x1 x2 x3 x4 = Cert.Spec.head (F := Ideal) x0 x1 x2 x3 x4 := by
  unfold k8_pay1 Cert.Spec.head Cert.Spec.logSoftmax0 Cert.Spec.fc2 Cert.Spec.elu Cert.Spec.fc1 Cert.Spec.rows10
  dsimp only
  refine logSoftmax_eq _ _ ?_ _ _ _ _ _ _ _ _ _ _ _
  refine lin_eq _ _ rfl _ _ ?_ _ _ _ _ _ _ _
  refine elu_eq _ _ ?_ _
  rw [shapeCast_self]
  exact lin_eq _ _ rfl _ _ rfl _ _ _ _ _ _ _

/-! ## From the one block to the array -/

theorem hz2 : (![0, 0] : Fin 2 → Nat) = fun _ => 0 := funext fun a => by fin_cases a <;> rfl
theorem hz1 : (![0] : Fin 1 → Nat) = fun _ => 0 := funext fun a => by fin_cases a <;> rfl

section Array

variable (V : (c : Dev nD) → (b : Ref sig .tc) → Buf (Elt Ideal) ((c : Thread nD τ).loc b)) (c : Dev nD)

/-! The grid has one point, and there every window's block starts at the origin and has the array's extents:
    the block read off the array is the array. -/

theorem iblk0 (t : Fin cfg8.N) :
    (iblk8 (F := Ideal) V c 0 t : Vec Ideal S100x128 .f32) = V c (Pipeline.arrRef spec8 0) := by
  obtain rfl := fin_N8 t
  have hz' : (fun a => win8_0.index t8_0 a * main_v113.ty.shape.size a) = fun _ => 0 :=
    funext fun a => by fin_cases a <;> decide
  exact Memref.read_access_unit_zero (Elt Ideal) main_v113 hz' (fun a => by rw [congrFun hz' a]; simp) _

theorem iblk1 (t : Fin cfg8.N) :
    (iblk8 (F := Ideal) V c 1 t : Vec Ideal S128x128 .f32) = V c (Pipeline.arrRef spec8 1) := by
  obtain rfl := fin_N8 t
  have hz' : (fun a => win8_1.index t8_0 a * main_arg9.ty.shape.size a) = fun _ => 0 :=
    funext fun a => by fin_cases a <;> decide
  exact Memref.read_access_unit_zero (Elt Ideal) main_arg9 hz' (fun a => by rw [congrFun hz' a]; simp) _

theorem iblk2 (t : Fin cfg8.N) :
    (iblk8 (F := Ideal) V c 2 t : Vec Ideal S128 .f32) = V c (Pipeline.arrRef spec8 2) := by
  obtain rfl := fin_N8 t
  have hz' : (fun a => win8_2.index t8_0 a * main_arg10.ty.shape.size a) = fun _ => 0 :=
    funext fun a => by fin_cases a <;> decide
  exact Memref.read_access_unit_zero (Elt Ideal) main_arg10 hz' (fun a => by rw [congrFun hz' a]; simp) _

theorem iblk3 (t : Fin cfg8.N) :
    (iblk8 (F := Ideal) V c 3 t : Vec Ideal S128x10 .f32) = V c (Pipeline.arrRef spec8 3) := by
  obtain rfl := fin_N8 t
  have hz' : (fun a => win8_3.index t8_0 a * main_arg11.ty.shape.size a) = fun _ => 0 :=
    funext fun a => by fin_cases a <;> decide
  exact Memref.read_access_unit_zero (Elt Ideal) main_arg11 hz' (fun a => by rw [congrFun hz' a]; simp) _

theorem iblk4 (t : Fin cfg8.N) :
    (iblk8 (F := Ideal) V c 4 t : Vec Ideal S10 .f32) = V c (Pipeline.arrRef spec8 4) := by
  obtain rfl := fin_N8 t
  have hz' : (fun a => win8_4.index t8_0 a * main_arg12.ty.shape.size a) = fun _ => 0 :=
    funext fun a => by fin_cases a <;> decide
  exact Memref.read_access_unit_zero (Elt Ideal) main_arg12 hz' (fun a => by rw [congrFun hz' a]; simp) _

/-- What the one point writes back: the head of the five arrays as the region finds them, read through the output
    window's block (which is the whole [100, 10] array). -/
theorem flushed_eq (t : Fin cfg8.N) :
    (dat8 (F := Ideal) V c).flushed 5 t = ((cfg8.win 5).blk t).view.read (Elt Ideal)
      (Cert.Spec.head (F := Ideal) (V c (Pipeline.arrRef spec8 0)) (V c (Pipeline.arrRef spec8 1))
        (V c (Pipeline.arrRef spec8 2)) (V c (Pipeline.arrRef spec8 3)) (V c (Pipeline.arrRef spec8 4))) := by
  show (cfg8.win 5).cut (grid8.coords t) ((dat8 V c).after 5 t) = _
  rw [after8_5, iblk0 V c t, iblk1 V c t, iblk2 V c t, iblk3 V c t, iblk4 V c t]
  unfold out8_5
  rw [View.canon_unit_zero hz2]
  simp only [View.ld_unit_zero (S := S100x128) hz2, View.ld_unit_zero (S := S128x128) hz2,
    View.ld_unit_zero (S := S128) hz1, View.ld_unit_zero (S := S128x10) hz2, View.ld_unit_zero (S := S10) hz1]
  rw [pay_eq]
  obtain rfl := fin_N8 t
  have hz' : (fun a => win8_5.index t8_0 a * main_v114.ty.shape.size a) = fun _ => 0 :=
    funext fun a => by fin_cases a <;> decide
  exact (Memref.read_access_unit_zero (Elt Ideal) main_v114 hz' (fun a => by rw [congrFun hz' a]; simp) _).symm

end Array

/-- The output array after the region is the head of the five arrays as the region finds them: the one point's block
    covers the whole [100, 10] array. -/
theorem value (V : (c : Dev nD) → (b : Ref sig .tc) → Buf (Elt Ideal) ((c : Thread nD τ).loc b)) (c : Dev nD) :
    (dat8 (F := Ideal) V c).arrAt 5 cfg8.N
      = Cert.Spec.head (F := Ideal) (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 _ (fun t _ => flushed_eq V c t) fun i =>
    ⟨t8_0, flush8_5 t8_0, by
      show i ∈ ((View.whole main_v114).slice (win8_5.rect t8_0)).set
      rw [View.set_slice_whole, Rect.mem_set_unit]
      intro a
      have h0 : (i 0 : Nat) < 100 := (i 0).isLt
      have h1 : (i 1 : Nat) < 10 := (i 1).isLt
      match a with
      | ⟨0, _⟩ =>
        show win8_5.index t8_0 0 * win8_5.size 0 ≤ (i 0 : Nat)
          ∧ (i 0 : Nat) < win8_5.index t8_0 0 * win8_5.size 0 + win8_5.xsize (grid8.coords t8_0) 0
        rw [show win8_5.index t8_0 0 * win8_5.size 0 = 0 from by decide +kernel,
          show win8_5.xsize (grid8.coords t8_0) 0 = 100 from by decide +kernel]
        omega
      | ⟨1, _⟩ =>
        show win8_5.index t8_0 1 * win8_5.size 1 ≤ (i 1 : Nat)
          ∧ (i 1 : Nat) < win8_5.index t8_0 1 * win8_5.size 1 + win8_5.xsize (grid8.coords t8_0) 1
        rw [show win8_5.index t8_0 1 * win8_5.size 1 = 0 from by decide +kernel,
          show win8_5.xsize (grid8.coords t8_0) 1 = 10 from by decide +kernel]
        omega⟩

end Cert.KernelIdeal.Head8

end
-- ==== Proof.KChain.lean ====
/-
  The idealized kernel program's result as a function of its arguments.

  Reading the last boundary's contents at the result buffer backwards: the head region leaves Cert.Spec.head of
  the pooled features and the head's parameters; the pooled features are Cert.Spec.pool of layer 3's output; each
  layer's output is what its normalisation region leaves, Cert.Spec.bnRelu of the matrix-product region's output
  z, of the column mean and variance of z computed by the host, and of the layer's scale and shift rows; z is
  Cert.Spec.lin of h + A h computed by the host from the previous layer's output, of the layer's weight and of its
  bias row.  The edge rows, the weight matrices and the parameter tables are read at the boundary where they are
  used and found as the launch left them, because no segment in between touches them.  Composed, the result is
  Cert.Spec.net of the launch contents of the arguments.
-/
import Idealize.ShloMosaic.PureOps.Ideal
import proofs.«177976_j84851373900196_1_alg».proof.Proof.KHost
import proofs.«177976_j84851373900196_1_alg».proof.Proof.KKeep
import proofs.«177976_j84851373900196_1_alg».proof.Proof.MM0
import proofs.«177976_j84851373900196_1_alg».proof.Proof.MM2
import proofs.«177976_j84851373900196_1_alg».proof.Proof.MM4
import proofs.«177976_j84851373900196_1_alg».proof.Proof.MM6
import proofs.«177976_j84851373900196_1_alg».proof.Proof.BN1
import proofs.«177976_j84851373900196_1_alg».proof.Proof.BN3
import proofs.«177976_j84851373900196_1_alg».proof.Proof.BN5
import proofs.«177976_j84851373900196_1_alg».proof.Proof.BN7
import proofs.«177976_j84851373900196_1_alg».proof.Proof.Head8

set_option maxRecDepth 16384

noncomputable section

namespace Cert.KernelIdeal.Hand

open Idealize.ShloMosaic Idealize.ShloMosaic.TcCoe Idealize.SL.Sem Cert.KernelIdeal Cert.KernelIdeal.Gen StableHlo
open Cert.KernelIdeal.Keep (keep0 keep2 keep6 keep7 keep8 keep12 keep13 keep14 keep18 keep19 keep20 keep24 keep25)

variable (m : (ℓ : Loc nD τ sig) → Buf (Elt Ideal) ℓ) (ρ : Dev nD → PrngReg) (c : Dev nD)

/-- The launch contents of a buffer. -/
abbrev A (b : Ref sig .tc) : Buf (Elt Ideal) ((c : Thread nD τ).loc b) := m ((c : Thread nD τ).loc b)

/-- The source and destination rows of the edge list. -/
abbrev SRC := Cert.Spec.srcOf (F := Ideal) (A m c main_arg2)
abbrev DST := Cert.Spec.dstOf (F := Ideal) (A m c main_arg2)

/-- The four layers' outputs. -/
abbrev H1 := Cert.Spec.layer (F := Ideal) (A m c main_arg0) (SRC m c) (DST m c) (A m c main_arg4) (Cert.Spec.row0 (A m c main_arg6)) (Cert.Spec.row0 (A m c main_arg7)) (Cert.Spec.row0 (A m c main_arg8))
abbrev H2 := Cert.Spec.layer (F := Ideal) (H1 m c) (SRC m c) (DST m c) (Cert.Spec.mat0 (A m c main_arg5)) (Cert.Spec.row1 (A m c main_arg6)) (Cert.Spec.row1 (A m c main_arg7)) (Cert.Spec.row1 (A m c main_arg8))
abbrev H3 := Cert.Spec.layer (F := Ideal) (H2 m c) (SRC m c) (DST m c) (Cert.Spec.mat1 (A m c main_arg5)) (Cert.Spec.row2 (A m c main_arg6)) (Cert.Spec.row2 (A m c main_arg7)) (Cert.Spec.row2 (A m c main_arg8))
abbrev H4 := Cert.Spec.layer (F := Ideal) (H3 m c) (SRC m c) (DST m c) (Cert.Spec.mat2 (A m c main_arg5)) (Cert.Spec.row3 (A m c main_arg6)) (Cert.Spec.row3 (A m c main_arg7)) (Cert.Spec.row3 (A m c main_arg8))

/-! ## Layer 0 -/

theorem agg0_at : W1 m ρ c (B main_v20) = Cert.Spec.agg (A m c main_arg0) (SRC m c) (DST m c) := pre0_agg (W0 m ρ c)
theorem w0_at : W1 m ρ c (B main_arg4) = (A m c main_arg4) := keep0 m ρ c main_arg4 (by decide)
theorem b0_at : W1 m ρ c (B main_v22) = Cert.Spec.row0 (A m c main_arg6) := pre0_bias (W0 m ρ c)

/-- The matrix-product region's output. -/
theorem z0_at : W2 m ρ c (B main_v23) = (Cert.Spec.lin (Cert.Spec.agg (A m c main_arg0) (SRC m c) (DST m c)) (A m c main_arg4) (Cert.Spec.row0 (A m c main_arg6))) := by
  refine (W2_arr m ρ c 3).trans ((Cert.KernelIdeal.MM0.value (V1 m ρ) c).trans ?_)
  show Cert.Spec.lin (W1 m ρ c (B main_v20)) (W1 m ρ c (B main_arg4)) (W1 m ρ c (B main_v22)) = _
  rw [agg0_at m ρ c, w0_at m ρ c, b0_at m ρ c]

theorem zst0_at : W5 m ρ c (B main_v23) = (Cert.Spec.lin (Cert.Spec.agg (A m c main_arg0) (SRC m c) (DST m c)) (A m c main_arg4) (Cert.Spec.row0 (A m c main_arg6))) := (stats0_z (W2 m ρ c)).trans (z0_at m ρ c)
theorem mean0_at : W5 m ρ c (B main_v26) = Cert.Spec.colMean (Cert.Spec.lin (Cert.Spec.agg (A m c main_arg0) (SRC m c) (DST m c)) (A m c main_arg4) (Cert.Spec.row0 (A m c main_arg6))) := (stats0_mean (W2 m ρ c)).trans (congrArg Cert.Spec.colMean (z0_at m ρ c))
theorem var0_at : W5 m ρ c (B main_v27) = Cert.Spec.colVar (Cert.Spec.lin (Cert.Spec.agg (A m c main_arg0) (SRC m c) (DST m c)) (A m c main_arg4) (Cert.Spec.row0 (A m c main_arg6))) := (stats0_var (W2 m ρ c)).trans (congrArg Cert.Spec.colVar (z0_at m ρ c))
theorem gamma0_at : W5 m ρ c (B main_v29) = Cert.Spec.row0 (A m c main_arg7) :=
  (stats0_gamma (W2 m ρ c)).trans (congrArg Cert.Spec.row0 ((keep2 m ρ c main_arg7 (by decide)).trans (keep0 m ρ c main_arg7 (by decide))))
theorem beta0_at : W5 m ρ c (B main_v31) = Cert.Spec.row0 (A m c main_arg8) :=
  (stats0_beta (W2 m ρ c)).trans (congrArg Cert.Spec.row0 ((keep2 m ρ c main_arg8 (by decide)).trans (keep0 m ρ c main_arg8 (by decide))))

/-- The normalisation region's output: the layer's output. -/
theorem h1_at : W6 m ρ c (B main_v32) = H1 m c := by
  refine (W6_arr m ρ c 5).trans ((Cert.KernelIdeal.BN1.value (V5 m ρ) c).trans ?_)
  show Cert.Spec.bnRelu (W5 m ρ c (B main_v23)) (W5 m ρ c (B main_v26)) (W5 m ρ c (B main_v27)) (W5 m ρ c (B main_v29)) (W5 m ρ c (B main_v31)) = _
  rw [zst0_at m ρ c, mean0_at m ρ c, var0_at m ρ c, gamma0_at m ρ c, beta0_at m ρ c]
  rfl

/-! ## Layer 1 -/

theorem src1_at : W6 m ρ c (B main_v1) = SRC m c := (keep6 m ρ c main_v1 (by decide)).trans (pre0_src (W0 m ρ c))
theorem dst1_at : W6 m ρ c (B main_v3) = DST m c := (keep6 m ρ c main_v3 (by decide)).trans (pre0_dst (W0 m ρ c))
theorem agg1_at : W7 m ρ c (B main_v43) = Cert.Spec.agg (H1 m c) (SRC m c) (DST m c) :=
  (agg1 (W6 m ρ c)).trans (by rw [h1_at m ρ c, src1_at m ρ c, dst1_at m ρ c])
theorem w1_at : W7 m ρ c (B main_v5) = (Cert.Spec.mat0 (A m c main_arg5)) := (keep7 m ρ c main_v5 (by decide)).trans (pre0_mat0 (W0 m ρ c))
theorem b1_at : W7 m ρ c (B main_v45) = Cert.Spec.row1 (A m c main_arg6) :=
  (bias1 (W6 m ρ c)).trans (congrArg Cert.Spec.row1 ((keep6 m ρ c main_arg6 (by decide)).trans (keep0 m ρ c main_arg6 (by decide))))

/-- The matrix-product region's output. -/
theorem z1_at : W8 m ρ c (B main_v46) = (Cert.Spec.lin (Cert.Spec.agg (H1 m c) (SRC m c) (DST m c)) (Cert.Spec.mat0 (A m c main_arg5)) (Cert.Spec.row1 (A m c main_arg6))) := by
  refine (W8_arr m ρ c 3).trans ((Cert.KernelIdeal.MM2.value (V7 m ρ) c).trans ?_)
  show Cert.Spec.lin (W7 m ρ c (B main_v43)) (W7 m ρ c (B main_v5)) (W7 m ρ c (B main_v45)) = _
  rw [agg1_at m ρ c, w1_at m ρ c, b1_at m ρ c]

theorem zst1_at : W11 m ρ c (B main_v46) = (Cert.Spec.lin (Cert.Spec.agg (H1 m c) (SRC m c) (DST m c)) (Cert.Spec.mat0 (A m c main_arg5)) (Cert.Spec.row1 (A m c main_arg6))) := (stats1_z (W8 m ρ c)).trans (z1_at m ρ c)
theorem mean1_at : W11 m ρ c (B main_v49) = Cert.Spec.colMean (Cert.Spec.lin (Cert.Spec.agg (H1 m c) (SRC m c) (DST m c)) (Cert.Spec.mat0 (A m c main_arg5)) (Cert.Spec.row1 (A m c main_arg6))) := (stats1_mean (W8 m ρ c)).trans (congrArg Cert.Spec.colMean (z1_at m ρ c))
theorem var1_at : W11 m ρ c (B main_v50) = Cert.Spec.colVar (Cert.Spec.lin (Cert.Spec.agg (H1 m c) (SRC m c) (DST m c)) (Cert.Spec.mat0 (A m c main_arg5)) (Cert.Spec.row1 (A m c main_arg6))) := (stats1_var (W8 m ρ c)).trans (congrArg Cert.Spec.colVar (z1_at m ρ c))
theorem gamma1_at : W11 m ρ c (B main_v52) = Cert.Spec.row1 (A m c main_arg7) :=
  (stats1_gamma (W8 m ρ c)).trans (congrArg Cert.Spec.row1 ((keep8 m ρ c main_arg7 (by decide)).trans (keep0 m ρ c main_arg7 (by decide))))
theorem beta1_at : W11 m ρ c (B main_v54) = Cert.Spec.row1 (A m c main_arg8) :=
  (stats1_beta (W8 m ρ c)).trans (congrArg Cert.Spec.row1 ((keep8 m ρ c main_arg8 (by decide)).trans (keep0 m ρ c main_arg8 (by decide))))

/-- The normalisation region's output: the layer's output. -/
theorem h2_at : W12 m ρ c (B main_v55) = H2 m c := by
  refine (W12_arr m ρ c 5).trans ((Cert.KernelIdeal.BN3.value (V11 m ρ) c).trans ?_)
  show Cert.Spec.bnRelu (W11 m ρ c (B main_v46)) (W11 m ρ c (B main_v49)) (W11 m ρ c (B main_v50)) (W11 m ρ c (B main_v52)) (W11 m ρ c (B main_v54)) = _
  rw [zst1_at m ρ c, mean1_at m ρ c, var1_at m ρ c, gamma1_at m ρ c, beta1_at m ρ c]
  rfl

/-! ## Layer 2 -/

theorem src2_at : W12 m ρ c (B main_v1) = SRC m c := (keep12 m ρ c main_v1 (by decide)).trans (pre0_src (W0 m ρ c))
theorem dst2_at : W12 m ρ c (B main_v3) = DST m c := (keep12 m ρ c main_v3 (by decide)).trans (pre0_dst (W0 m ρ c))
theorem agg2_at : W13 m ρ c (B main_v66) = Cert.Spec.agg (H2 m c) (SRC m c) (DST m c) :=
  (agg2 (W12 m ρ c)).trans (by rw [h2_at m ρ c, src2_at m ρ c, dst2_at m ρ c])
theorem w2_at : W13 m ρ c (B main_v7) = (Cert.Spec.mat1 (A m c main_arg5)) := (keep13 m ρ c main_v7 (by decide)).trans (pre0_mat1 (W0 m ρ c))
theorem b2_at : W13 m ρ c (B main_v68) = Cert.Spec.row2 (A m c main_arg6) :=
  (bias2 (W12 m ρ c)).trans (congrArg Cert.Spec.row2 ((keep12 m ρ c main_arg6 (by decide)).trans (keep0 m ρ c main_arg6 (by decide))))

/-- The matrix-product region's output. -/
theorem z2_at : W14 m ρ c (B main_v69) = (Cert.Spec.lin (Cert.Spec.agg (H2 m c) (SRC m c) (DST m c)) (Cert.Spec.mat1 (A m c main_arg5)) (Cert.Spec.row2 (A m c main_arg6))) := by
  refine (W14_arr m ρ c 3).trans ((Cert.KernelIdeal.MM4.value (V13 m ρ) c).trans ?_)
  show Cert.Spec.lin (W13 m ρ c (B main_v66)) (W13 m ρ c (B main_v7)) (W13 m ρ c (B main_v68)) = _
  rw [agg2_at m ρ c, w2_at m ρ c, b2_at m ρ c]

theorem zst2_at : W17 m ρ c (B main_v69) = (Cert.Spec.lin (Cert.Spec.agg (H2 m c) (SRC m c) (DST m c)) (Cert.Spec.mat1 (A m c main_arg5)) (Cert.Spec.row2 (A m c main_arg6))) := (stats2_z (W14 m ρ c)).trans (z2_at m ρ c)
theorem mean2_at : W17 m ρ c (B main_v72) = Cert.Spec.colMean (Cert.Spec.lin (Cert.Spec.agg (H2 m c) (SRC m c) (DST m c)) (Cert.Spec.mat1 (A m c main_arg5)) (Cert.Spec.row2 (A m c main_arg6))) := (stats2_mean (W14 m ρ c)).trans (congrArg Cert.Spec.colMean (z2_at m ρ c))
theorem var2_at : W17 m ρ c (B main_v73) = Cert.Spec.colVar (Cert.Spec.lin (Cert.Spec.agg (H2 m c) (SRC m c) (DST m c)) (Cert.Spec.mat1 (A m c main_arg5)) (Cert.Spec.row2 (A m c main_arg6))) := (stats2_var (W14 m ρ c)).trans (congrArg Cert.Spec.colVar (z2_at m ρ c))
theorem gamma2_at : W17 m ρ c (B main_v75) = Cert.Spec.row2 (A m c main_arg7) :=
  (stats2_gamma (W14 m ρ c)).trans (congrArg Cert.Spec.row2 ((keep14 m ρ c main_arg7 (by decide)).trans (keep0 m ρ c main_arg7 (by decide))))
theorem beta2_at : W17 m ρ c (B main_v77) = Cert.Spec.row2 (A m c main_arg8) :=
  (stats2_beta (W14 m ρ c)).trans (congrArg Cert.Spec.row2 ((keep14 m ρ c main_arg8 (by decide)).trans (keep0 m ρ c main_arg8 (by decide))))

/-- The normalisation region's output: the layer's output. -/
theorem h3_at : W18 m ρ c (B main_v78) = H3 m c := by
  refine (W18_arr m ρ c 5).trans ((Cert.KernelIdeal.BN5.value (V17 m ρ) c).trans ?_)
  show Cert.Spec.bnRelu (W17 m ρ c (B main_v69)) (W17 m ρ c (B main_v72)) (W17 m ρ c (B main_v73)) (W17 m ρ c (B main_v75)) (W17 m ρ c (B main_v77)) = _
  rw [zst2_at m ρ c, mean2_at m ρ c, var2_at m ρ c, gamma2_at m ρ c, beta2_at m ρ c]
  rfl

/-! ## Layer 3 -/

theorem src3_at : W18 m ρ c (B main_v1) = SRC m c := (keep18 m ρ c main_v1 (by decide)).trans (pre0_src (W0 m ρ c))
theorem dst3_at : W18 m ρ c (B main_v3) = DST m c := (keep18 m ρ c main_v3 (by decide)).trans (pre0_dst (W0 m ρ c))
theorem agg3_at : W19 m ρ c (B main_v89) = Cert.Spec.agg (H3 m c) (SRC m c) (DST m c) :=
  (agg3 (W18 m ρ c)).trans (by rw [h3_at m ρ c, src3_at m ρ c, dst3_at m ρ c])
theorem w3_at : W19 m ρ c (B main_v9) = (Cert.Spec.mat2 (A m c main_arg5)) := (keep19 m ρ c main_v9 (by decide)).trans (pre0_mat2 (W0 m ρ c))
theorem b3_at : W19 m ρ c (B main_v91) = Cert.Spec.row3 (A m c main_arg6) :=
  (bias3 (W18 m ρ c)).trans (congrArg Cert.Spec.row3 ((keep18 m ρ c main_arg6 (by decide)).trans (keep0 m ρ c main_arg6 (by decide))))

/-- The matrix-product region's output. -/
theorem z3_at : W20 m ρ c (B main_v92) = (Cert.Spec.lin (Cert.Spec.agg (H3 m c) (SRC m c) (DST m c)) (Cert.Spec.mat2 (A m c main_arg5)) (Cert.Spec.row3 (A m c main_arg6))) := by
  refine (W20_arr m ρ c 3).trans ((Cert.KernelIdeal.MM6.value (V19 m ρ) c).trans ?_)
  show Cert.Spec.lin (W19 m ρ c (B main_v89)) (W19 m ρ c (B main_v9)) (W19 m ρ c (B main_v91)) = _
  rw [agg3_at m ρ c, w3_at m ρ c, b3_at m ρ c]

theorem zst3_at : W23 m ρ c (B main_v92) = (Cert.Spec.lin (Cert.Spec.agg (H3 m c) (SRC m c) (DST m c)) (Cert.Spec.mat2 (A m c main_arg5)) (Cert.Spec.row3 (A m c main_arg6))) := (stats3_z (W20 m ρ c)).trans (z3_at m ρ c)
theorem mean3_at : W23 m ρ c (B main_v95) = Cert.Spec.colMean (Cert.Spec.lin (Cert.Spec.agg (H3 m c) (SRC m c) (DST m c)) (Cert.Spec.mat2 (A m c main_arg5)) (Cert.Spec.row3 (A m c main_arg6))) := (stats3_mean (W20 m ρ c)).trans (congrArg Cert.Spec.colMean (z3_at m ρ c))
theorem var3_at : W23 m ρ c (B main_v96) = Cert.Spec.colVar (Cert.Spec.lin (Cert.Spec.agg (H3 m c) (SRC m c) (DST m c)) (Cert.Spec.mat2 (A m c main_arg5)) (Cert.Spec.row3 (A m c main_arg6))) := (stats3_var (W20 m ρ c)).trans (congrArg Cert.Spec.colVar (z3_at m ρ c))
theorem gamma3_at : W23 m ρ c (B main_v98) = Cert.Spec.row3 (A m c main_arg7) :=
  (stats3_gamma (W20 m ρ c)).trans (congrArg Cert.Spec.row3 ((keep20 m ρ c main_arg7 (by decide)).trans (keep0 m ρ c main_arg7 (by decide))))
theorem beta3_at : W23 m ρ c (B main_v100) = Cert.Spec.row3 (A m c main_arg8) :=
  (stats3_beta (W20 m ρ c)).trans (congrArg Cert.Spec.row3 ((keep20 m ρ c main_arg8 (by decide)).trans (keep0 m ρ c main_arg8 (by decide))))

/-- The normalisation region's output: the layer's output. -/
theorem h4_at : W24 m ρ c (B main_v101) = H4 m c := by
  refine (W24_arr m ρ c 5).trans ((Cert.KernelIdeal.BN7.value (V23 m ρ) c).trans ?_)
  show Cert.Spec.bnRelu (W23 m ρ c (B main_v92)) (W23 m ρ c (B main_v95)) (W23 m ρ c (B main_v96)) (W23 m ρ c (B main_v98)) (W23 m ρ c (B main_v100)) = _
  rw [zst3_at m ρ c, mean3_at m ρ c, var3_at m ρ c, gamma3_at m ρ c, beta3_at m ρ c]
  rfl

/-! ## The pool and the head -/

theorem pool_at : W25 m ρ c (B main_v113) = Cert.Spec.pool (H4 m c) (A m c main_arg3) :=
  (pool8 (W24 m ρ c)).trans (by rw [h4_at m ρ c, (keep24 m ρ c main_arg3 (by decide)).trans (keep0 m ρ c main_arg3 (by decide))])

set_option synthInstance.maxSize 4096 in
set_option synthInstance.maxHeartbeats 400000 in
/-- The result buffer at the last boundary. -/
theorem result_at : W26 m ρ c (B main_v114)
    = Cert.Spec.net (F := Ideal) (A m c main_arg0) (A m c main_arg2) (A m c main_arg3) (A m c main_arg4) (A m c main_arg5) (A m c main_arg6)
        (A m c main_arg7) (A m c main_arg8) (A m c main_arg9) (A m c main_arg10) (A m c main_arg11) (A m c main_arg12) := by
  refine (W26_arr m ρ c 5).trans ((Cert.KernelIdeal.Head8.value (V25 m ρ) c).trans ?_)
  show Cert.Spec.head (W25 m ρ c (B main_v113)) (W25 m ρ c (B main_arg9)) (W25 m ρ c (B main_arg10)) (W25 m ρ c (B main_arg11)) (W25 m ρ c (B main_arg12)) = _
  rw [pool_at m ρ c, (keep25 m ρ c main_arg9 (by decide)).trans (keep0 m ρ c main_arg9 (by decide)), (keep25 m ρ c main_arg10 (by decide)).trans (keep0 m ρ c main_arg10 (by decide)),
    (keep25 m ρ c main_arg11 (by decide)).trans (keep0 m ρ c main_arg11 (by decide)), (keep25 m ρ c main_arg12 (by decide)).trans (keep0 m ρ c main_arg12 (by decide))]
  rfl

end Cert.KernelIdeal.Hand

end
-- ==== Proof.RefOps.lean ====
/-
  The reference program's host operations, in program order, as lists: first as the four printed parts of its
  main function (each outlined function's operations listed at its call over the call's buffers), then the
  same 348 operations cut where the mathematics cuts them: the two rows of the edge list, the four layers, the
  pooling, the head.
-/
import proofs.«177976_j84851373900196_1_alg».proof.ReferenceIdeal
import Idealize.ShloMosaic.Lib.StableHlo.Run

set_option maxRecDepth 16384

noncomputable section

namespace Cert.ReferenceIdeal.Hand

open Idealize.ShloMosaic Idealize.SL.Sem Cert.ReferenceIdeal

variable {F : FTy → Type} [FloatOps F] [Cert.ReferenceIdeal.Facts]
open Cert.ReferenceIdeal.Facts₀ Cert.ReferenceIdeal.Facts

/-- The operations of printed part 0 of main. -/
abbrev part0 : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg4 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v16 ((extractStridedSlice S1x128 ![0, 0] · slices_S4x128_S1x128_0_0) : (⟨S4x128, .f32⟩ : BufTy).Contents (Elt F) → (⟨S1x128, .f32⟩ : BufTy).Contents (Elt F)),
    StableHlo.reshape main_v16 main_v17 rfl shapeCasts_S1x128_S128,
    StableHlo.unary main_v17 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v19 main_v20 (addf : (⟨S100000x128, .f32⟩ : BufTy).Contents (Elt F) → (⟨S100000x128, .f32⟩ : BufTy).Contents (Elt F) → (⟨S100000x128, .f32⟩ : BufTy).Contents (Elt F)),
    StableHlo.unary main_arg7 main_v21 ((extractStridedSlice S1x128 ![0, 0] · slices_S4x128_S1x128_0_0) : (⟨S4x128, .f32⟩ : BufTy).Contents (Elt F) → (⟨S1x128, .f32⟩ : BufTy).Contents (Elt F)),
    StableHlo.reshape main_v21 main_v22 rfl shapeCasts_S1x128_S128,
    StableHlo.unary main_arg8 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.nullary main_cst_1 (constant S_ .f32 0x00000000#32),
    StableHlo.binary main_v20 main_cst_1 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v20 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v20 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_v22 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_v24 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v43 : StableHlo.TRef sig ⟨S100000x128, .f32⟩) main_call1.v0 main_call1.v1 maximumf,
    StableHlo.nullary main_c_5 (constantI S_ 32 0#32),
    StableHlo.unary main_c_5 main_v45 (broadcastInDim S1600000 ![] bcast_S_S1600000 : (⟨S_, .i32⟩ : BufTy).Contents (Elt F) → (⟨S1600000, .i32⟩ : BufTy).Contents (Elt F)),
    StableHlo.binary main_v1 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v47 (broadcastInDim S1600000 ![] bcast_S_S1600000 : (⟨S_, .i32⟩ : BufTy).Contents (Elt F) → (⟨S1600000, .i32⟩ : BufTy).Contents (Elt F)),
    StableHlo.binary main_v1 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)) ]

/-- The operations of printed part 1 of main. -/
abbrev part1 : List (HloOp τ sig (Elt F)) :=
  [ StableHlo.binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v52 (broadcastInDim S100000x128 ![] bcast_S_S100000x128 : (⟨S_, .f32⟩ : BufTy).Contents (Elt F) → (⟨S100000x128, .f32⟩ : BufTy).Contents (Elt F)),
    StableHlo.unary main_v3 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v44 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg5 main_v56 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v59 ((extractStridedSlice S1x128 ![1, 0] · slices_S4x128_S1x128_1_0) : (⟨S4x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.unary main_arg7 main_v64 ((extractStridedSlice S1x128 ![1, 0] · slices_S4x128_S1x128_1_0) : (⟨S4x128, .f32⟩ : BufTy).Contents (Elt F) → (⟨S1x128, .f32⟩ : BufTy).Contents (Elt F)),
    StableHlo.reshape main_v64 main_v65 rfl shapeCasts_S1x128_S128,
    StableHlo.unary main_arg8 main_v66 ((extractStridedSlice S1x128 ![1, 0] · slices_S4x128_S1x128_1_0) : (⟨S4x128, .f32⟩ : BufTy).Contents (Elt F) → (⟨S1x128, .f32⟩ : BufTy).Contents (Elt F)),
    StableHlo.reshape main_v66 main_v67 rfl shapeCasts_S1x128_S128,
    StableHlo.nullary main_cst_8 (constant S_ .f32 0x00000000#32),
    StableHlo.binary main_v63 main_cst_8 main_v68 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v63 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v63 : StableHlo.TRef sig ⟨S100000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v73 main_v74 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_v65 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (mulf : (⟨S100000x128, .f32⟩ : BufTy).Contents (Elt F) → (⟨S100000x128, .f32⟩ : BufTy).Contents (Elt F) → (⟨S100000x128, .f32⟩ : BufTy).Contents (Elt F)),
    StableHlo.unary main_v67 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v86 : StableHlo.TRef sig ⟨S100000x128, .f32⟩) main_call3.v0 main_call3.v1 maximumf,
    StableHlo.nullary main_c_12 (constantI S_ 32 0#32),
    StableHlo.unary main_c_12 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v87 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v87 main_v97 main_v98 (addf : (⟨S100000x128, .f32⟩ : BufTy).Contents (Elt F) → (⟨S100000x128, .f32⟩ : BufTy).Contents (Elt F) → (⟨S100000x128, .f32⟩ : BufTy).Contents (Elt F)),
    StableHlo.unary main_arg5 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v102 ((extractStridedSlice S1x128 ![2, 0] · slices_S4x128_S1x128_2_0) : (⟨S4x128, .f32⟩ : BufTy).Contents (Elt F) → (⟨S1x128, .f32⟩ : BufTy).Contents (Elt F)) ]

/-- The operations of printed part 2 of main. -/
abbrev part2 : List (HloOp τ sig (Elt F)) :=
  [ StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v105 main_v106 (addf : (⟨S100000x128, .f32⟩ : BufTy).Contents (Elt F) → (⟨S100000x128, .f32⟩ : BufTy).Contents (Elt F) → (⟨S100000x128, .f32⟩ : BufTy).Contents (Elt F)),
    StableHlo.unary main_arg7 main_v107 ((extractStridedSlice S1x128 ![2, 0] · slices_S4x128_S1x128_2_0) : (⟨S4x128, .f32⟩ : BufTy).Contents (Elt F) → (⟨S1x128, .f32⟩ : BufTy).Contents (Elt F)),
    StableHlo.reshape main_v107 main_v108 rfl shapeCasts_S1x128_S128,
    StableHlo.unary main_arg8 main_v109 ((extractStridedSlice S1x128 ![2, 0] · slices_S4x128_S1x128_2_0) : (⟨S4x128, .f32⟩ : BufTy).Contents (Elt F) → (⟨S1x128, .f32⟩ : BufTy).Contents (Elt F)),
    StableHlo.reshape main_v109 main_v110 rfl shapeCasts_S1x128_S128,
    StableHlo.nullary main_cst_15 (constant S_ .f32 0x00000000#32),
    StableHlo.binary main_v106 main_cst_15 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v106 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v106 : StableHlo.TRef sig ⟨S100000x128, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v116 main_v117 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v118 (broadcastInDim S128 ![] bcast_S_S128 : (⟨S_, .f32⟩ : BufTy).Contents (Elt F) → (⟨S128, .f32⟩ : BufTy).Contents (Elt F)),
    StableHlo.binary main_v114 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v122 main_v123 (mulf : (⟨S100000x128, .f32⟩ : BufTy).Contents (Elt F) → (⟨S100000x128, .f32⟩ : BufTy).Contents (Elt F) → (⟨S100000x128, .f32⟩ : BufTy).Contents (Elt F)),
    StableHlo.unary main_v108 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v125 main_v126 (mulf : (⟨S100000x128, .f32⟩ : BufTy).Contents (Elt F) → (⟨S100000x128, .f32⟩ : BufTy).Contents (Elt F) → (⟨S100000x128, .f32⟩ : BufTy).Contents (Elt F)),
    StableHlo.unary main_v110 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v129 : StableHlo.TRef sig ⟨S100000x128, .f32⟩) main_call5.v0 main_call5.v1 maximumf,
    StableHlo.nullary main_c_19 (constantI S_ 32 0#32),
    StableHlo.unary main_c_19 main_v131 (broadcastInDim S1600000 ![] bcast_S_S1600000 : (⟨S_, .i32⟩ : BufTy).Contents (Elt F) → (⟨S1600000, .i32⟩ : BufTy).Contents (Elt F)),
    StableHlo.binary main_v1 main_v131 main_v132 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v133 (broadcastInDim S1600000 ![] bcast_S_S1600000 : (⟨S_, .i32⟩ : BufTy).Contents (Elt F) → (⟨S1600000, .i32⟩ : BufTy).Contents (Elt F)),
    StableHlo.binary main_v1 main_v133 main_v134 (addi : (⟨S1600000, .i32⟩ : BufTy).Contents (Elt F) → (⟨S1600000, .i32⟩ : BufTy).Contents (Elt F) → (⟨S1600000, .i32⟩ : BufTy).Contents (Elt F)),
    StableHlo.ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v135 main_v136 (broadcastInDim S1600000x1 ![0] bcast_S1600000_S1600000x1_0 : (⟨S1600000, .i32⟩ : BufTy).Contents (Elt F) → (⟨S1600000x1, .i32⟩ : BufTy).Contents (Elt F)),
    StableHlo.binary main_v130 main_v136 main_v137 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v138 (broadcastInDim S100000x128 ![] bcast_S_S100000x128 : (⟨S_, .f32⟩ : BufTy).Contents (Elt F) → (⟨S100000x128, .f32⟩ : BufTy).Contents (Elt F)),
    StableHlo.unary main_v3 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v130 main_v140 main_v141 (addf : (⟨S100000x128, .f32⟩ : BufTy).Contents (Elt F) → (⟨S100000x128, .f32⟩ : BufTy).Contents (Elt F) → (⟨S100000x128, .f32⟩ : BufTy).Contents (Elt F)),
    StableHlo.unary main_arg5 main_v142 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v145 ((extractStridedSlice S1x128 ![3, 0] · slices_S4x128_S1x128_3_0) : (⟨S4x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v148 main_v149 (addf : (⟨S100000x128, .f32⟩ : BufTy).Contents (Elt F) → (⟨S100000x128, .f32⟩ : BufTy).Contents (Elt F) → (⟨S100000x128, .f32⟩ : BufTy).Contents (Elt F)),
    StableHlo.unary main_arg7 main_v150 ((extractStridedSlice S1x128 ![3, 0] · slices_S4x128_S1x128_3_0) : (⟨S4x128, .f32⟩ : BufTy).Contents (Elt F) → (⟨S1x128, .f32⟩ : BufTy).Contents (Elt F)),
    StableHlo.reshape main_v150 main_v151 rfl shapeCasts_S1x128_S128,
    StableHlo.unary main_arg8 main_v152 ((extractStridedSlice S1x128 ![3, 0] · slices_S4x128_S1x128_3_0) : (⟨S4x128, .f32⟩ : BufTy).Contents (Elt F) → (⟨S1x128, .f32⟩ : BufTy).Contents (Elt F)),
    StableHlo.reshape main_v152 main_v153 rfl shapeCasts_S1x128_S128,
    StableHlo.nullary main_cst_22 (constant S_ .f32 0x00000000#32),
    StableHlo.binary main_v149 main_cst_22 main_v154 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- The operations of printed part 3 of main. -/
abbrev part3 : List (HloOp τ sig (Elt F)) :=
  [ StableHlo.nullary main_cst_23 (constant S_ .f32 0x47C35000#32),
    StableHlo.unary main_cst_23 main_v155 (broadcastInDim S128 ![] bcast_S_S128 : (⟨S_, .f32⟩ : BufTy).Contents (Elt F) → (⟨S128, .f32⟩ : BufTy).Contents (Elt F)),
    StableHlo.binary main_v154 main_v155 main_v156 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v149 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v149 : StableHlo.TRef sig ⟨S100000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v156 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v159 main_v160 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v161 (broadcastInDim S128 ![] bcast_S_S128 : (⟨S_, .f32⟩ : BufTy).Contents (Elt F) → (⟨S128, .f32⟩ : BufTy).Contents (Elt F)),
    StableHlo.binary main_v157 main_v161 main_v162 (addf : (⟨S128, .f32⟩ : BufTy).Contents (Elt F) → (⟨S128, .f32⟩ : BufTy).Contents (Elt F) → (⟨S128, .f32⟩ : BufTy).Contents (Elt F)),
    StableHlo.unary main_v162 main_v163 (Host.rsqrt : (⟨S128, .f32⟩ : BufTy).Contents (Elt F) → (⟨S128, .f32⟩ : BufTy).Contents (Elt F)),
    StableHlo.unary main_v163 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v165 main_v166 (mulf : (⟨S100000x128, .f32⟩ : BufTy).Contents (Elt F) → (⟨S100000x128, .f32⟩ : BufTy).Contents (Elt F) → (⟨S100000x128, .f32⟩ : BufTy).Contents (Elt F)),
    StableHlo.unary main_v151 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v166 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_v153 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v171 main_v172 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v172 : StableHlo.TRef sig ⟨S100000x128, .f32⟩) main_call7.v0 main_call7.v1 maximumf,
    StableHlo.nullary main_cst_26 (constant S_ .f32 0x00000000#32),
    StableHlo.unary main_cst_26 main_v174 (broadcastInDim S100x128 ![] bcast_S_S100x128 : (⟨S_, .f32⟩ : BufTy).Contents (Elt F) → (⟨S100x128, .f32⟩ : BufTy).Contents (Elt F)),
    StableHlo.unary main_arg3 main_v175 (broadcastInDim S100000x1 ![0] bcast_S100000_S100000x1_0 : (⟨S100000, .i32⟩ : BufTy).Contents (Elt F) → (⟨S100000x1, .i32⟩ : BufTy).Contents (Elt F)),
    StableHlo.ternary main_v174 main_v175 main_v173 main_v176 ((fun x i u => Host.scatterAdd scatter_S100x128_S100000x1_S100000x128_1_0_0_1 x i u) : (⟨S100x128, .f32⟩ : BufTy).Contents (Elt F) → (⟨S100000x1, .i32⟩ : BufTy).Contents (Elt F) → (⟨S100000x128, .f32⟩ : BufTy).Contents (Elt F) → (⟨S100x128, .f32⟩ : BufTy).Contents (Elt F)),
    StableHlo.nullary main_cst_27 (constant S_ .f32 0x3F800000#32),
    StableHlo.unary main_cst_27 main_v177 (broadcastInDim S100000 ![] bcast_S_S100000 : (⟨S_, .f32⟩ : BufTy).Contents (Elt F) → (⟨S100000, .f32⟩ : BufTy).Contents (Elt F)),
    StableHlo.nullary main_cst_28 (constant S_ .f32 0x00000000#32),
    StableHlo.unary main_cst_28 main_v178 (broadcastInDim S100 ![] bcast_S_S100 : (⟨S_, .f32⟩ : BufTy).Contents (Elt F) → (⟨S100, .f32⟩ : BufTy).Contents (Elt F)),
    StableHlo.unary main_arg3 main_v179 (broadcastInDim S100000x1 ![0] bcast_S100000_S100000x1_0 : (⟨S100000, .i32⟩ : BufTy).Contents (Elt F) → (⟨S100000x1, .i32⟩ : BufTy).Contents (Elt F)),
    StableHlo.ternary main_v178 main_v179 main_v177 main_v180 ((fun x i u => Host.scatterAdd scatter_S100_S100000x1_S100000_n_0_0_1 x i u) : (⟨S100, .f32⟩ : BufTy).Contents (Elt F) → (⟨S100000x1, .i32⟩ : BufTy).Contents (Elt F) → (⟨S100000, .f32⟩ : BufTy).Contents (Elt F) → (⟨S100, .f32⟩ : BufTy).Contents (Elt F)),
    StableHlo.nullary main_cst_29 (constant S_ .f32 0x3F800000#32),
    StableHlo.unary main_cst_29 main_v181 (broadcastInDim S100 ![] bcast_S_S100 : (⟨S_, .f32⟩ : BufTy).Contents (Elt F) → (⟨S100, .f32⟩ : BufTy).Contents (Elt F)),
    StableHlo.binary main_v180 main_v181 main_v182 (maximumf : (⟨S100, .f32⟩ : BufTy).Contents (Elt F) → (⟨S100, .f32⟩ : BufTy).Contents (Elt F) → (⟨S100, .f32⟩ : BufTy).Contents (Elt F)),
    StableHlo.unary main_v182 main_v183 (broadcastInDim S100x1 ![0] bcast_S100_S100x1_0 : (⟨S100, .f32⟩ : BufTy).Contents (Elt F) → (⟨S100x1, .f32⟩ : BufTy).Contents (Elt F)),
    StableHlo.unary main_v183 main_v184 (broadcastInDim S100x128 ![0, 1] bcast_S100x1_S100x128_0_1 : (⟨S100x1, .f32⟩ : BufTy).Contents (Elt F) → (⟨S100x128, .f32⟩ : BufTy).Contents (Elt F)),
    StableHlo.binary main_v176 main_v184 main_v185 (Host.divf : (⟨S100x128, .f32⟩ : BufTy).Contents (Elt F) → (⟨S100x128, .f32⟩ : BufTy).Contents (Elt F) → (⟨S100x128, .f32⟩ : BufTy).Contents (Elt F)),
    StableHlo.binary main_v185 main_arg9 main_v186 ((fun l r => Host.dotGeneral dot_S100x128_S128x128_S100x128_1_0_0_1_n_n none l r) : (⟨S100x128, .f32⟩ : BufTy).Contents (Elt F) → (⟨S128x128, .f32⟩ : BufTy).Contents (Elt F) → (⟨S100x128, .f32⟩ : BufTy).Contents (Elt F)),
    StableHlo.unary main_arg10 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100x128 ![0, 1] bcast_S1x128_S100x128_0_1 : (⟨S1x128, .f32⟩ : BufTy).Contents (Elt F) → (⟨S100x128, .f32⟩ : BufTy).Contents (Elt F)),
    StableHlo.binary main_v186 main_v188 main_v189 (addf : (⟨S100x128, .f32⟩ : BufTy).Contents (Elt F) → (⟨S100x128, .f32⟩ : BufTy).Contents (Elt F) → (⟨S100x128, .f32⟩ : BufTy).Contents (Elt F)),
    StableHlo.TRef.nullary main_call8.cst (constant S_ .f32 0x00000000#32),
    StableHlo.TRef.unary main_call8.cst main_call8.v0 (broadcastInDim S100x128 ![] bcast_S_S100x128),
    StableHlo.TRef.binary (.of main_v189 : StableHlo.TRef sig ⟨S100x128, .f32⟩) main_call8.v0 main_call8.v1 (cmpf .ogt),
    StableHlo.TRef.nullary main_call8.cst_0 (constant S_ .f32 0x00000000#32),
    StableHlo.TRef.unary main_call8.cst_0 main_call8.v2 (broadcastInDim S100x128 ![] bcast_S_S100x128),
    StableHlo.TRef.binary (.of main_v189 : StableHlo.TRef sig ⟨S100x128, .f32⟩) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S100x128 ![] bcast_S_S100x128),
    StableHlo.TRef.ternary main_call8.v3 main_call8.call0.v1 (.of main_v189 : StableHlo.TRef sig ⟨S100x128, .f32⟩) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S100x128 ![] bcast_S_S100x128),
    StableHlo.TRef.binary main_call8.v6 main_call8.v5 main_call8.v7 mulf,
    StableHlo.TRef.ternary main_call8.v1 (.of main_v189 : StableHlo.TRef sig ⟨S100x128, .f32⟩) main_call8.v7 main_call8.call1.v0 select,
    StableHlo.binary main_v190 main_arg11 main_v191 ((fun l r => Host.dotGeneral dot_S100x128_S128x10_S100x10_1_0_0_1_n_n none l r) : (⟨S100x128, .f32⟩ : BufTy).Contents (Elt F) → (⟨S128x10, .f32⟩ : BufTy).Contents (Elt F) → (⟨S100x10, .f32⟩ : BufTy).Contents (Elt F)),
    StableHlo.unary main_arg12 main_v192 (broadcastInDim S1x10 ![1] bcast_S10_S1x10_1 : (⟨S10, .f32⟩ : BufTy).Contents (Elt F) → (⟨S1x10, .f32⟩ : BufTy).Contents (Elt F)),
    StableHlo.unary main_v192 main_v193 (broadcastInDim S100x10 ![0, 1] bcast_S1x10_S100x10_0_1 : (⟨S1x10, .f32⟩ : BufTy).Contents (Elt F) → (⟨S100x10, .f32⟩ : BufTy).Contents (Elt F)),
    StableHlo.binary main_v191 main_v193 main_v194 (addf : (⟨S100x10, .f32⟩ : BufTy).Contents (Elt F) → (⟨S100x10, .f32⟩ : BufTy).Contents (Elt F) → (⟨S100x10, .f32⟩ : BufTy).Contents (Elt F)),
    StableHlo.TRef.nullary main_call9.cst (constant S_ .f32 0xFF800000#32),
    StableHlo.TRef.binary (.of main_v194 : StableHlo.TRef sig ⟨S100x10, .f32⟩) main_call9.cst main_call9.v0 (fun x v => Host.reduce FloatOps.maximumf x v reducesTo_S100x10_S10_d0 h_S_),
    StableHlo.TRef.nullary main_call9.cst_0 (constant S_ .f32 0xFF800000#32),
    StableHlo.TRef.unary main_call9.cst_0 main_call9.v1 (broadcastInDim S10 ![] bcast_S_S10),
    StableHlo.TRef.binary main_call9.v1 main_call9.v0 main_call9.v2 maximumf,
    StableHlo.TRef.unary main_call9.v2 main_call9.v3 (broadcastInDim S1x10 ![1] bcast_S10_S1x10_1),
    StableHlo.TRef.unary main_call9.v3 main_call9.v4 (broadcastInDim S100x10 ![0, 1] bcast_S1x10_S100x10_0_1),
    StableHlo.TRef.binary (.of main_v194 : StableHlo.TRef sig ⟨S100x10, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S100x10_S10_d0 h_S_),
    StableHlo.TRef.unary main_call9.v7 main_call9.v8 (broadcastInDim S1x10 ![1] bcast_S10_S1x10_1),
    StableHlo.TRef.unary main_call9.v8 main_call9.v9 Host.log,
    StableHlo.TRef.unary main_call9.v9 main_call9.v10 (broadcastInDim S100x10 ![0, 1] bcast_S1x10_S100x10_0_1),
    StableHlo.TRef.binary main_call9.v5 main_call9.v10 main_call9.v11 subf ]

/-- The two rows of the edge list. -/
abbrev edgeOps : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Layer 0. -/
abbrev layerOps0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg4 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v16 ((extractStridedSlice S1x128 ![0, 0] · slices_S4x128_S1x128_0_0) : (⟨S4x128, .f32⟩ : BufTy).Contents (Elt F) → (⟨S1x128, .f32⟩ : BufTy).Contents (Elt F)),
    StableHlo.reshape main_v16 main_v17 rfl shapeCasts_S1x128_S128,
    StableHlo.unary main_v17 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v19 main_v20 (addf : (⟨S100000x128, .f32⟩ : BufTy).Contents (Elt F) → (⟨S100000x128, .f32⟩ : BufTy).Contents (Elt F) → (⟨S100000x128, .f32⟩ : BufTy).Contents (Elt F)),
    StableHlo.unary main_arg7 main_v21 ((extractStridedSlice S1x128 ![0, 0] · slices_S4x128_S1x128_0_0) : (⟨S4x128, .f32⟩ : BufTy).Contents (Elt F) → (⟨S1x128, .f32⟩ : BufTy).Contents (Elt F)),
    StableHlo.reshape main_v21 main_v22 rfl shapeCasts_S1x128_S128,
    StableHlo.unary main_arg8 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.nullary main_cst_1 (constant S_ .f32 0x00000000#32),
    StableHlo.binary main_v20 main_cst_1 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v20 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v20 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_v22 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_v24 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v43 : StableHlo.TRef sig ⟨S100000x128, .f32⟩) main_call1.v0 main_call1.v1 maximumf ]

/-- Layer 1. -/
abbrev layerOps1 : List (HloOp τ sig (Elt F)) :=
  [ StableHlo.nullary main_c_5 (constantI S_ 32 0#32),
    StableHlo.unary main_c_5 main_v45 (broadcastInDim S1600000 ![] bcast_S_S1600000 : (⟨S_, .i32⟩ : BufTy).Contents (Elt F) → (⟨S1600000, .i32⟩ : BufTy).Contents (Elt F)),
    StableHlo.binary main_v1 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v47 (broadcastInDim S1600000 ![] bcast_S_S1600000 : (⟨S_, .i32⟩ : BufTy).Contents (Elt F) → (⟨S1600000, .i32⟩ : BufTy).Contents (Elt F)),
    StableHlo.binary main_v1 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v52 (broadcastInDim S100000x128 ![] bcast_S_S100000x128 : (⟨S_, .f32⟩ : BufTy).Contents (Elt F) → (⟨S100000x128, .f32⟩ : BufTy).Contents (Elt F)),
    StableHlo.unary main_v3 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v44 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg5 main_v56 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v59 ((extractStridedSlice S1x128 ![1, 0] · slices_S4x128_S1x128_1_0) : (⟨S4x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.unary main_arg7 main_v64 ((extractStridedSlice S1x128 ![1, 0] · slices_S4x128_S1x128_1_0) : (⟨S4x128, .f32⟩ : BufTy).Contents (Elt F) → (⟨S1x128, .f32⟩ : BufTy).Contents (Elt F)),
    StableHlo.reshape main_v64 main_v65 rfl shapeCasts_S1x128_S128,
    StableHlo.unary main_arg8 main_v66 ((extractStridedSlice S1x128 ![1, 0] · slices_S4x128_S1x128_1_0) : (⟨S4x128, .f32⟩ : BufTy).Contents (Elt F) → (⟨S1x128, .f32⟩ : BufTy).Contents (Elt F)),
    StableHlo.reshape main_v66 main_v67 rfl shapeCasts_S1x128_S128,
    StableHlo.nullary main_cst_8 (constant S_ .f32 0x00000000#32),
    StableHlo.binary main_v63 main_cst_8 main_v68 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v63 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v63 : StableHlo.TRef sig ⟨S100000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v73 main_v74 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v75 (broadcastInDim S128 ![] bcast_S_S128 : (⟨S_, .f32⟩ : BufTy).Contents (Elt F) → (⟨S128, .f32⟩ : BufTy).Contents (Elt F)),
    StableHlo.binary main_v71 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_v65 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (mulf : (⟨S100000x128, .f32⟩ : BufTy).Contents (Elt F) → (⟨S100000x128, .f32⟩ : BufTy).Contents (Elt F) → (⟨S100000x128, .f32⟩ : BufTy).Contents (Elt F)),
    StableHlo.unary main_v67 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v86 : StableHlo.TRef sig ⟨S100000x128, .f32⟩) main_call3.v0 main_call3.v1 maximumf ]

/-- Layer 2. -/
abbrev layerOps2 : List (HloOp τ sig (Elt F)) :=
  [ StableHlo.nullary main_c_12 (constantI S_ 32 0#32),
    StableHlo.unary main_c_12 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v87 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v87 main_v97 main_v98 (addf : (⟨S100000x128, .f32⟩ : BufTy).Contents (Elt F) → (⟨S100000x128, .f32⟩ : BufTy).Contents (Elt F) → (⟨S100000x128, .f32⟩ : BufTy).Contents (Elt F)),
    StableHlo.unary main_arg5 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v102 ((extractStridedSlice S1x128 ![2, 0] · slices_S4x128_S1x128_2_0) : (⟨S4x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v105 main_v106 (addf : (⟨S100000x128, .f32⟩ : BufTy).Contents (Elt F) → (⟨S100000x128, .f32⟩ : BufTy).Contents (Elt F) → (⟨S100000x128, .f32⟩ : BufTy).Contents (Elt F)),
    StableHlo.unary main_arg7 main_v107 ((extractStridedSlice S1x128 ![2, 0] · slices_S4x128_S1x128_2_0) : (⟨S4x128, .f32⟩ : BufTy).Contents (Elt F) → (⟨S1x128, .f32⟩ : BufTy).Contents (Elt F)),
    StableHlo.reshape main_v107 main_v108 rfl shapeCasts_S1x128_S128,
    StableHlo.unary main_arg8 main_v109 ((extractStridedSlice S1x128 ![2, 0] · slices_S4x128_S1x128_2_0) : (⟨S4x128, .f32⟩ : BufTy).Contents (Elt F) → (⟨S1x128, .f32⟩ : BufTy).Contents (Elt F)),
    StableHlo.reshape main_v109 main_v110 rfl shapeCasts_S1x128_S128,
    StableHlo.nullary main_cst_15 (constant S_ .f32 0x00000000#32),
    StableHlo.binary main_v106 main_cst_15 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v106 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v106 : StableHlo.TRef sig ⟨S100000x128, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v116 main_v117 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v118 (broadcastInDim S128 ![] bcast_S_S128 : (⟨S_, .f32⟩ : BufTy).Contents (Elt F) → (⟨S128, .f32⟩ : BufTy).Contents (Elt F)),
    StableHlo.binary main_v114 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v122 main_v123 (mulf : (⟨S100000x128, .f32⟩ : BufTy).Contents (Elt F) → (⟨S100000x128, .f32⟩ : BufTy).Contents (Elt F) → (⟨S100000x128, .f32⟩ : BufTy).Contents (Elt F)),
    StableHlo.unary main_v108 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v125 main_v126 (mulf : (⟨S100000x128, .f32⟩ : BufTy).Contents (Elt F) → (⟨S100000x128, .f32⟩ : BufTy).Contents (Elt F) → (⟨S100000x128, .f32⟩ : BufTy).Contents (Elt F)),
    StableHlo.unary main_v110 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v128 main_v129 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v129 : StableHlo.TRef sig ⟨S100000x128, .f32⟩) main_call5.v0 main_call5.v1 maximumf ]

/-- Layer 3. -/
abbrev layerOps3 : List (HloOp τ sig (Elt F)) :=
  [ StableHlo.nullary main_c_19 (constantI S_ 32 0#32),
    StableHlo.unary main_c_19 main_v131 (broadcastInDim S1600000 ![] bcast_S_S1600000 : (⟨S_, .i32⟩ : BufTy).Contents (Elt F) → (⟨S1600000, .i32⟩ : BufTy).Contents (Elt F)),
    StableHlo.binary main_v1 main_v131 main_v132 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v133 (broadcastInDim S1600000 ![] bcast_S_S1600000 : (⟨S_, .i32⟩ : BufTy).Contents (Elt F) → (⟨S1600000, .i32⟩ : BufTy).Contents (Elt F)),
    StableHlo.binary main_v1 main_v133 main_v134 (addi : (⟨S1600000, .i32⟩ : BufTy).Contents (Elt F) → (⟨S1600000, .i32⟩ : BufTy).Contents (Elt F) → (⟨S1600000, .i32⟩ : BufTy).Contents (Elt F)),
    StableHlo.ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v135 main_v136 (broadcastInDim S1600000x1 ![0] bcast_S1600000_S1600000x1_0 : (⟨S1600000, .i32⟩ : BufTy).Contents (Elt F) → (⟨S1600000x1, .i32⟩ : BufTy).Contents (Elt F)),
    StableHlo.binary main_v130 main_v136 main_v137 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v138 (broadcastInDim S100000x128 ![] bcast_S_S100000x128 : (⟨S_, .f32⟩ : BufTy).Contents (Elt F) → (⟨S100000x128, .f32⟩ : BufTy).Contents (Elt F)),
    StableHlo.unary main_v3 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v130 main_v140 main_v141 (addf : (⟨S100000x128, .f32⟩ : BufTy).Contents (Elt F) → (⟨S100000x128, .f32⟩ : BufTy).Contents (Elt F) → (⟨S100000x128, .f32⟩ : BufTy).Contents (Elt F)),
    StableHlo.unary main_arg5 main_v142 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v145 ((extractStridedSlice S1x128 ![3, 0] · slices_S4x128_S1x128_3_0) : (⟨S4x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v148 main_v149 (addf : (⟨S100000x128, .f32⟩ : BufTy).Contents (Elt F) → (⟨S100000x128, .f32⟩ : BufTy).Contents (Elt F) → (⟨S100000x128, .f32⟩ : BufTy).Contents (Elt F)),
    StableHlo.unary main_arg7 main_v150 ((extractStridedSlice S1x128 ![3, 0] · slices_S4x128_S1x128_3_0) : (⟨S4x128, .f32⟩ : BufTy).Contents (Elt F) → (⟨S1x128, .f32⟩ : BufTy).Contents (Elt F)),
    StableHlo.reshape main_v150 main_v151 rfl shapeCasts_S1x128_S128,
    StableHlo.unary main_arg8 main_v152 ((extractStridedSlice S1x128 ![3, 0] · slices_S4x128_S1x128_3_0) : (⟨S4x128, .f32⟩ : BufTy).Contents (Elt F) → (⟨S1x128, .f32⟩ : BufTy).Contents (Elt F)),
    StableHlo.reshape main_v152 main_v153 rfl shapeCasts_S1x128_S128,
    StableHlo.nullary main_cst_22 (constant S_ .f32 0x00000000#32),
    StableHlo.binary main_v149 main_cst_22 main_v154 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v155 (broadcastInDim S128 ![] bcast_S_S128 : (⟨S_, .f32⟩ : BufTy).Contents (Elt F) → (⟨S128, .f32⟩ : BufTy).Contents (Elt F)),
    StableHlo.binary main_v154 main_v155 main_v156 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v149 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v149 : StableHlo.TRef sig ⟨S100000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v156 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v159 main_v160 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v161 (broadcastInDim S128 ![] bcast_S_S128 : (⟨S_, .f32⟩ : BufTy).Contents (Elt F) → (⟨S128, .f32⟩ : BufTy).Contents (Elt F)),
    StableHlo.binary main_v157 main_v161 main_v162 (addf : (⟨S128, .f32⟩ : BufTy).Contents (Elt F) → (⟨S128, .f32⟩ : BufTy).Contents (Elt F) → (⟨S128, .f32⟩ : BufTy).Contents (Elt F)),
    StableHlo.unary main_v162 main_v163 (Host.rsqrt : (⟨S128, .f32⟩ : BufTy).Contents (Elt F) → (⟨S128, .f32⟩ : BufTy).Contents (Elt F)),
    StableHlo.unary main_v163 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v165 main_v166 (mulf : (⟨S100000x128, .f32⟩ : BufTy).Contents (Elt F) → (⟨S100000x128, .f32⟩ : BufTy).Contents (Elt F) → (⟨S100000x128, .f32⟩ : BufTy).Contents (Elt F)),
    StableHlo.unary main_v151 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v166 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_v153 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v171 main_v172 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v172 : StableHlo.TRef sig ⟨S100000x128, .f32⟩) main_call7.v0 main_call7.v1 maximumf ]

/-- The mean pool over graphs. -/
abbrev poolOps : List (HloOp τ sig (Elt F)) :=
  [ StableHlo.nullary main_cst_26 (constant S_ .f32 0x00000000#32),
    StableHlo.unary main_cst_26 main_v174 (broadcastInDim S100x128 ![] bcast_S_S100x128 : (⟨S_, .f32⟩ : BufTy).Contents (Elt F) → (⟨S100x128, .f32⟩ : BufTy).Contents (Elt F)),
    StableHlo.unary main_arg3 main_v175 (broadcastInDim S100000x1 ![0] bcast_S100000_S100000x1_0 : (⟨S100000, .i32⟩ : BufTy).Contents (Elt F) → (⟨S100000x1, .i32⟩ : BufTy).Contents (Elt F)),
    StableHlo.ternary main_v174 main_v175 main_v173 main_v176 ((fun x i u => Host.scatterAdd scatter_S100x128_S100000x1_S100000x128_1_0_0_1 x i u) : (⟨S100x128, .f32⟩ : BufTy).Contents (Elt F) → (⟨S100000x1, .i32⟩ : BufTy).Contents (Elt F) → (⟨S100000x128, .f32⟩ : BufTy).Contents (Elt F) → (⟨S100x128, .f32⟩ : BufTy).Contents (Elt F)),
    StableHlo.nullary main_cst_27 (constant S_ .f32 0x3F800000#32),
    StableHlo.unary main_cst_27 main_v177 (broadcastInDim S100000 ![] bcast_S_S100000 : (⟨S_, .f32⟩ : BufTy).Contents (Elt F) → (⟨S100000, .f32⟩ : BufTy).Contents (Elt F)),
    StableHlo.nullary main_cst_28 (constant S_ .f32 0x00000000#32),
    StableHlo.unary main_cst_28 main_v178 (broadcastInDim S100 ![] bcast_S_S100 : (⟨S_, .f32⟩ : BufTy).Contents (Elt F) → (⟨S100, .f32⟩ : BufTy).Contents (Elt F)),
    StableHlo.unary main_arg3 main_v179 (broadcastInDim S100000x1 ![0] bcast_S100000_S100000x1_0 : (⟨S100000, .i32⟩ : BufTy).Contents (Elt F) → (⟨S100000x1, .i32⟩ : BufTy).Contents (Elt F)),
    StableHlo.ternary main_v178 main_v179 main_v177 main_v180 ((fun x i u => Host.scatterAdd scatter_S100_S100000x1_S100000_n_0_0_1 x i u) : (⟨S100, .f32⟩ : BufTy).Contents (Elt F) → (⟨S100000x1, .i32⟩ : BufTy).Contents (Elt F) → (⟨S100000, .f32⟩ : BufTy).Contents (Elt F) → (⟨S100, .f32⟩ : BufTy).Contents (Elt F)),
    StableHlo.nullary main_cst_29 (constant S_ .f32 0x3F800000#32),
    StableHlo.unary main_cst_29 main_v181 (broadcastInDim S100 ![] bcast_S_S100 : (⟨S_, .f32⟩ : BufTy).Contents (Elt F) → (⟨S100, .f32⟩ : BufTy).Contents (Elt F)),
    StableHlo.binary main_v180 main_v181 main_v182 (maximumf : (⟨S100, .f32⟩ : BufTy).Contents (Elt F) → (⟨S100, .f32⟩ : BufTy).Contents (Elt F) → (⟨S100, .f32⟩ : BufTy).Contents (Elt F)),
    StableHlo.unary main_v182 main_v183 (broadcastInDim S100x1 ![0] bcast_S100_S100x1_0 : (⟨S100, .f32⟩ : BufTy).Contents (Elt F) → (⟨S100x1, .f32⟩ : BufTy).Contents (Elt F)),
    StableHlo.unary main_v183 main_v184 (broadcastInDim S100x128 ![0, 1] bcast_S100x1_S100x128_0_1 : (⟨S100x1, .f32⟩ : BufTy).Contents (Elt F) → (⟨S100x128, .f32⟩ : BufTy).Contents (Elt F)),
    StableHlo.binary main_v176 main_v184 main_v185 (Host.divf : (⟨S100x128, .f32⟩ : BufTy).Contents (Elt F) → (⟨S100x128, .f32⟩ : BufTy).Contents (Elt F) → (⟨S100x128, .f32⟩ : BufTy).Contents (Elt F)) ]

/-- The head. -/
abbrev headOps : List (HloOp τ sig (Elt F)) :=
  [ StableHlo.binary main_v185 main_arg9 main_v186 ((fun l r => Host.dotGeneral dot_S100x128_S128x128_S100x128_1_0_0_1_n_n none l r) : (⟨S100x128, .f32⟩ : BufTy).Contents (Elt F) → (⟨S128x128, .f32⟩ : BufTy).Contents (Elt F) → (⟨S100x128, .f32⟩ : BufTy).Contents (Elt F)),
    StableHlo.unary main_arg10 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100x128 ![0, 1] bcast_S1x128_S100x128_0_1 : (⟨S1x128, .f32⟩ : BufTy).Contents (Elt F) → (⟨S100x128, .f32⟩ : BufTy).Contents (Elt F)),
    StableHlo.binary main_v186 main_v188 main_v189 (addf : (⟨S100x128, .f32⟩ : BufTy).Contents (Elt F) → (⟨S100x128, .f32⟩ : BufTy).Contents (Elt F) → (⟨S100x128, .f32⟩ : BufTy).Contents (Elt F)),
    StableHlo.TRef.nullary main_call8.cst (constant S_ .f32 0x00000000#32),
    StableHlo.TRef.unary main_call8.cst main_call8.v0 (broadcastInDim S100x128 ![] bcast_S_S100x128),
    StableHlo.TRef.binary (.of main_v189 : StableHlo.TRef sig ⟨S100x128, .f32⟩) main_call8.v0 main_call8.v1 (cmpf .ogt),
    StableHlo.TRef.nullary main_call8.cst_0 (constant S_ .f32 0x00000000#32),
    StableHlo.TRef.unary main_call8.cst_0 main_call8.v2 (broadcastInDim S100x128 ![] bcast_S_S100x128),
    StableHlo.TRef.binary (.of main_v189 : StableHlo.TRef sig ⟨S100x128, .f32⟩) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S100x128 ![] bcast_S_S100x128),
    StableHlo.TRef.ternary main_call8.v3 main_call8.call0.v1 (.of main_v189 : StableHlo.TRef sig ⟨S100x128, .f32⟩) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S100x128 ![] bcast_S_S100x128),
    StableHlo.TRef.binary main_call8.v6 main_call8.v5 main_call8.v7 mulf,
    StableHlo.TRef.ternary main_call8.v1 (.of main_v189 : StableHlo.TRef sig ⟨S100x128, .f32⟩) main_call8.v7 main_call8.call1.v0 select,
    StableHlo.binary main_v190 main_arg11 main_v191 ((fun l r => Host.dotGeneral dot_S100x128_S128x10_S100x10_1_0_0_1_n_n none l r) : (⟨S100x128, .f32⟩ : BufTy).Contents (Elt F) → (⟨S128x10, .f32⟩ : BufTy).Contents (Elt F) → (⟨S100x10, .f32⟩ : BufTy).Contents (Elt F)),
    StableHlo.unary main_arg12 main_v192 (broadcastInDim S1x10 ![1] bcast_S10_S1x10_1 : (⟨S10, .f32⟩ : BufTy).Contents (Elt F) → (⟨S1x10, .f32⟩ : BufTy).Contents (Elt F)),
    StableHlo.unary main_v192 main_v193 (broadcastInDim S100x10 ![0, 1] bcast_S1x10_S100x10_0_1 : (⟨S1x10, .f32⟩ : BufTy).Contents (Elt F) → (⟨S100x10, .f32⟩ : BufTy).Contents (Elt F)),
    StableHlo.binary main_v191 main_v193 main_v194 (addf : (⟨S100x10, .f32⟩ : BufTy).Contents (Elt F) → (⟨S100x10, .f32⟩ : BufTy).Contents (Elt F) → (⟨S100x10, .f32⟩ : BufTy).Contents (Elt F)),
    StableHlo.TRef.nullary main_call9.cst (constant S_ .f32 0xFF800000#32),
    StableHlo.TRef.binary (.of main_v194 : StableHlo.TRef sig ⟨S100x10, .f32⟩) main_call9.cst main_call9.v0 (fun x v => Host.reduce FloatOps.maximumf x v reducesTo_S100x10_S10_d0 h_S_),
    StableHlo.TRef.nullary main_call9.cst_0 (constant S_ .f32 0xFF800000#32),
    StableHlo.TRef.unary main_call9.cst_0 main_call9.v1 (broadcastInDim S10 ![] bcast_S_S10),
    StableHlo.TRef.binary main_call9.v1 main_call9.v0 main_call9.v2 maximumf,
    StableHlo.TRef.unary main_call9.v2 main_call9.v3 (broadcastInDim S1x10 ![1] bcast_S10_S1x10_1),
    StableHlo.TRef.unary main_call9.v3 main_call9.v4 (broadcastInDim S100x10 ![0, 1] bcast_S1x10_S100x10_0_1),
    StableHlo.TRef.binary (.of main_v194 : StableHlo.TRef sig ⟨S100x10, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S100x10_S10_d0 h_S_),
    StableHlo.TRef.unary main_call9.v7 main_call9.v8 (broadcastInDim S1x10 ![1] bcast_S10_S1x10_1),
    StableHlo.TRef.unary main_call9.v8 main_call9.v9 Host.log,
    StableHlo.TRef.unary main_call9.v9 main_call9.v10 (broadcastInDim S100x10 ![0, 1] bcast_S1x10_S100x10_0_1),
    StableHlo.TRef.binary main_call9.v5 main_call9.v10 main_call9.v11 subf ]

end Cert.ReferenceIdeal.Hand

end
-- ==== Proof.RefRun.lean ====
/-
  The reference program's run, read back.

  Its main function is a straight line of 348 whole-array host operations (the outlined functions unfolded at their
  calls). The line is cut into seven stretches: the two rows of the edge list, four graph-convolution layers, the mean
  pool over graphs, and the head. Each stretch leaves in one buffer the stage of the network named for it, as a
  function of what the buffers it reads held when it was entered; no stretch writes an argument, and the layers do not
  write the edge rows. Composed, the result buffer holds the network of the arguments, and the arguments are unchanged.
-/
import Idealize.ShloMosaic.PureOps.Ideal
import Idealize.ShloMosaic.Lib.StableHlo.Run
import proofs.«177976_j84851373900196_1_alg».proof.Proof.Gen.ReferenceIdeal
import proofs.«177976_j84851373900196_1_alg».proof.Proof.Spec
import proofs.«177976_j84851373900196_1_alg».proof.Proof.RefOps

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The program as one line of operations

Each printed part of main is the line of its operations once the outlined functions' definitions are unfolded at
their calls and sequencing is reassociated; the four parts in order are the same 348 operations cut at the edge
rows, the four layers, the pooling and the head. -/

set_option maxRecDepth 16384 in
theorem part0_eq (d : Dev nD) : main_part0 (F := F) d = seq part0 := by
  simp only [main_part0, fn_var.body, fn_where.body, fn_relu.body, part0, seq, bind_assoc, pure_bind]
  rfl

set_option maxRecDepth 16384 in
theorem part1_eq (d : Dev nD) : main_part1 (F := F) d = seq part1 := by
  simp only [main_part1, fn_var.body, fn_where.body, fn_relu.body, part1, seq, bind_assoc, pure_bind]
  rfl

set_option maxRecDepth 16384 in
theorem part2_eq (d : Dev nD) : main_part2 (F := F) d = seq part2 := by
  simp only [main_part2, fn_var.body, fn_where.body, fn_relu.body, part2, seq, bind_assoc, pure_bind]
  rfl

set_option maxRecDepth 16384 in
theorem part3_eq (d : Dev nD) : main_part3 (F := F) d = seq part3 := by
  simp only [main_part3, fn_var.body, fn_where.body, fn_relu.body, fn_elu.body, fn_where_0.body, fn_where_1.body,
    fn_log_softmax.body, part3, seq, bind_assoc, pure_bind]

/-- All 348 operations, cut where the mathematics cuts them. -/
abbrev allOps : List (HloOp τ sig (Elt F)) :=
  edgeOps ++ layerOps0 ++ layerOps1 ++ layerOps2 ++ layerOps3 ++ poolOps ++ headOps

set_option maxRecDepth 16384 in
/-- The two cuts list the same operations in the same order. -/
theorem cut_eq : (part0 ++ part1 ++ part2 ++ part3 : List (HloOp τ sig (Elt F))) = allOps := rfl

theorem main_eq (d : Dev nD) : main (F := F) d = seq (allOps (F := F)) := by
  rw [← cut_eq, seq_append, seq_append, seq_append, ← part0_eq d, ← part1_eq d, ← part2_eq d, ← part3_eq d]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results -/

theorem edgeOps_sub : (edgeOps : List (HloOp τ sig (Elt F))).Forall fun op => op.bufs ⊆ tcRefs τ sig :=
  ⟨unary_bufs_sub .., reshape_bufs_sub .., unary_bufs_sub .., reshape_bufs_sub ..⟩

theorem edgeOps_fresh : (edgeOps : List (HloOp τ sig (Elt F))).Forall fun op => op.fresh = ∅ :=
  ⟨rfl, rfl, rfl, rfl⟩

theorem layerOps0_sub : (layerOps0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem layerOps0_fresh : (layerOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

theorem layerOps1_sub : (layerOps1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem layerOps1_fresh : (layerOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem layerOps2_sub : (layerOps2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem layerOps2_fresh : (layerOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem layerOps3_sub : (layerOps3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem layerOps3_fresh : (layerOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem poolOps_sub : (poolOps : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

theorem poolOps_fresh : (poolOps : List (HloOp τ sig (Elt F))).Forall fun op => op.fresh = ∅ :=
  ⟨rfl, rfl, rfl, rfl, rfl, rfl, rfl, rfl, rfl, rfl, rfl, rfl, rfl, rfl, rfl, rfl⟩

theorem headOps_sub : (headOps : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

theorem headOps_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem allOps_sub : (allOps : List (HloOp τ sig (Elt F))).Forall fun op => op.bufs ⊆ tcRefs τ sig :=
  forall_append (forall_append (forall_append (forall_append (forall_append (forall_append edgeOps_sub layerOps0_sub) layerOps1_sub)
    layerOps2_sub) layerOps3_sub) poolOps_sub) headOps_sub

theorem allOps_fresh : ∀ op ∈ (allOps : List (HloOp τ sig (Elt F))), op.fresh = ∅ :=
  List.forall_iff_forall_mem.mp
    (forall_append (forall_append (forall_append (forall_append (forall_append (forall_append edgeOps_fresh layerOps0_fresh) layerOps1_fresh)
      layerOps2_fresh) layerOps3_fresh) poolOps_fresh) headOps_fresh)

/-- From any memory with zero counters every weakly fair execution of main on the TensorCores terminates, and every
    final state has each TensorCore buffer at the fold of the 348 operations' results over its launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after (allOps (F := F)) (launchContents m c) (b : DevRef τ sig) :=
  run_seq scopedRefs_eq scopedSems_eq defs main (fun _ => allOps) main_eq (fun _ => allOps_sub) m ρ (fun _ => allOps_fresh)

/-! ## The fold of two lines, and the buffers a line leaves alone -/

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one result buffer is in a list of references writes inside that list. -/
theorem writes_sub {W : List (Ref sig .tc)} {op : HloOp τ sig (Elt F)} (y : Ref sig .tc)
    (h : op.writes = {Proc.devRef .tc y}) (hy : y ∈ W) : op.writes ⊆ (W.map (Proc.devRef (τ := τ) .tc)).toFinset := by
  rw [h, Finset.singleton_subset_iff, List.mem_toFinset]
  exact List.mem_map_of_mem hy

/-- The result buffers of edgeOps, in order. -/
abbrev edgeW : List (Ref sig .tc) :=
  [main_v0, main_v1, main_v2, main_v3]

theorem edgeOps_writes : (edgeOps : List (HloOp τ sig (Elt F))).Forall fun op => op.writes ⊆ ((edgeW).map (Proc.devRef (τ := τ) .tc)).toFinset :=
  ⟨writes_sub main_v0 rfl (by decide), writes_sub main_v1 rfl (by decide), writes_sub main_v2 rfl (by decide),
    writes_sub main_v3 rfl (by decide)⟩

/-- A buffer edgeOps does not write keeps its contents. -/
theorem edgeOps_keep (V : Valuation τ sig (Elt F)) (r : Ref sig .tc) (hr : r ∉ edgeW) :
    after edgeOps V (r : DevRef τ sig) = V (r : DevRef τ sig) :=
  after_of_writes_sub edgeOps V edgeOps_writes hr

/-- The result buffers of layerOps0, in order. -/
abbrev layerW0 : List (Ref sig .tc) :=
  [main_c, main_v4, main_v5, main_c_0, main_v6, main_v7, main_v8, main_v9,
    main_v10, main_cst, main_v11, main_v12, main_v13, main_v14, main_v15, main_v16,
    main_v17, main_v18, main_v19, main_v20, main_v21, main_v22, main_v23, main_v24,
    main_cst_1, main_v25, main_cst_2, main_v26, main_v27, main_c_3, main_call0.cst.ref, main_call0.v0.ref,
    main_call0.v1.ref, main_call0.cst_0.ref, main_call0.v2.ref, main_call0.v3.ref, main_call0.v4.ref, main_call0.v5.ref, main_call0.v6.ref, main_call0.v7.ref,
    main_call0.cst_1.ref, main_call0.v8.ref, main_call0.cst_2.ref, main_call0.v9.ref, main_call0.v10.ref, main_call0.v11.ref, main_call0.cst_3.ref, main_call0.v12.ref,
    main_call0.cst_4.ref, main_call0.call0.v0.ref, main_call0.call0.v1.ref, main_call0.call0.v2.ref, main_v29, main_v30, main_v31, main_cst_4,
    main_v32, main_v33, main_v34, main_v35, main_v36, main_v37, main_v38, main_v39,
    main_v40, main_v41, main_v42, main_v43, main_call1.cst.ref, main_call1.v0.ref, main_call1.v1.ref]

theorem layerOps0_writes : (layerOps0 : List (HloOp τ sig (Elt F))).Forall fun op => op.writes ⊆ ((layerW0).map (Proc.devRef (τ := τ) .tc)).toFinset :=
  ⟨writes_sub main_c rfl (by decide), writes_sub main_v4 rfl (by decide), writes_sub main_v5 rfl (by decide),
    writes_sub main_c_0 rfl (by decide), writes_sub main_v6 rfl (by decide), writes_sub main_v7 rfl (by decide),
    writes_sub main_v8 rfl (by decide), writes_sub main_v9 rfl (by decide), writes_sub main_v10 rfl (by decide),
    writes_sub main_cst rfl (by decide), writes_sub main_v11 rfl (by decide), writes_sub main_v12 rfl (by decide),
    writes_sub main_v13 rfl (by decide), writes_sub main_v14 rfl (by decide), writes_sub main_v15 rfl (by decide),
    writes_sub main_v16 rfl (by decide), writes_sub main_v17 rfl (by decide), writes_sub main_v18 rfl (by decide),
    writes_sub main_v19 rfl (by decide), writes_sub main_v20 rfl (by decide), writes_sub main_v21 rfl (by decide),
    writes_sub main_v22 rfl (by decide), writes_sub main_v23 rfl (by decide), writes_sub main_v24 rfl (by decide),
    writes_sub main_cst_1 rfl (by decide), writes_sub main_v25 rfl (by decide), writes_sub main_cst_2 rfl (by decide),
    writes_sub main_v26 rfl (by decide), writes_sub main_v27 rfl (by decide), writes_sub main_c_3 rfl (by decide),
    writes_sub (main_call0.cst.ref) rfl (by decide), writes_sub (main_call0.v0.ref) rfl (by decide), writes_sub (main_call0.v1.ref) rfl (by decide),
    writes_sub (main_call0.cst_0.ref) rfl (by decide), writes_sub (main_call0.v2.ref) rfl (by decide), writes_sub (main_call0.v3.ref) rfl (by decide),
    writes_sub (main_call0.v4.ref) rfl (by decide), writes_sub (main_call0.v5.ref) rfl (by decide), writes_sub (main_call0.v6.ref) rfl (by decide),
    writes_sub (main_call0.v7.ref) rfl (by decide), writes_sub (main_call0.cst_1.ref) rfl (by decide), writes_sub (main_call0.v8.ref) rfl (by decide),
    writes_sub (main_call0.cst_2.ref) rfl (by decide), writes_sub (main_call0.v9.ref) rfl (by decide), writes_sub (main_call0.v10.ref) rfl (by decide),
    writes_sub (main_call0.v11.ref) rfl (by decide), writes_sub (main_call0.cst_3.ref) rfl (by decide), writes_sub (main_call0.v12.ref) rfl (by decide),
    writes_sub (main_call0.cst_4.ref) rfl (by decide), writes_sub (main_call0.call0.v0.ref) rfl (by decide), writes_sub (main_call0.call0.v1.ref) rfl (by decide),
    writes_sub (main_call0.call0.v2.ref) rfl (by decide), writes_sub main_v29 rfl (by decide), writes_sub main_v30 rfl (by decide),
    writes_sub main_v31 rfl (by decide), writes_sub main_cst_4 rfl (by decide), writes_sub main_v32 rfl (by decide),
    writes_sub main_v33 rfl (by decide), writes_sub main_v34 rfl (by decide), writes_sub main_v35 rfl (by decide),
    writes_sub main_v36 rfl (by decide), writes_sub main_v37 rfl (by decide), writes_sub main_v38 rfl (by decide),
    writes_sub main_v39 rfl (by decide), writes_sub main_v40 rfl (by decide), writes_sub main_v41 rfl (by decide),
    writes_sub main_v42 rfl (by decide), writes_sub main_v43 rfl (by decide), writes_sub (main_call1.cst.ref) rfl (by decide),
    writes_sub (main_call1.v0.ref) rfl (by decide), writes_sub (main_call1.v1.ref) rfl (by decide)⟩

/-- A buffer layerOps0 does not write keeps its contents. -/
theorem layerOps0_keep (V : Valuation τ sig (Elt F)) (r : Ref sig .tc) (hr : r ∉ layerW0) :
    after layerOps0 V (r : DevRef τ sig) = V (r : DevRef τ sig) :=
  after_of_writes_sub layerOps0 V layerOps0_writes hr

/-- The result buffers of layerOps1, in order. -/
abbrev layerW1 : List (Ref sig .tc) :=
  [main_c_5, main_v45, main_v46, main_c_6, main_v47, main_v48, main_v49, main_v50,
    main_v51, main_cst_7, main_v52, main_v53, main_v54, main_v55, main_v56, main_v57,
    main_v58, main_v59, main_v60, main_v61, main_v62, main_v63, main_v64, main_v65,
    main_v66, main_v67, main_cst_8, main_v68, main_cst_9, main_v69, main_v70, main_c_10,
    main_call2.cst.ref, main_call2.v0.ref, main_call2.v1.ref, main_call2.cst_0.ref, main_call2.v2.ref, main_call2.v3.ref, main_call2.v4.ref, main_call2.v5.ref,
    main_call2.v6.ref, main_call2.v7.ref, main_call2.cst_1.ref, main_call2.v8.ref, main_call2.cst_2.ref, main_call2.v9.ref, main_call2.v10.ref, main_call2.v11.ref,
    main_call2.cst_3.ref, main_call2.v12.ref, main_call2.cst_4.ref, main_call2.call0.v0.ref, main_call2.call0.v1.ref, main_call2.call0.v2.ref, main_v72, main_v73,
    main_v74, main_cst_11, main_v75, main_v76, main_v77, main_v78, main_v79, main_v80,
    main_v81, main_v82, main_v83, main_v84, main_v85, main_v86, main_call3.cst.ref, main_call3.v0.ref,
    main_call3.v1.ref]

theorem layerOps1_writes : (layerOps1 : List (HloOp τ sig (Elt F))).Forall fun op => op.writes ⊆ ((layerW1).map (Proc.devRef (τ := τ) .tc)).toFinset :=
  ⟨writes_sub main_c_5 rfl (by decide), writes_sub main_v45 rfl (by decide), writes_sub main_v46 rfl (by decide),
    writes_sub main_c_6 rfl (by decide), writes_sub main_v47 rfl (by decide), writes_sub main_v48 rfl (by decide),
    writes_sub main_v49 rfl (by decide), writes_sub main_v50 rfl (by decide), writes_sub main_v51 rfl (by decide),
    writes_sub main_cst_7 rfl (by decide), writes_sub main_v52 rfl (by decide), writes_sub main_v53 rfl (by decide),
    writes_sub main_v54 rfl (by decide), writes_sub main_v55 rfl (by decide), writes_sub main_v56 rfl (by decide),
    writes_sub main_v57 rfl (by decide), writes_sub main_v58 rfl (by decide), writes_sub main_v59 rfl (by decide),
    writes_sub main_v60 rfl (by decide), writes_sub main_v61 rfl (by decide), writes_sub main_v62 rfl (by decide),
    writes_sub main_v63 rfl (by decide), writes_sub main_v64 rfl (by decide), writes_sub main_v65 rfl (by decide),
    writes_sub main_v66 rfl (by decide), writes_sub main_v67 rfl (by decide), writes_sub main_cst_8 rfl (by decide),
    writes_sub main_v68 rfl (by decide), writes_sub main_cst_9 rfl (by decide), writes_sub main_v69 rfl (by decide),
    writes_sub main_v70 rfl (by decide), writes_sub main_c_10 rfl (by decide), writes_sub (main_call2.cst.ref) rfl (by decide),
    writes_sub (main_call2.v0.ref) rfl (by decide), writes_sub (main_call2.v1.ref) rfl (by decide), writes_sub (main_call2.cst_0.ref) rfl (by decide),
    writes_sub (main_call2.v2.ref) rfl (by decide), writes_sub (main_call2.v3.ref) rfl (by decide), writes_sub (main_call2.v4.ref) rfl (by decide),
    writes_sub (main_call2.v5.ref) rfl (by decide), writes_sub (main_call2.v6.ref) rfl (by decide), writes_sub (main_call2.v7.ref) rfl (by decide),
    writes_sub (main_call2.cst_1.ref) rfl (by decide), writes_sub (main_call2.v8.ref) rfl (by decide), writes_sub (main_call2.cst_2.ref) rfl (by decide),
    writes_sub (main_call2.v9.ref) rfl (by decide), writes_sub (main_call2.v10.ref) rfl (by decide), writes_sub (main_call2.v11.ref) rfl (by decide),
    writes_sub (main_call2.cst_3.ref) rfl (by decide), writes_sub (main_call2.v12.ref) rfl (by decide), writes_sub (main_call2.cst_4.ref) rfl (by decide),
    writes_sub (main_call2.call0.v0.ref) rfl (by decide), writes_sub (main_call2.call0.v1.ref) rfl (by decide), writes_sub (main_call2.call0.v2.ref) rfl (by decide),
    writes_sub main_v72 rfl (by decide), writes_sub main_v73 rfl (by decide), writes_sub main_v74 rfl (by decide),
    writes_sub main_cst_11 rfl (by decide), writes_sub main_v75 rfl (by decide), writes_sub main_v76 rfl (by decide),
    writes_sub main_v77 rfl (by decide), writes_sub main_v78 rfl (by decide), writes_sub main_v79 rfl (by decide),
    writes_sub main_v80 rfl (by decide), writes_sub main_v81 rfl (by decide), writes_sub main_v82 rfl (by decide),
    writes_sub main_v83 rfl (by decide), writes_sub main_v84 rfl (by decide), writes_sub main_v85 rfl (by decide),
    writes_sub main_v86 rfl (by decide), writes_sub (main_call3.cst.ref) rfl (by decide), writes_sub (main_call3.v0.ref) rfl (by decide),
    writes_sub (main_call3.v1.ref) rfl (by decide)⟩

/-- A buffer layerOps1 does not write keeps its contents. -/
theorem layerOps1_keep (V : Valuation τ sig (Elt F)) (r : Ref sig .tc) (hr : r ∉ layerW1) :
    after layerOps1 V (r : DevRef τ sig) = V (r : DevRef τ sig) :=
  after_of_writes_sub layerOps1 V layerOps1_writes hr

/-- The result buffers of layerOps2, in order. -/
abbrev layerW2 : List (Ref sig .tc) :=
  [main_c_12, main_v88, main_v89, main_c_13, main_v90, main_v91, main_v92, main_v93,
    main_v94, main_cst_14, main_v95, main_v96, main_v97, main_v98, main_v99, main_v100,
    main_v101, main_v102, main_v103, main_v104, main_v105, main_v106, main_v107, main_v108,
    main_v109, main_v110, main_cst_15, main_v111, main_cst_16, main_v112, main_v113, main_c_17,
    main_call4.cst.ref, main_call4.v0.ref, main_call4.v1.ref, main_call4.cst_0.ref, main_call4.v2.ref, main_call4.v3.ref, main_call4.v4.ref, main_call4.v5.ref,
    main_call4.v6.ref, main_call4.v7.ref, main_call4.cst_1.ref, main_call4.v8.ref, main_call4.cst_2.ref, main_call4.v9.ref, main_call4.v10.ref, main_call4.v11.ref,
    main_call4.cst_3.ref, main_call4.v12.ref, main_call4.cst_4.ref, main_call4.call0.v0.ref, main_call4.call0.v1.ref, main_call4.call0.v2.ref, main_v115, main_v116,
    main_v117, main_cst_18, main_v118, main_v119, main_v120, main_v121, main_v122, main_v123,
    main_v124, main_v125, main_v126, main_v127, main_v128, main_v129, main_call5.cst.ref, main_call5.v0.ref,
    main_call5.v1.ref]

theorem layerOps2_writes : (layerOps2 : List (HloOp τ sig (Elt F))).Forall fun op => op.writes ⊆ ((layerW2).map (Proc.devRef (τ := τ) .tc)).toFinset :=
  ⟨writes_sub main_c_12 rfl (by decide), writes_sub main_v88 rfl (by decide), writes_sub main_v89 rfl (by decide),
    writes_sub main_c_13 rfl (by decide), writes_sub main_v90 rfl (by decide), writes_sub main_v91 rfl (by decide),
    writes_sub main_v92 rfl (by decide), writes_sub main_v93 rfl (by decide), writes_sub main_v94 rfl (by decide),
    writes_sub main_cst_14 rfl (by decide), writes_sub main_v95 rfl (by decide), writes_sub main_v96 rfl (by decide),
    writes_sub main_v97 rfl (by decide), writes_sub main_v98 rfl (by decide), writes_sub main_v99 rfl (by decide),
    writes_sub main_v100 rfl (by decide), writes_sub main_v101 rfl (by decide), writes_sub main_v102 rfl (by decide),
    writes_sub main_v103 rfl (by decide), writes_sub main_v104 rfl (by decide), writes_sub main_v105 rfl (by decide),
    writes_sub main_v106 rfl (by decide), writes_sub main_v107 rfl (by decide), writes_sub main_v108 rfl (by decide),
    writes_sub main_v109 rfl (by decide), writes_sub main_v110 rfl (by decide), writes_sub main_cst_15 rfl (by decide),
    writes_sub main_v111 rfl (by decide), writes_sub main_cst_16 rfl (by decide), writes_sub main_v112 rfl (by decide),
    writes_sub main_v113 rfl (by decide), writes_sub main_c_17 rfl (by decide), writes_sub (main_call4.cst.ref) rfl (by decide),
    writes_sub (main_call4.v0.ref) rfl (by decide), writes_sub (main_call4.v1.ref) rfl (by decide), writes_sub (main_call4.cst_0.ref) rfl (by decide),
    writes_sub (main_call4.v2.ref) rfl (by decide), writes_sub (main_call4.v3.ref) rfl (by decide), writes_sub (main_call4.v4.ref) rfl (by decide),
    writes_sub (main_call4.v5.ref) rfl (by decide), writes_sub (main_call4.v6.ref) rfl (by decide), writes_sub (main_call4.v7.ref) rfl (by decide),
    writes_sub (main_call4.cst_1.ref) rfl (by decide), writes_sub (main_call4.v8.ref) rfl (by decide), writes_sub (main_call4.cst_2.ref) rfl (by decide),
    writes_sub (main_call4.v9.ref) rfl (by decide), writes_sub (main_call4.v10.ref) rfl (by decide), writes_sub (main_call4.v11.ref) rfl (by decide),
    writes_sub (main_call4.cst_3.ref) rfl (by decide), writes_sub (main_call4.v12.ref) rfl (by decide), writes_sub (main_call4.cst_4.ref) rfl (by decide),
    writes_sub (main_call4.call0.v0.ref) rfl (by decide), writes_sub (main_call4.call0.v1.ref) rfl (by decide), writes_sub (main_call4.call0.v2.ref) rfl (by decide),
    writes_sub main_v115 rfl (by decide), writes_sub main_v116 rfl (by decide), writes_sub main_v117 rfl (by decide),
    writes_sub main_cst_18 rfl (by decide), writes_sub main_v118 rfl (by decide), writes_sub main_v119 rfl (by decide),
    writes_sub main_v120 rfl (by decide), writes_sub main_v121 rfl (by decide), writes_sub main_v122 rfl (by decide),
    writes_sub main_v123 rfl (by decide), writes_sub main_v124 rfl (by decide), writes_sub main_v125 rfl (by decide),
    writes_sub main_v126 rfl (by decide), writes_sub main_v127 rfl (by decide), writes_sub main_v128 rfl (by decide),
    writes_sub main_v129 rfl (by decide), writes_sub (main_call5.cst.ref) rfl (by decide), writes_sub (main_call5.v0.ref) rfl (by decide),
    writes_sub (main_call5.v1.ref) rfl (by decide)⟩

/-- A buffer layerOps2 does not write keeps its contents. -/
theorem layerOps2_keep (V : Valuation τ sig (Elt F)) (r : Ref sig .tc) (hr : r ∉ layerW2) :
    after layerOps2 V (r : DevRef τ sig) = V (r : DevRef τ sig) :=
  after_of_writes_sub layerOps2 V layerOps2_writes hr

/-- The result buffers of layerOps3, in order. -/
abbrev layerW3 : List (Ref sig .tc) :=
  [main_c_19, main_v131, main_v132, main_c_20, main_v133, main_v134, main_v135, main_v136,
    main_v137, main_cst_21, main_v138, main_v139, main_v140, main_v141, main_v142, main_v143,
    main_v144, main_v145, main_v146, main_v147, main_v148, main_v149, main_v150, main_v151,
    main_v152, main_v153, main_cst_22, main_v154, main_cst_23, main_v155, main_v156, main_c_24,
    main_call6.cst.ref, main_call6.v0.ref, main_call6.v1.ref, main_call6.cst_0.ref, main_call6.v2.ref, main_call6.v3.ref, main_call6.v4.ref, main_call6.v5.ref,
    main_call6.v6.ref, main_call6.v7.ref, main_call6.cst_1.ref, main_call6.v8.ref, main_call6.cst_2.ref, main_call6.v9.ref, main_call6.v10.ref, main_call6.v11.ref,
    main_call6.cst_3.ref, main_call6.v12.ref, main_call6.cst_4.ref, main_call6.call0.v0.ref, main_call6.call0.v1.ref, main_call6.call0.v2.ref, main_v158, main_v159,
    main_v160, main_cst_25, main_v161, main_v162, main_v163, main_v164, main_v165, main_v166,
    main_v167, main_v168, main_v169, main_v170, main_v171, main_v172, main_call7.cst.ref, main_call7.v0.ref,
    main_call7.v1.ref]

theorem layerOps3_writes : (layerOps3 : List (HloOp τ sig (Elt F))).Forall fun op => op.writes ⊆ ((layerW3).map (Proc.devRef (τ := τ) .tc)).toFinset :=
  ⟨writes_sub main_c_19 rfl (by decide), writes_sub main_v131 rfl (by decide), writes_sub main_v132 rfl (by decide),
    writes_sub main_c_20 rfl (by decide), writes_sub main_v133 rfl (by decide), writes_sub main_v134 rfl (by decide),
    writes_sub main_v135 rfl (by decide), writes_sub main_v136 rfl (by decide), writes_sub main_v137 rfl (by decide),
    writes_sub main_cst_21 rfl (by decide), writes_sub main_v138 rfl (by decide), writes_sub main_v139 rfl (by decide),
    writes_sub main_v140 rfl (by decide), writes_sub main_v141 rfl (by decide), writes_sub main_v142 rfl (by decide),
    writes_sub main_v143 rfl (by decide), writes_sub main_v144 rfl (by decide), writes_sub main_v145 rfl (by decide),
    writes_sub main_v146 rfl (by decide), writes_sub main_v147 rfl (by decide), writes_sub main_v148 rfl (by decide),
    writes_sub main_v149 rfl (by decide), writes_sub main_v150 rfl (by decide), writes_sub main_v151 rfl (by decide),
    writes_sub main_v152 rfl (by decide), writes_sub main_v153 rfl (by decide), writes_sub main_cst_22 rfl (by decide),
    writes_sub main_v154 rfl (by decide), writes_sub main_cst_23 rfl (by decide), writes_sub main_v155 rfl (by decide),
    writes_sub main_v156 rfl (by decide), writes_sub main_c_24 rfl (by decide), writes_sub (main_call6.cst.ref) rfl (by decide),
    writes_sub (main_call6.v0.ref) rfl (by decide), writes_sub (main_call6.v1.ref) rfl (by decide), writes_sub (main_call6.cst_0.ref) rfl (by decide),
    writes_sub (main_call6.v2.ref) rfl (by decide), writes_sub (main_call6.v3.ref) rfl (by decide), writes_sub (main_call6.v4.ref) rfl (by decide),
    writes_sub (main_call6.v5.ref) rfl (by decide), writes_sub (main_call6.v6.ref) rfl (by decide), writes_sub (main_call6.v7.ref) rfl (by decide),
    writes_sub (main_call6.cst_1.ref) rfl (by decide), writes_sub (main_call6.v8.ref) rfl (by decide), writes_sub (main_call6.cst_2.ref) rfl (by decide),
    writes_sub (main_call6.v9.ref) rfl (by decide), writes_sub (main_call6.v10.ref) rfl (by decide), writes_sub (main_call6.v11.ref) rfl (by decide),
    writes_sub (main_call6.cst_3.ref) rfl (by decide), writes_sub (main_call6.v12.ref) rfl (by decide), writes_sub (main_call6.cst_4.ref) rfl (by decide),
    writes_sub (main_call6.call0.v0.ref) rfl (by decide), writes_sub (main_call6.call0.v1.ref) rfl (by decide), writes_sub (main_call6.call0.v2.ref) rfl (by decide),
    writes_sub main_v158 rfl (by decide), writes_sub main_v159 rfl (by decide), writes_sub main_v160 rfl (by decide),
    writes_sub main_cst_25 rfl (by decide), writes_sub main_v161 rfl (by decide), writes_sub main_v162 rfl (by decide),
    writes_sub main_v163 rfl (by decide), writes_sub main_v164 rfl (by decide), writes_sub main_v165 rfl (by decide),
    writes_sub main_v166 rfl (by decide), writes_sub main_v167 rfl (by decide), writes_sub main_v168 rfl (by decide),
    writes_sub main_v169 rfl (by decide), writes_sub main_v170 rfl (by decide), writes_sub main_v171 rfl (by decide),
    writes_sub main_v172 rfl (by decide), writes_sub (main_call7.cst.ref) rfl (by decide), writes_sub (main_call7.v0.ref) rfl (by decide),
    writes_sub (main_call7.v1.ref) rfl (by decide)⟩

/-- A buffer layerOps3 does not write keeps its contents. -/
theorem layerOps3_keep (V : Valuation τ sig (Elt F)) (r : Ref sig .tc) (hr : r ∉ layerW3) :
    after layerOps3 V (r : DevRef τ sig) = V (r : DevRef τ sig) :=
  after_of_writes_sub layerOps3 V layerOps3_writes hr

/-- The result buffers of poolOps, in order. -/
abbrev poolW : List (Ref sig .tc) :=
  [main_cst_26, main_v174, main_v175, main_v176, main_cst_27, main_v177, main_cst_28, main_v178,
    main_v179, main_v180, main_cst_29, main_v181, main_v182, main_v183, main_v184, main_v185]

theorem poolOps_writes : (poolOps : List (HloOp τ sig (Elt F))).Forall fun op => op.writes ⊆ ((poolW).map (Proc.devRef (τ := τ) .tc)).toFinset :=
  ⟨writes_sub main_cst_26 rfl (by decide), writes_sub main_v174 rfl (by decide), writes_sub main_v175 rfl (by decide),
    writes_sub main_v176 rfl (by decide), writes_sub main_cst_27 rfl (by decide), writes_sub main_v177 rfl (by decide),
    writes_sub main_cst_28 rfl (by decide), writes_sub main_v178 rfl (by decide), writes_sub main_v179 rfl (by decide),
    writes_sub main_v180 rfl (by decide), writes_sub main_cst_29 rfl (by decide), writes_sub main_v181 rfl (by decide),
    writes_sub main_v182 rfl (by decide), writes_sub main_v183 rfl (by decide), writes_sub main_v184 rfl (by decide),
    writes_sub main_v185 rfl (by decide)⟩

/-- A buffer poolOps does not write keeps its contents. -/
theorem poolOps_keep (V : Valuation τ sig (Elt F)) (r : Ref sig .tc) (hr : r ∉ poolW) :
    after poolOps V (r : DevRef τ sig) = V (r : DevRef τ sig) :=
  after_of_writes_sub poolOps V poolOps_writes hr

/-- The result buffers of headOps, in order. -/
abbrev headW : List (Ref sig .tc) :=
  [main_v186, main_v187, main_v188, main_v189, main_call8.cst.ref, main_call8.v0.ref, main_call8.v1.ref, main_call8.cst_0.ref,
    main_call8.v2.ref, main_call8.v3.ref, main_call8.cst_1.ref, main_call8.call0.v0.ref, main_call8.call0.v1.ref, main_call8.call0.v2.ref, main_call8.v5.ref, main_call8.cst_2.ref,
    main_call8.v6.ref, main_call8.v7.ref, main_call8.call1.v0.ref, main_v191, main_v192, main_v193, main_v194, main_call9.cst.ref,
    main_call9.v0.ref, main_call9.cst_0.ref, main_call9.v1.ref, main_call9.v2.ref, main_call9.v3.ref, main_call9.v4.ref, main_call9.v5.ref, main_call9.v6.ref,
    main_call9.cst_1.ref, main_call9.v7.ref, main_call9.v8.ref, main_call9.v9.ref, main_call9.v10.ref, main_call9.v11.ref]

theorem headOps_writes : (headOps : List (HloOp τ sig (Elt F))).Forall fun op => op.writes ⊆ ((headW).map (Proc.devRef (τ := τ) .tc)).toFinset :=
  ⟨writes_sub main_v186 rfl (by decide), writes_sub main_v187 rfl (by decide), writes_sub main_v188 rfl (by decide),
    writes_sub main_v189 rfl (by decide), writes_sub (main_call8.cst.ref) rfl (by decide), writes_sub (main_call8.v0.ref) rfl (by decide),
    writes_sub (main_call8.v1.ref) rfl (by decide), writes_sub (main_call8.cst_0.ref) rfl (by decide), writes_sub (main_call8.v2.ref) rfl (by decide),
    writes_sub (main_call8.v3.ref) rfl (by decide), writes_sub (main_call8.cst_1.ref) rfl (by decide), writes_sub (main_call8.call0.v0.ref) rfl (by decide),
    writes_sub (main_call8.call0.v1.ref) rfl (by decide), writes_sub (main_call8.call0.v2.ref) rfl (by decide), writes_sub (main_call8.v5.ref) rfl (by decide),
    writes_sub (main_call8.cst_2.ref) rfl (by decide), writes_sub (main_call8.v6.ref) rfl (by decide), writes_sub (main_call8.v7.ref) rfl (by decide),
    writes_sub (main_call8.call1.v0.ref) rfl (by decide), writes_sub main_v191 rfl (by decide), writes_sub main_v192 rfl (by decide),
    writes_sub main_v193 rfl (by decide), writes_sub main_v194 rfl (by decide), writes_sub (main_call9.cst.ref) rfl (by decide),
    writes_sub (main_call9.v0.ref) rfl (by decide), writes_sub (main_call9.cst_0.ref) rfl (by decide), writes_sub (main_call9.v1.ref) rfl (by decide),
    writes_sub (main_call9.v2.ref) rfl (by decide), writes_sub (main_call9.v3.ref) rfl (by decide), writes_sub (main_call9.v4.ref) rfl (by decide),
    writes_sub (main_call9.v5.ref) rfl (by decide), writes_sub (main_call9.v6.ref) rfl (by decide), writes_sub (main_call9.cst_1.ref) rfl (by decide),
    writes_sub (main_call9.v7.ref) rfl (by decide), writes_sub (main_call9.v8.ref) rfl (by decide), writes_sub (main_call9.v9.ref) rfl (by decide),
    writes_sub (main_call9.v10.ref) rfl (by decide), writes_sub (main_call9.v11.ref) rfl (by decide)⟩

/-- A buffer headOps does not write keeps its contents. -/
theorem headOps_keep (V : Valuation τ sig (Elt F)) (r : Ref sig .tc) (hr : r ∉ headW) :
    after headOps V (r : DevRef τ sig) = V (r : DevRef τ sig) :=
  after_of_writes_sub headOps V headOps_writes hr

/-! ## What each stretch computes

For an arbitrary valuation `V` of the buffers when a stretch is entered, the buffer the stretch is for holds,
after it, the stage of the network named for it, of the contents `V` has at the buffers the stretch reads. The
stages are the reference's own whole-array terms, so each equation is the fold computed at the result buffer. -/

/-- Row 0 of the edge list, flattened: the source nodes. -/
theorem edge_src (V : Valuation τ sig (Elt F)) :
    after edgeOps V (main_v1 : DevRef τ sig) = Cert.Spec.srcOf (V (main_arg2 : DevRef τ sig)) := by
  dsimp only [edgeOps]
  after_results_simp <;> rfl

/-- Row 1 of the edge list, flattened: the destination nodes. -/
theorem edge_dst (V : Valuation τ sig (Elt F)) :
    after edgeOps V (main_v3 : DevRef τ sig) = Cert.Spec.dstOf (V (main_arg2 : DevRef τ sig)) := by
  dsimp only [edgeOps]
  after_results_simp <;> rfl

/-- Layer 0: aggregation over the edges, the linear map with the first weight, column statistics, normalization, ReLU. -/
theorem layer0_val (V : Valuation τ sig (Elt F)) :
    after layerOps0 V (main_v44 : DevRef τ sig)
      = Cert.Spec.layer (V (main_arg0 : DevRef τ sig)) (V (main_v1 : DevRef τ sig)) (V (main_v3 : DevRef τ sig)) (V (main_arg4 : DevRef τ sig))
          (Cert.Spec.row0 (V (main_arg6 : DevRef τ sig))) (Cert.Spec.row0 (V (main_arg7 : DevRef τ sig))) (Cert.Spec.row0 (V (main_arg8 : DevRef τ sig))) := by
  dsimp only [layerOps0]
  after_results_simp <;> rfl

/-- Layer 1: the same stages on the previous layer's result, with matrix 0 of the stacked weights and row 1 of each parameter table. -/
theorem layer1_val (V : Valuation τ sig (Elt F)) :
    after layerOps1 V (main_v87 : DevRef τ sig)
      = Cert.Spec.layer (V (main_v44 : DevRef τ sig)) (V (main_v1 : DevRef τ sig)) (V (main_v3 : DevRef τ sig)) (Cert.Spec.mat0 (V (main_arg5 : DevRef τ sig)))
          (Cert.Spec.row1 (V (main_arg6 : DevRef τ sig))) (Cert.Spec.row1 (V (main_arg7 : DevRef τ sig))) (Cert.Spec.row1 (V (main_arg8 : DevRef τ sig))) := by
  dsimp only [layerOps1]
  after_results_simp <;> rfl

/-- Layer 2: the same stages on the previous layer's result, with matrix 1 of the stacked weights and row 2 of each parameter table. -/
theorem layer2_val (V : Valuation τ sig (Elt F)) :
    after layerOps2 V (main_v130 : DevRef τ sig)
      = Cert.Spec.layer (V (main_v87 : DevRef τ sig)) (V (main_v1 : DevRef τ sig)) (V (main_v3 : DevRef τ sig)) (Cert.Spec.mat1 (V (main_arg5 : DevRef τ sig)))
          (Cert.Spec.row2 (V (main_arg6 : DevRef τ sig))) (Cert.Spec.row2 (V (main_arg7 : DevRef τ sig))) (Cert.Spec.row2 (V (main_arg8 : DevRef τ sig))) := by
  dsimp only [layerOps2]
  after_results_simp <;> rfl

/-- Layer 3: the same stages on the previous layer's result, with matrix 2 of the stacked weights and row 3 of each parameter table. -/
theorem layer3_val (V : Valuation τ sig (Elt F)) :
    after layerOps3 V (main_v173 : DevRef τ sig)
      = Cert.Spec.layer (V (main_v130 : DevRef τ sig)) (V (main_v1 : DevRef τ sig)) (V (main_v3 : DevRef τ sig)) (Cert.Spec.mat2 (V (main_arg5 : DevRef τ sig)))
          (Cert.Spec.row3 (V (main_arg6 : DevRef τ sig))) (Cert.Spec.row3 (V (main_arg7 : DevRef τ sig))) (Cert.Spec.row3 (V (main_arg8 : DevRef τ sig))) := by
  dsimp only [layerOps3]
  after_results_simp <;> rfl

/-- The mean of the node rows of each graph. -/
theorem pool_val (V : Valuation τ sig (Elt F)) :
    after poolOps V (main_v185 : DevRef τ sig) = Cert.Spec.pool (V (main_v173 : DevRef τ sig)) (V (main_arg3 : DevRef τ sig)) := by
  dsimp only [poolOps]
  after_results_simp <;> rfl

/-- The head: two linear maps with ELU between them, then log-softmax over the graph axis. -/
theorem head_val (V : Valuation τ sig (Elt F)) :
    after headOps V (main_v195 : DevRef τ sig)
      = Cert.Spec.head (V (main_v185 : DevRef τ sig)) (V (main_arg9 : DevRef τ sig)) (V (main_arg10 : DevRef τ sig)) (V (main_arg11 : DevRef τ sig)) (V (main_arg12 : DevRef τ sig)) := by
  dsimp only [headOps]
  after_results_simp <;> rfl

/-! ## The whole line

The fold over all 348 operations is the seven stretches' folds in turn. The result buffer then holds the head of the
pooled fourth layer, each stage reading the arguments (which no operation writes) and the two edge rows (written once,
before the layers) at their launch contents. -/

theorem allOps_after (V : Valuation τ sig (Elt F)) :
    after (allOps (F := F)) V
      = after headOps (after poolOps (after layerOps3 (after layerOps2 (after layerOps1 (after layerOps0 (after edgeOps V)))))) := by
  simp only [allOps, after_append]

/-- A buffer none of the seven stretches writes keeps its launch contents to the end. -/
theorem allOps_keep (V : Valuation τ sig (Elt F)) (r : Ref sig .tc)
    (h0 : r ∉ edgeW) (h1 : r ∉ layerW0) (h2 : r ∉ layerW1) (h3 : r ∉ layerW2) (h4 : r ∉ layerW3) (h5 : r ∉ poolW) (h6 : r ∉ headW) :
    after (allOps (F := F)) V (r : DevRef τ sig) = V (r : DevRef τ sig) := by
  rw [allOps_after, headOps_keep _ r h6, poolOps_keep _ r h5, layerOps3_keep _ r h4, layerOps2_keep _ r h3,
    layerOps1_keep _ r h2, layerOps0_keep _ r h1, edgeOps_keep _ r h0]

/-- The result buffer after the whole line: the network of the arguments. -/
theorem net_val (V : Valuation τ sig (Elt F)) :
    after (allOps (F := F)) V (main_v195 : DevRef τ sig)
      = Cert.Spec.net (V (main_arg0 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) (V (main_arg10 : DevRef τ sig))
          (V (main_arg11 : DevRef τ sig)) (V (main_arg12 : DevRef τ sig)) := by
  rw [allOps_after, head_val, pool_val,
    poolOps_keep _ main_arg9 (by decide), poolOps_keep _ main_arg10 (by decide), poolOps_keep _ main_arg11 (by decide), poolOps_keep _ main_arg12 (by decide),
    layer3_val,
    layerOps3_keep _ main_arg3 (by decide), layerOps3_keep _ main_arg9 (by decide), layerOps3_keep _ main_arg10 (by decide), layerOps3_keep _ main_arg11 (by decide), layerOps3_keep _ main_arg12 (by decide),
    layer2_val,
    layerOps2_keep _ main_v1 (by decide), layerOps2_keep _ main_v3 (by decide), layerOps2_keep _ main_arg5 (by decide), layerOps2_keep _ main_arg6 (by decide), layerOps2_keep _ main_arg7 (by decide), layerOps2_keep _ main_arg8 (by decide), layerOps2_keep _ main_arg3 (by decide), layerOps2_keep _ main_arg9 (by decide), layerOps2_keep _ main_arg10 (by decide), layerOps2_keep _ main_arg11 (by decide), layerOps2_keep _ main_arg12 (by decide),
    layer1_val,
    layerOps1_keep _ main_v1 (by decide), layerOps1_keep _ main_v3 (by decide), layerOps1_keep _ main_arg5 (by decide), layerOps1_keep _ main_arg6 (by decide), layerOps1_keep _ main_arg7 (by decide), layerOps1_keep _ main_arg8 (by decide), layerOps1_keep _ main_arg3 (by decide), layerOps1_keep _ main_arg9 (by decide), layerOps1_keep _ main_arg10 (by decide), layerOps1_keep _ main_arg11 (by decide), layerOps1_keep _ main_arg12 (by decide),
    layer0_val,
    layerOps0_keep _ main_v1 (by decide), layerOps0_keep _ main_v3 (by decide), layerOps0_keep _ main_arg5 (by decide), layerOps0_keep _ main_arg6 (by decide), layerOps0_keep _ main_arg7 (by decide), layerOps0_keep _ main_arg8 (by decide), layerOps0_keep _ main_arg3 (by decide), layerOps0_keep _ main_arg9 (by decide), layerOps0_keep _ main_arg10 (by decide), layerOps0_keep _ main_arg11 (by decide), layerOps0_keep _ main_arg12 (by decide),
    edge_src, edge_dst,
    edgeOps_keep _ main_arg0 (by decide), edgeOps_keep _ main_arg4 (by decide), edgeOps_keep _ main_arg5 (by decide), edgeOps_keep _ main_arg6 (by decide), edgeOps_keep _ main_arg7 (by decide), edgeOps_keep _ main_arg8 (by decide), edgeOps_keep _ main_arg3 (by decide), edgeOps_keep _ main_arg9 (by decide), edgeOps_keep _ main_arg10 (by decide), edgeOps_keep _ main_arg11 (by decide), edgeOps_keep _ main_arg12 (by decide)]
  rfl

/-- From any memory with zero counters every weakly fair execution of the reference terminates with the result buffer
    at the network of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v195)
        = Cert.Spec.net (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v195).trans (net_val (launchContents m c)),
      (h c main_arg0).trans (allOps_keep (launchContents m c) main_arg0 (by decide) (by decide) (by decide) (by decide) (by decide) (by decide) (by decide)),
      (h c main_arg1).trans (allOps_keep (launchContents m c) main_arg1 (by decide) (by decide) (by decide) (by decide) (by decide) (by decide) (by decide)),
      (h c main_arg2).trans (allOps_keep (launchContents m c) main_arg2 (by decide) (by decide) (by decide) (by decide) (by decide) (by decide) (by decide)),
      (h c main_arg3).trans (allOps_keep (launchContents m c) main_arg3 (by decide) (by decide) (by decide) (by decide) (by decide) (by decide) (by decide)),
      (h c main_arg4).trans (allOps_keep (launchContents m c) main_arg4 (by decide) (by decide) (by decide) (by decide) (by decide) (by decide) (by decide)),
      (h c main_arg5).trans (allOps_keep (launchContents m c) main_arg5 (by decide) (by decide) (by decide) (by decide) (by decide) (by decide) (by decide)),
      (h c main_arg6).trans (allOps_keep (launchContents m c) main_arg6 (by decide) (by decide) (by decide) (by decide) (by decide) (by decide) (by decide)),
      (h c main_arg7).trans (allOps_keep (launchContents m c) main_arg7 (by decide) (by decide) (by decide) (by decide) (by decide) (by decide) (by decide)),
      (h c main_arg8).trans (allOps_keep (launchContents m c) main_arg8 (by decide) (by decide) (by decide) (by decide) (by decide) (by decide) (by decide)),
      (h c main_arg9).trans (allOps_keep (launchContents m c) main_arg9 (by decide) (by decide) (by decide) (by decide) (by decide) (by decide) (by decide)),
      (h c main_arg10).trans (allOps_keep (launchContents m c) main_arg10 (by decide) (by decide) (by decide) (by decide) (by decide) (by decide) (by decide)),
      (h c main_arg11).trans (allOps_keep (launchContents m c) main_arg11 (by decide) (by decide) (by decide) (by decide) (by decide) (by decide) (by decide)),
      (h c main_arg12).trans (allOps_keep (launchContents m c) main_arg12 (by decide) (by decide) (by decide) (by decide) (by decide) (by decide) (by decide))⟩)
    (run_main m ρ)

end Cert.ReferenceIdeal.Hand

end
-- ==== Proof.lean ====
/-
  The certificate: the kernel program, its idealization and the reference run and leave their arguments
  unchanged, and the idealized kernel program and the idealized reference, run from memories that agree on the
  arguments, end with equal results as extended reals.

  Both results are ONE function of the thirteen argument arrays, Cert.Spec.net: four graph-convolution layers
  h ↦ max(0, bn((h + A h) W + b)) with the batch statistics taken over the 100000 nodes, a mean pool over 100
  graphs, and a two-layer head ending in a log-softmax over the graph axis.  The reference computes every stage
  with whole-array host operations; the kernel program computes the matrix products, the normalisations and the
  head inside TensorCore regions, block by block.  Stage by stage the two sides apply the same operations to
  the same operands in the same grouping (a matrix product into a zero accumulator against a dot_general, both the
  same sum over the contracted index; a change of float format the identity; exp x - 1 against expm1 x), so
  no law of the extended reals beyond 0 + x = x, 1 * x = x and max(-inf, x) = x is used and the finiteness of
  the inputs is never opened.  The idealization rewrote nothing, so that it preserves the kernel is trivial.
-/
import proofs.«177976_j84851373900196_1_alg».proof.Defs
import proofs.«177976_j84851373900196_1_alg».proof.Proof.Gen.Kernel
import proofs.«177976_j84851373900196_1_alg».proof.Proof.Gen.Kernel.Skeleton
import proofs.«177976_j84851373900196_1_alg».proof.Proof.Gen.Kernel.Launch
import proofs.«177976_j84851373900196_1_alg».proof.Proof.Gen.Kernel.Points
import proofs.«177976_j84851373900196_1_alg».proof.Proof.Gen.Kernel.Frame
import proofs.«177976_j84851373900196_1_alg».proof.Proof.Gen.KernelIdeal
import proofs.«177976_j84851373900196_1_alg».proof.Proof.Gen.KernelIdeal.Skeleton
import proofs.«177976_j84851373900196_1_alg».proof.Proof.Gen.KernelIdeal.Launch
import proofs.«177976_j84851373900196_1_alg».proof.Proof.Gen.KernelIdeal.Points
import proofs.«177976_j84851373900196_1_alg».proof.Proof.Gen.KernelIdeal.Frame
import proofs.«177976_j84851373900196_1_alg».proof.Proof.Gen.ReferenceIdeal
import proofs.«177976_j84851373900196_1_alg».proof.Proof.Gen.Pre_finite_inputs
import proofs.«177976_j84851373900196_1_alg».proof.Proof.KRun
import proofs.«177976_j84851373900196_1_alg».proof.Proof.KChain
import proofs.«177976_j84851373900196_1_alg».proof.Proof.RefRun
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Both programs end with Cert.Spec.net of the arguments, which agree. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.result_at m ρ c), (h c).2⟩) (Cert.KernelIdeal.Hand.run_value m ρ)
  · refine (θ_run Cert.ReferenceIdeal.defs _ _).mono (fun r h c => ⟨?_, (h c).2⟩) (Cert.ReferenceIdeal.Hand.run (F := Ideal) m' ρ')
    obtain ⟨e0, _, e2, e3, e4, e5, e6, e7, e8, e9, e10, e11, e12⟩ := hagree c
    rw [(h c).1, e0, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
